-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x40 : Shape := ⟨2, ![262144, 40]⟩
abbrev S40x30 : Shape := ⟨2, ![40, 30]⟩
abbrev S_ : Shape := ⟨0, ![]⟩

class Facts : Prop where
  bcast_S_S262144x40 : S_.BroadcastsInDim S262144x40 (![] : Fin 0 → Fin S262144x40.rank)
  reducesTo_S262144x40_S_d0_1 : S262144x40.ReducesTo [0, 1] S_
  h_S_ : 0 < S_.numel
  bcast_S_S40x30 : S_.BroadcastsInDim S40x30 (![] : Fin 0 → Fin S40x30.rank)
  reducesTo_S40x30_S_d0_1 : S40x30.ReducesTo [0, 1] S_

variable [Facts]

def fn {F : FTy → Type} [FloatOps F] (main_arg0 : FVec F S262144x40 .f32) (main_arg1 : IVec S262144x40 32) (main_arg2 : FVec F S40x30 .f32) : IVec S_ 1 :=
  let main_v0 : FVec F S262144x40 .f32 := Host.absf main_arg0
  let main_cst : FVec F S_ .f32 := constant S_ .f32 0x7F800000#32
  let main_v1 : FVec F S262144x40 .f32 := broadcastInDim S262144x40 ![] bcast_S_S262144x40 main_cst
  let main_v2 : IVec S262144x40 1 := cmpf .olt main_v0 main_v1
  let main_c : IVec S_ 1 := constantI S_ 1 1#1
  let main_v3 : IVec S_ 1 := (fun x v => Host.reduce IntOp.andi x v reducesTo_S262144x40_S_d0_1 h_S_) main_v2 main_c
  let main_v4 : FVec F S40x30 .f32 := Host.absf main_arg2
  let main_cst_0 : FVec F S_ .f32 := constant S_ .f32 0x7F800000#32
  let main_v5 : FVec F S40x30 .f32 := broadcastInDim S40x30 ![] bcast_S_S40x30 main_cst_0
  let main_v6 : IVec S40x30 1 := cmpf .olt main_v4 main_v5
  let main_c_1 : IVec S_ 1 := constantI S_ 1 1#1
  let main_v7 : IVec S_ 1 := (fun x v => Host.reduce IntOp.andi x v reducesTo_S40x30_S_d0_1 h_S_) main_v6 main_c_1
  let main_v8 : IVec S_ 1 := andi main_v3 main_v7
  main_v8
-- ==== Kernel.lean ====
abbrev S262144x40 : Shape := ⟨2, ![262144, 40]⟩
abbrev S40x30 : Shape := ⟨2, ![40, 30]⟩
abbrev S2x30x40 : Shape := ⟨3, ![2, 30, 40]⟩
abbrev S4096x40 : Shape := ⟨2, ![4096, 40]⟩
abbrev S1x30x40 : Shape := ⟨3, ![1, 30, 40]⟩
abbrev S30x40 : Shape := ⟨2, ![30, 40]⟩
abbrev S40 : Shape := ⟨1, ![40]⟩
abbrev S1x40 : Shape := ⟨2, ![1, 40]⟩
abbrev S_ : Shape := ⟨0, ![]⟩
abbrev S2x1x1 : Shape := ⟨3, ![2, 1, 1]⟩
abbrev S1x1x1 : Shape := ⟨3, ![1, 1, 1]⟩
abbrev S1x1 : Shape := ⟨2, ![1, 1]⟩
abbrev S4096 : Shape := ⟨1, ![4096]⟩
abbrev S4096x1 : Shape := ⟨2, ![4096, 1]⟩
abbrev S1 : Shape := ⟨1, ![1]⟩

abbrev nBuf : Space → Nat
  | .hbm => 33
  | .vmem => 15
  | .smem => 0
  | _ => 0

abbrev bufTy : (tb : Table) → Fin (tcTables nBuf tb) → BufTy
  | .hbm, ⟨0, _⟩ => ⟨S262144x40, .f32⟩
  | .hbm, ⟨1, _⟩ => ⟨S262144x40, .i32⟩
  | .hbm, ⟨2, _⟩ => ⟨S40x30, .f32⟩
  | .hbm, ⟨3, _⟩ => ⟨S2x30x40, .f32⟩
  | .hbm, ⟨4, _⟩ => ⟨S_, .f32⟩
  | .hbm, ⟨5, _⟩ => ⟨S30x40, .f32⟩
  | .hbm, ⟨6, _⟩ => ⟨S30x40, .f32⟩
  | .hbm, ⟨7, _⟩ => ⟨S_, .f32⟩
  | .hbm, ⟨8, _⟩ => ⟨S30x40, .f32⟩
  | .hbm, ⟨9, _⟩ => ⟨S30x40, .i1⟩
  | .hbm, ⟨10, _⟩ => ⟨S_, .f32⟩
  | .hbm, ⟨11, _⟩ => ⟨S30x40, .f32⟩
  | .hbm, ⟨12, _⟩ => ⟨S30x40, .f32⟩
  | .hbm, ⟨13, _⟩ => ⟨S_, .f32⟩
  | .hbm, ⟨14, _⟩ => ⟨S30x40, .f32⟩
  | .hbm, ⟨15, _⟩ => ⟨S30x40, .f32⟩
  | .hbm, ⟨16, _⟩ => ⟨S30x40, .f32⟩
  | .hbm, ⟨17, _⟩ => ⟨S30x40, .f32⟩
  | .hbm, ⟨18, _⟩ => ⟨S30x40, .i32⟩
  | .hbm, ⟨19, _⟩ => ⟨S_, .i32⟩
  | .hbm, ⟨20, _⟩ => ⟨S40, .i32⟩
  | .hbm, ⟨21, _⟩ => ⟨S40, .f32⟩
  | .hbm, ⟨22, _⟩ => ⟨S_, .f32⟩
  | .hbm, ⟨23, _⟩ => ⟨S30x40, .f32⟩
  | .hbm, ⟨24, _⟩ => ⟨S30x40, .f32⟩
  | .hbm, ⟨25, _⟩ => ⟨S1x40, .f32⟩
  | .hbm, ⟨26, _⟩ => ⟨S30x40, .f32⟩
  | .hbm, ⟨27, _⟩ => ⟨S30x40, .f32⟩
  | .hbm, ⟨28, _⟩ => ⟨S2x1x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S4096x40, .f32⟩
  | .local _ .vmem, ⟨1, _⟩ => ⟨S4096x40, .f32⟩
  | .local _ .vmem, ⟨2, _⟩ => ⟨S4096x40, .i32⟩
  | .local _ .vmem, ⟨3, _⟩ => ⟨S4096x40, .i32⟩
  | .local _ .vmem, ⟨4, _⟩ => ⟨S1x30x40, .f32⟩
  | .local _ .vmem, ⟨5, _⟩ => ⟨S1x30x40, .f32⟩
  | .local _ .vmem, ⟨6, _⟩ => ⟨S30x40, .f32⟩
  | .local _ .vmem, ⟨7, _⟩ => ⟨S4096x40, .f32⟩
  | .local _ .vmem, ⟨8, _⟩ => ⟨S4096x40, .f32⟩
  | .local _ .vmem, ⟨9, _⟩ => ⟨S4096x40, .i32⟩
  | .local _ .vmem, ⟨10, _⟩ => ⟨S4096x40, .i32⟩
  | .local _ .vmem, ⟨11, _⟩ => ⟨S30x40, .f32⟩
  | .local _ .vmem, ⟨12, _⟩ => ⟨S1x1x1, .f32⟩
  | .local _ .vmem, ⟨13, _⟩ => ⟨S1x1x1, .f32⟩
  | .local _ .vmem, ⟨14, _⟩ => ⟨S1x1, .f32⟩
  | _, _ => ⟨S262144x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v344 : BitVec 1 := Scalar.cmpi .eq arg1 c31_i32
  let v345 : BitVec 32 := Scalar.extui v344
  let c0_i32_127 : BitVec 32 := 0#32
  let v346 : BitVec 1 := Scalar.cmpi .ne v345 c0_i32_127
  v346

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x40 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x30x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v335 : BitVec 1 := Scalar.cmpi .eq arg1 c31_i32
  let v336 : BitVec 32 := Scalar.extui v335
  let c0_i32_46 : BitVec 32 := 0#32
  let v337 : BitVec 1 := Scalar.cmpi .ne v336 c0_i32_46
  v337

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x40 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S30x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S30x40_S30x40_0_0 : ∀ a, (![0, 0] : Fin 2 → Nat) a + S30x40.size a ≤ S30x40.size a
  h_S30x40 : 0 < S30x40.numel
  shapeCasts_S30x40_S30x40 : S30x40.ShapeCasts S30x40
  inb_S4096x40_S4096x40_0_0 : ∀ a, (![0, 0] : Fin 2 → Nat) a + S4096x40.size a ≤ S4096x40.size a
  h_S4096x40 : 0 < S4096x40.numel
  natLt_1_32 : 1 < 32
  reduces_S4096x40_S40 : S4096x40.Reduces [0] S40
  inb_S30x40_S1x40_0_0 : ∀ a, (![0, 0] : Fin 2 → Nat) a + S1x40.size a ≤ S30x40.size a
  h_S1x40 : 0 < S1x40.numel
  shapeCasts_S1x40_S40 : S1x40.ShapeCasts S40
  shapeCasts_S40_S1x40 : S40.ShapeCasts S1x40
  inb_S30x40_S1x40_1_0 : ∀ a, (![1, 0] : Fin 2 → Nat) a + S1x40.size a ≤ S30x40.size a
  inb_S30x40_S1x40_2_0 : ∀ a, (![2, 0] : Fin 2 → Nat) a + S1x40.size a ≤ S30x40.size a
  inb_S30x40_S1x40_3_0 : ∀ a, (![3, 0] : Fin 2 → Nat) a + S1x40.size a ≤ S30x40.size a
  inb_S30x40_S1x40_4_0 : ∀ a, (![4, 0] : Fin 2 → Nat) a + S1x40.size a ≤ S30x40.size a
  inb_S30x40_S1x40_5_0 : ∀ a, (![5, 0] : Fin 2 → Nat) a + S1x40.size a ≤ S30x40.size a
  inb_S30x40_S1x40_6_0 : ∀ a, (![6, 0] : Fin 2 → Nat) a + S1x40.size a ≤ S30x40.size a
  inb_S30x40_S1x40_7_0 : ∀ a, (![7, 0] : Fin 2 → Nat) a + S1x40.size a ≤ S30x40.size a
  inb_S30x40_S1x40_8_0 : ∀ a, (![8, 0] : Fin 2 → Nat) a + S1x40.size a ≤ S30x40.size a
  inb_S30x40_S1x40_9_0 : ∀ a, (![9, 0] : Fin 2 → Nat) a + S1x40.size a ≤ S30x40.size a
  inb_S30x40_S1x40_10_0 : ∀ a, (![10, 0] : Fin 2 → Nat) a + S1x40.size a ≤ S30x40.size a
  inb_S30x40_S1x40_11_0 : ∀ a, (![11, 0] : Fin 2 → Nat) a + S1x40.size a ≤ S30x40.size a
  inb_S30x40_S1x40_12_0 : ∀ a, (![12, 0] : Fin 2 → Nat) a + S1x40.size a ≤ S30x40.size a
  inb_S30x40_S1x40_13_0 : ∀ a, (![13, 0] : Fin 2 → Nat) a + S1x40.size a ≤ S30x40.size a
  inb_S30x40_S1x40_14_0 : ∀ a, (![14, 0] : Fin 2 → Nat) a + S1x40.size a ≤ S30x40.size a
  inb_S30x40_S1x40_15_0 : ∀ a, (![15, 0] : Fin 2 → Nat) a + S1x40.size a ≤ S30x40.size a
  inb_S30x40_S1x40_16_0 : ∀ a, (![16, 0] : Fin 2 → Nat) a + S1x40.size a ≤ S30x40.size a
  inb_S30x40_S1x40_17_0 : ∀ a, (![17, 0] : Fin 2 → Nat) a + S1x40.size a ≤ S30x40.size a
  inb_S30x40_S1x40_18_0 : ∀ a, (![18, 0] : Fin 2 → Nat) a + S1x40.size a ≤ S30x40.size a
  inb_S30x40_S1x40_19_0 : ∀ a, (![19, 0] : Fin 2 → Nat) a + S1x40.size a ≤ S30x40.size a
  inb_S30x40_S1x40_20_0 : ∀ a, (![20, 0] : Fin 2 → Nat) a + S1x40.size a ≤ S30x40.size a
  inb_S30x40_S1x40_21_0 : ∀ a, (![21, 0] : Fin 2 → Nat) a + S1x40.size a ≤ S30x40.size a
  inb_S30x40_S1x40_22_0 : ∀ a, (![22, 0] : Fin 2 → Nat) a + S1x40.size a ≤ S30x40.size a
  inb_S30x40_S1x40_23_0 : ∀ a, (![23, 0] : Fin 2 → Nat) a + S1x40.size a ≤ S30x40.size a
  inb_S30x40_S1x40_24_0 : ∀ a, (![24, 0] : Fin 2 → Nat) a + S1x40.size a ≤ S30x40.size a
  inb_S30x40_S1x40_25_0 : ∀ a, (![25, 0] : Fin 2 → Nat) a + S1x40.size a ≤ S30x40.size a
  inb_S30x40_S1x40_26_0 : ∀ a, (![26, 0] : Fin 2 → Nat) a + S1x40.size a ≤ S30x40.size a
  inb_S30x40_S1x40_27_0 : ∀ a, (![27, 0] : Fin 2 → Nat) a + S1x40.size a ≤ S30x40.size a
  inb_S30x40_S1x40_28_0 : ∀ a, (![28, 0] : Fin 2 → Nat) a + S1x40.size a ≤ S30x40.size a
  inb_S30x40_S1x40_29_0 : ∀ a, (![29, 0] : Fin 2 → Nat) a + S1x40.size a ≤ S30x40.size a
  inb_S1x30x40_S1x30x40_0_0_0 : ∀ a, (![0, 0, 0] : Fin 3 → Nat) a + S1x30x40.size a ≤ S1x30x40.size a
  h_S1x30x40 : 0 < S1x30x40.numel
  shapeCasts_S1x30x40_S30x40 : S1x30x40.ShapeCasts S30x40
  shapeCasts_S30x40_S1x30x40 : S30x40.ShapeCasts S1x30x40
  reducesTo_S2x30x40_S30x40_d0 : S2x30x40.ReducesTo [0] S30x40
  h_S_ : 0 < S_.numel
  transposes_S40x30_S30x40_1_0 : S40x30.Transposes [1, 0] S30x40
  bcast_S_S30x40 : S_.BroadcastsInDim S30x40 (![] : Fin 0 → Fin S30x40.rank)
  reducesTo_S30x40_S40_d0 : S30x40.ReducesTo [0] S40
  bcast_S40_S1x40_1 : S40.BroadcastsInDim S1x40 (![1] : Fin 1 → Fin S1x40.rank)
  bcast_S1x40_S30x40_0_1 : S1x40.BroadcastsInDim S30x40 (![0, 1] : Fin 2 → Fin S30x40.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x40_S4096x40 : S1x40.Broadcasts S4096x40
  reduces_S4096x40_S4096 : S4096x40.Reduces [1] S4096
  shapeCasts_S4096_S4096x1 : S4096.ShapeCasts S4096x1
  reduces_S4096x1_S1 : S4096x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x40.size a ≤ S262144x40.size a
  hwx0_0 : ∀ i : grid0.Coords, EltTy.bits .f32 = 32 ∨ (Rect.block (s := S262144x40) S4096x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x40.size a ≤ S262144x40.size a
  hwx0_1 : ∀ i : grid0.Coords, EltTy.bits .i32 = 32 ∨ (Rect.block (s := S262144x40) S4096x40.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x30x40.size a ≤ S2x30x40.size a
  hwx0_2 : ∀ i : grid0.Coords, EltTy.bits .f32 = 32 ∨ (Rect.block (s := S2x30x40) S1x30x40.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x40.size a ≤ S262144x40.size a
  hwx1_0 : ∀ i : grid1.Coords, EltTy.bits .f32 = 32 ∨ (Rect.block (s := S262144x40) S4096x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x40.size a ≤ S262144x40.size a
  hwx1_1 : ∀ i : grid1.Coords, EltTy.bits .i32 = 32 ∨ (Rect.block (s := S262144x40) S4096x40.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S30x40.size a ≤ S30x40.size a
  hwx1_2 : ∀ i : grid1.Coords, EltTy.bits .f32 = 32 ∨ (Rect.block (s := S30x40) S30x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2x1x1.size a
  hwx1_3 : ∀ i : grid1.Coords, EltTy.bits .f32 = 32 ∨ (Rect.block (s := S2x1x1) S1x1x1.size (cc1_transform_3 i) (hinb1_3 i)).WholeWords (EltTy.packing .f32)

variable [Facts₀]

abbrev win0_0 : Pipeline.Window sig grid0 :=
  Pipeline.Window.ofSpec (Memref.whole main_arg0) S4096x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x30x40.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S4096x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x40.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S30x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S262144x40 : Shape := ⟨2, ![262144, 40]⟩
abbrev S40x30 : Shape := ⟨2, ![40, 30]⟩
abbrev S_ : Shape := ⟨0, ![]⟩
abbrev S40 : Shape := ⟨1, ![40]⟩
abbrev S1x40 : Shape := ⟨2, ![1, 40]⟩
abbrev S262144x40x1 : Shape := ⟨3, ![262144, 40, 1]⟩
abbrev S262144x40x2 : Shape := ⟨3, ![262144, 40, 2]⟩

abbrev nBuf : Space → Nat
  | .hbm => 100
  | .vmem => 0
  | .smem => 0
  | _ => 0

abbrev bufTy : (tb : Table) → Fin (tcTables nBuf tb) → BufTy
  | .hbm, ⟨0, _⟩ => ⟨S262144x40, .f32⟩
  | .hbm, ⟨1, _⟩ => ⟨S262144x40, .i32⟩
  | .hbm, ⟨2, _⟩ => ⟨S40x30, .f32⟩
  | .hbm, ⟨3, _⟩ => ⟨S262144x40, .f32⟩
  | .hbm, ⟨4, _⟩ => ⟨S262144x40, .f32⟩
  | .hbm, ⟨5, _⟩ => ⟨S262144x40, .f32⟩
  | .hbm, ⟨6, _⟩ => ⟨S_, .f32⟩
  | .hbm, ⟨7, _⟩ => ⟨S262144x40, .f32⟩
  | .hbm, ⟨8, _⟩ => ⟨S262144x40, .f32⟩
  | .hbm, ⟨9, _⟩ => ⟨S_, .f32⟩
  | .hbm, ⟨10, _⟩ => ⟨S262144x40, .f32⟩
  | .hbm, ⟨11, _⟩ => ⟨S262144x40, .f32⟩
  | .hbm, ⟨12, _⟩ => ⟨S262144x40, .f32⟩
  | .hbm, ⟨13, _⟩ => ⟨S262144x40, .f32⟩
  | .hbm, ⟨14, _⟩ => ⟨S_, .f32⟩
  | .hbm, ⟨15, _⟩ => ⟨S262144x40, .f32⟩
  | .hbm, ⟨16, _⟩ => ⟨S262144x40, .f32⟩
  | .hbm, ⟨17, _⟩ => ⟨S262144x40, .i32⟩
  | .hbm, ⟨18, _⟩ => ⟨S_, .i32⟩
  | .hbm, ⟨19, _⟩ => ⟨S262144x40, .i32⟩
  | .hbm, ⟨20, _⟩ => ⟨S262144x40, .i32⟩
  | .hbm, ⟨21, _⟩ => ⟨S40, .i32⟩
  | .hbm, ⟨22, _⟩ => ⟨S1x40, .i32⟩
  | .hbm, ⟨23, _⟩ => ⟨S262144x40, .i32⟩
  | .hbm, ⟨24, _⟩ => ⟨S_, .f32⟩
  | .hbm, ⟨25, _⟩ => ⟨S40x30, .f32⟩
  | .hbm, ⟨26, _⟩ => ⟨S_, .i32⟩
  | .hbm, ⟨27, _⟩ => ⟨S262144x40, .i32⟩
  | .hbm, ⟨28, _⟩ => ⟨S262144x40, .i1⟩
  | .hbm, ⟨29, _⟩ => ⟨S_, .i32⟩
  | .hbm, ⟨30, _⟩ => ⟨S262144x40, .i32⟩
  | .hbm, ⟨31, _⟩ => ⟨S262144x40, .i32⟩
  | .hbm, ⟨32, _⟩ => ⟨S262144x40, .i32⟩
  | .hbm, ⟨33, _⟩ => ⟨S_, .i32⟩
  | .hbm, ⟨34, _⟩ => ⟨S262144x40, .i32⟩
  | .hbm, ⟨35, _⟩ => ⟨S262144x40, .i1⟩
  | .hbm, ⟨36, _⟩ => ⟨S_, .i32⟩
  | .hbm, ⟨37, _⟩ => ⟨S262144x40, .i32⟩
  | .hbm, ⟨38, _⟩ => ⟨S262144x40, .i32⟩
  | .hbm, ⟨39, _⟩ => ⟨S262144x40, .i32⟩
  | .hbm, ⟨40, _⟩ => ⟨S262144x40x1, .i32⟩
  | .hbm, ⟨41, _⟩ => ⟨S262144x40x1, .i32⟩
  | .hbm, ⟨42, _⟩ => ⟨S262144x40x2, .i32⟩
  | .hbm, ⟨43, _⟩ => ⟨S_, .f32⟩
  | .hbm, ⟨44, _⟩ => ⟨S262144x40, .f32⟩
  | .hbm, ⟨45, _⟩ => ⟨S40x30, .f32⟩
  | .hbm, ⟨46, _⟩ => ⟨S_, .f32⟩
  | .hbm, ⟨47, _⟩ => ⟨S40x30, .f32⟩
  | .hbm, ⟨48, _⟩ => ⟨S40x30, .i1⟩
  | .hbm, ⟨49, _⟩ => ⟨S_, .f32⟩
  | .hbm, ⟨50, _⟩ => ⟨S40x30, .f32⟩
  | .hbm, ⟨51, _⟩ => ⟨S40x30, .f32⟩
  | .hbm, ⟨52, _⟩ => ⟨S_, .f32⟩
  | .hbm, ⟨53, _⟩ => ⟨S40x30, .f32⟩
  | .hbm, ⟨54, _⟩ => ⟨S40x30, .f32⟩
  | .hbm, ⟨55, _⟩ => ⟨S40x30, .f32⟩
  | .hbm, ⟨56, _⟩ => ⟨S40x30, .f32⟩
  | .hbm, ⟨57, _⟩ => ⟨S_, .i32⟩
  | .hbm, ⟨58, _⟩ => ⟨S262144x40, .i32⟩
  | .hbm, ⟨59, _⟩ => ⟨S262144x40, .i1⟩
  | .hbm, ⟨60, _⟩ => ⟨S_, .i32⟩
  | .hbm, ⟨61, _⟩ => ⟨S262144x40, .i32⟩
  | .hbm, ⟨62, _⟩ => ⟨S262144x40, .i32⟩
  | .hbm, ⟨63, _⟩ => ⟨S262144x40, .i32⟩
  | .hbm, ⟨64, _⟩ => ⟨S_, .i32⟩
  | .hbm, ⟨65, _⟩ => ⟨S262144x40, .i32⟩
  | .hbm, ⟨66, _⟩ => ⟨S262144x40, .i1⟩
  | .hbm, ⟨67, _⟩ => ⟨S_, .i32⟩
  | .hbm, ⟨68, _⟩ => ⟨S262144x40, .i32⟩
  | .hbm, ⟨69, _⟩ => ⟨S262144x40, .i32⟩
  | .hbm, ⟨70, _⟩ => ⟨S262144x40, .i32⟩
  | .hbm, ⟨71, _⟩ => ⟨S262144x40x1, .i32⟩
  | .hbm, ⟨72, _⟩ => ⟨S262144x40x1, .i32⟩
  | .hbm, ⟨73, _⟩ => ⟨S262144x40x2, .i32⟩
  | .hbm, ⟨74, _⟩ => ⟨S262144x40, .f32⟩
  | .hbm, ⟨75, _⟩ => ⟨S_, .f32⟩
  | .hbm, ⟨76, _⟩ => ⟨S262144x40, .f32⟩
  | .hbm, ⟨77, _⟩ => ⟨S262144x40, .f32⟩
  | .hbm, ⟨78, _⟩ => ⟨S40x30, .i32⟩
  | .hbm, ⟨79, _⟩ => ⟨S_, .i32⟩
  | .hbm, ⟨80, _⟩ => ⟨S40, .i32⟩
  | .hbm, ⟨81, _⟩ => ⟨S40, .f32⟩
  | .hbm, ⟨82, _⟩ => ⟨S1x40, .f32⟩
  | .hbm, ⟨83, _⟩ => ⟨S262144x40, .f32⟩
  | .hbm, ⟨84, _⟩ => ⟨S262144x40, .f32⟩
  | .hbm, ⟨85, _⟩ => ⟨S_, .f32⟩
  | .hbm, ⟨86, _⟩ => ⟨S262144x40, .f32⟩
  | .hbm, ⟨87, _⟩ => ⟨S262144x40, .f32⟩
  | .hbm, ⟨88, _⟩ => ⟨S262144x40, .f32⟩
  | .hbm, ⟨89, _⟩ => ⟨S262144x40, .f32⟩
  | .hbm, ⟨90, _⟩ => ⟨S262144x40, .f32⟩
  | .hbm, ⟨91, _⟩ => ⟨S262144x40, .f32⟩
  | .hbm, ⟨92, _⟩ => ⟨S262144x40, .f32⟩
  | .hbm, ⟨93, _⟩ => ⟨S262144x40, .f32⟩
  | .hbm, ⟨94, _⟩ => ⟨S262144x40, .f32⟩
  | .hbm, ⟨95, _⟩ => ⟨S262144x40, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S262144x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_11 : Ref sig .tc := ⟨.hbm, 57, rfl⟩
abbrev main_v41 : Ref sig .tc := ⟨.hbm, 58, rfl⟩
abbrev main_v42 : Ref sig .tc := ⟨.hbm, 59, rfl⟩
abbrev main_c_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_13 : Ref sig .tc := ⟨.hbm, 64, rfl⟩
abbrev main_v46 : Ref sig .tc := ⟨.hbm, 65, rfl⟩
abbrev main_v47 : Ref sig .tc := ⟨.hbm, 66, rfl⟩
abbrev main_c_14 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_17 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_18 : Ref sig .tc := ⟨.hbm, 96, rfl⟩
abbrev main_v73 : Ref sig .tc := ⟨.hbm, 97, rfl⟩
abbrev main_cst_19 : Ref sig .tc := ⟨.hbm, 98, rfl⟩
abbrev main_v74 : Ref sig .tc := ⟨.hbm, 99, rfl⟩

abbrev nD : Nat := 1
abbrev τ : Topo := Topo.v7x

variable {F : FTy → Type} [FloatOps F]

class Facts₀ : Prop where
  bcast_S_S262144x40 : S_.BroadcastsInDim S262144x40 (![] : Fin 0 → Fin S262144x40.rank)
  bcast_S40_S1x40_1 : S40.BroadcastsInDim S1x40 (![1] : Fin 1 → Fin S1x40.rank)
  bcast_S1x40_S262144x40_0_1 : S1x40.BroadcastsInDim S262144x40 (![0, 1] : Fin 2 → Fin S262144x40.rank)
  bcast_S_S40x30 : S_.BroadcastsInDim S40x30 (![] : Fin 0 → Fin S40x30.rank)
  bcast_S262144x40_S262144x40x1_0_1 : S262144x40.BroadcastsInDim S262144x40x1 (![0, 1] : Fin 2 → Fin S262144x40x1.rank)
  concatenates_S262144x40x1_S262144x40x1_S262144x40x2_d2 : Shape.Concatenates [S262144x40x1, S262144x40x1] S262144x40x2 2
  natLt_1_32 : 1 < 32
  reducesTo_S40x30_S40_d1 : S40x30.ReducesTo [1] S40
  h_S_ : 0 < S_.numel
  reducesTo_S262144x40_S_d0_1 : S262144x40.ReducesTo [0, 1] S_
  scatter_S40x30_S262144x40x2_S262144x40_n_01_01_2_wf : ScatterDims.WF S40x30 S262144x40x2 S262144x40 [] [0, 1] [0, 1] 2
  gather_S40x30_S262144x40x2_S262144x40_n_01_n_n_01_2_11_wf : GatherDims.WF S40x30 S262144x40x2 S262144x40 [] [0, 1] [] [0, 1] [] 2 ![1, 1]

variable [Facts₀]

def scatter_S40x30_S262144x40x2_S262144x40_n_01_01_2 : ScatterDims S40x30 S262144x40x2 S262144x40 where
  updateWindowDims := []
  insertedWindowDims := [0, 1]
  scatterDimsToOperandDims := [0, 1]
  indexVectorDim := 2
  wf := scatter_S40x30_S262144x40x2_S262144x40_n_01_01_2_wf
def gather_S40x30_S262144x40x2_S262144x40_n_01_n_n_01_2_11 : GatherDims S40x30 S262144x40x2 S262144x40 where
  offsetDims := []
  collapsedSliceDims := [0, 1]
  operandBatchingDims := []
  startIndicesBatchingDims := []
  startIndexMap := [0, 1]
  indexVectorDim := 2
  sliceSizes := ![1, 1]
  wf := gather_S40x30_S262144x40x2_S262144x40_n_01_n_n_01_2_11_wf

class Facts : Prop extends Facts₀ where

variable [Facts]
-- ==== Proof.HistRuns.lean ====
/-
  The body of the histogram kernel (one shard's bin counts: the scratch accumulator holds, per bin and class, the number of rows seen so far whose gradient magnitude falls in the bin), run once at a symbolic grid point in each of the three situations its two conditionals
  distinguish. A shard's 32 row tiles are visited in order (the grid's inner coordinate): at the FIRST tile the body
  clears its accumulator before adding the tile's contribution; at a MIDDLE tile it only adds; at the LAST tile it adds
  and then copies the accumulator into the shard's output block. In each situation the body, started with whole staging
  buffers for its inputs, runs to its end without a fault, leaves the input buffers as they were, and leaves in the
  accumulator (and, at the last tile, in the output block) a list of stored pieces, which the run itself finds.
  The statements hold for any interpretation of the floats, so they serve the word-level program and the idealized one.
-/
import proofs.«148571_j17987323036120_1_alg».proof.Proof.Gen.KernelIdeal.Launch
import proofs.«148571_j17987323036120_1_alg».proof.Proof.Gen.KernelIdeal.Skeleton
import proofs.«148571_j17987323036120_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, in closed form over the grid -/

/-- The body's first conditional, as the kernel computes it from the inner grid coordinate: "this is tile 0 of the shard". -/
abbrev isFirstTile (i : grid0.Coords) : Prop :=
  (Scalar.cmpi .ne (Scalar.extui (Scalar.cmpi .eq (BitVec.ofNat 32 (i 1).val) 0#32)) 0#32) = 1#1
/-- The body's last conditional: "this is tile 31 of the shard". -/
abbrev isLastTile (i : grid0.Coords) : Prop := k0_cond2 i = 1#1

/-- Point `t` of the 2 × 32 grid is a shard's first tile exactly when `t` is a multiple of 32 (decided over the 64 points). -/
theorem isFirstTile_iff : ∀ t : Fin cfg0.N, isFirstTile (grid0.coords t) ↔ t.val % 32 = 0 :=
  (by decide +kernel : ∀ t : Fin grid0.N, isFirstTile (grid0.coords t) ↔ t.val % 32 = 0)
/-- … and a shard's last tile exactly when `t` is 31 modulo 32. -/
theorem isLastTile_iff : ∀ t : Fin cfg0.N, isLastTile (grid0.coords t) ↔ t.val % 32 = 31 :=
  (by decide +kernel : ∀ t : Fin grid0.N, isLastTile (grid0.coords t) ↔ t.val % 32 = 31)

/-! ## The three runs -/

set_option maxHeartbeats 4000000 in
/-- FIRST TILE. The accumulator may hold anything: the body overwrites it whole with zeros before it reads it. The output
    block is not touched (its contents `xo` are handed back as they were). -/
noncomputable def runFirst (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hfirst : isFirstTile i) (hlast : ¬isLastTile i)
    (x0 : Vec F S4096x40 .f32) (x1 : Vec F S4096x40 .i32) :
    { acc : List (View.Piece (Elt F) S30x40 .f32) //
      ∀ (xo : Vec F S1x30x40 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f acc)) -∗ K ⟨⟩))
          ⊢ wp frame (wpE (defs₀ (F := F)) Variants.none c none) E (cc0__hist_kernel i arg2 harg2 arg3 harg3 arg4 harg4 arg5 harg5) K } := by
  refine ⟨?_, fun xo E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 4000000 in
/-- MIDDLE TILE. The accumulator holds what the tile before left (`xacc`); the output block is not touched. -/
noncomputable def runMiddle (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hfirst : ¬isFirstTile i) (hlast : ¬isLastTile i)
    (x0 : Vec F S4096x40 .f32) (x1 : Vec F S4096x40 .i32) (xacc : Vec F S30x40 .f32) :
    { acc : List (View.Piece (Elt F) S30x40 .f32) //
      ∀ (xo : Vec F S1x30x40 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xacc
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f acc)) -∗ K ⟨⟩))
          ⊢ wp frame (wpE (defs₀ (F := F)) Variants.none c none) E (cc0__hist_kernel i arg2 harg2 arg3 harg3 arg4 harg4 arg5 harg5) K } := by
  refine ⟨?_, fun xo E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo; obtain rfl := harg5.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 4000000 in
/-- LAST TILE. The accumulator holds what the tile before left; after adding this tile's contribution the body stores the
    accumulator into the output block, whole, whatever the block held. -/
noncomputable def runLast (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hfirst : ¬isFirstTile i) (hlast : isLastTile i)
    (x0 : Vec F S4096x40 .f32) (x1 : Vec F S4096x40 .i32) (xacc : Vec F S30x40 .f32) :
    Σ' (out : List (View.Piece (Elt F) S1x30x40 .f32)), { acc : List (View.Piece (Elt F) S30x40 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xacc
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f out) ∗ (∃ f, arg5.view.loc (c : Thread nD τ) ↦[arg5.view.set]{fullShare} arg5.view.writes (Elt F) f acc)) -∗ K ⟨⟩))
          ⊢ wp frame (wpE (defs₀ (F := F)) Variants.none c none) E (cc0__hist_kernel i arg2 harg2 arg3 harg3 arg4 harg4 arg5 harg5) K } := by
  refine ⟨?_, ?_, fun E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%dO, %fo, -, HO⟩, ⟨%fs, %hfs, HS⟩, Hk⟩
    obtain rfl := harg2.eq_unread hf0; obtain rfl := harg3.eq_unread hf1; obtain rfl := harg5.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cert.KernelIdeal.Hist

end
-- ==== Proof.HistFrame.lean ====
/-
  THE HISTOGRAM REGION, POINT BY POINT. The grid has 2 × 32 points, visited in order: point `t` is tile `t % 32` of shard
  `t / 32`. The body keeps a 30 × 40 accumulator in a scratch buffer that lives across points. This module says what
  the accumulator and the shard's output block hold after every point, and proves the pipeline's body obligation from
  the three runs of the body:

  * after a shard's first tile the accumulator holds what the first-tile run stored (it does not depend on what was there);
  * after a later tile it holds what the middle- or last-tile run stored, a function of the tile's two input blocks and of
    what the accumulator held after the point before;
  * the output block is stored, whole, only at a shard's last tile, and only there is it written back.

  The region's invariant before point `t > 0` is therefore "the scratch buffer holds the contents named for point `t − 1`"
  (beside the other scoped buffers and the generator register, untouched); before point 0 the scratch holds anything.
  Every store list the runs produce covers its buffer (the first tile's list contains the whole-buffer zero fill, the other
  lists' thirty row stores tile the 30 × 40 buffer, the last tile's one store is the whole output block), so the
  contents read back do not depend on what the buffer held before.
-/
import proofs.«148571_j17987323036120_1_alg».proof.Proof.HistRuns

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `V c b`: the contents of core `c`'s TensorCore buffer `b` when the region is entered.
variable (V : (c : Dev nD) → (b : Ref sig .tc) → Buf (Elt F) ((c : Thread nD τ).loc b))

/-! ## The windows' blocks, the staging memrefs, the scratch -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it to the body, and its wholeness. -/
abbrev ms0 (t : Fin cfg0.N) : Memref sig .tc .vmem S4096x40 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x40 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x30x40 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev scM : Memref sig .tc .vmem S30x40 .f32 := Memref.whole cc0_scratch0
/-- Views through which the output block's and the accumulator's contents are stated. -/
abbrev VO : View sig .tc .vmem S1x30x40 .f32 := (Memref.whole cc0_stg2_0 : Memref sig .tc .vmem S1x30x40 .f32).view
abbrev VS : View sig .tc .vmem S30x40 .f32 := (scM : Memref sig .tc .vmem S30x40 .f32).view

/-- The other scoped buffers of the core that this region's windows do not stage: the second region's staging buffers and
    its scratch, each whole at some contents. The region never touches them. -/
abbrev restOf (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the launch hands the region's body besides the windows: the accumulator at some contents, the other scoped
    buffers, the generator register. -/
theorem PhiA_eq (c : Dev nD) :
    (Pipeline.ΦA spec0 c : sProp 𝕄)
      = iprop(iprop((∃ d, owns (c : Thread nD τ) scM fullShare d) ∗ restOf (F := F) c) ∗ (∃ r, prngReg c r)) := by
  unfold Pipeline.ΦA; rw [scopedRest0_eq]; simp only [scM, owns_whole]; try rfl

/-! ## Where the output window is idle -/

theorem live0 : ∀ t : Fin cfg0.N, cfg0.idle 0 (grid0.coords t) = false := fun _ => rfl
theorem live1 : ∀ t : Fin cfg0.N, cfg0.idle 1 (grid0.coords t) = false := fun _ => rfl
/-- Away from a shard's last tile the output window is idle and is not written back; -/
theorem idle2_of_not_last : ∀ t : Fin cfg0.N, ¬isLastTile (grid0.coords t) → cfg0.idle 2 (grid0.coords t) = true := by decide +kernel
theorem noFlush2_of_not_last : ∀ t : Fin cfg0.N, ¬isLastTile (grid0.coords t) → (cfg0.win 2).flush t = false := by decide +kernel
/-- at a last tile it is live. -/
theorem live2_of_last : ∀ t : Fin cfg0.N, isLastTile (grid0.coords t) → cfg0.idle 2 (grid0.coords t) = false := by decide +kernel

/-! ## What each case leaves -/

/-- FIRST TILE: the accumulator's stores read back (over anything: the list contains the zero fill of the whole buffer). -/
def accFirst (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : isFirstTile i) (hl : ¬isLastTile i)
    (x0 : Vec F S4096x40 .f32) (x1 : Vec F S4096x40 .i32) : Vec F S30x40 .f32 :=
  VS.read (Elt F) (VS.writes (Elt F) VS.junk (runFirst c i arg2 harg2 arg3 harg3 arg4 harg4 arg5 harg5 hf hl x0 x1).1)
theorem accFirst_cover (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : isFirstTile i) (hl : ¬isLastTile i)
    (x0 : Vec F S4096x40 .f32) (x1 : Vec F S4096x40 .i32) (y : S30x40.Idx) :
    ∃ pc ∈ (runFirst c i arg2 harg2 arg3 harg3 arg4 harg4 arg5 harg5 hf hl x0 x1).1, y ∈ pc.1.set :=
  View.cover_of_wholeMem (runFirst c i arg2 harg2 arg3 harg3 arg4 harg4 arg5 harg5 hf hl x0 x1).1 (by sl_whole_mem) y

/-- MIDDLE TILE: the thirty row stores read back; they tile the buffer. -/
def accMiddle (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : ¬isFirstTile i) (hl : ¬isLastTile i)
    (x0 : Vec F S4096x40 .f32) (x1 : Vec F S4096x40 .i32) (xacc : Vec F S30x40 .f32) : Vec F S30x40 .f32 :=
  VS.read (Elt F) (VS.writes (Elt F) VS.junk (runMiddle c i arg2 harg2 arg3 harg3 arg4 harg4 arg5 harg5 hf hl x0 x1 xacc).1)
theorem accMiddle_cover (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : ¬isFirstTile i) (hl : ¬isLastTile i)
    (x0 : Vec F S4096x40 .f32) (x1 : Vec F S4096x40 .i32) (xacc : Vec F S30x40 .f32) (y : S30x40.Idx) :
    ∃ pc ∈ (runMiddle c i arg2 harg2 arg3 harg3 arg4 harg4 arg5 harg5 hf hl x0 x1 xacc).1, y ∈ pc.1.set :=
  View.cover_of_tiledL (runMiddle c i arg2 harg2 arg3 harg3 arg4 harg4 arg5 harg5 hf hl x0 x1 xacc).1 S1x40.size (by sl_kernel_rfl) y

/-- LAST TILE: the accumulator's row stores, and the one whole store into the output block. -/
def accLast (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : ¬isFirstTile i) (hl : isLastTile i)
    (x0 : Vec F S4096x40 .f32) (x1 : Vec F S4096x40 .i32) (xacc : Vec F S30x40 .f32) : Vec F S30x40 .f32 :=
  VS.read (Elt F) (VS.writes (Elt F) VS.junk (runLast c i arg2 harg2 arg3 harg3 arg4 harg4 arg5 harg5 hf hl x0 x1 xacc).2.1)
theorem accLast_cover (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : ¬isFirstTile i) (hl : isLastTile i)
    (x0 : Vec F S4096x40 .f32) (x1 : Vec F S4096x40 .i32) (xacc : Vec F S30x40 .f32) (y : S30x40.Idx) :
    ∃ pc ∈ (runLast c i arg2 harg2 arg3 harg3 arg4 harg4 arg5 harg5 hf hl x0 x1 xacc).2.1, y ∈ pc.1.set :=
  View.cover_of_tiledL (runLast c i arg2 harg2 arg3 harg3 arg4 harg4 arg5 harg5 hf hl x0 x1 xacc).2.1 S1x40.size (by sl_kernel_rfl) y
def outLast (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : ¬isFirstTile i) (hl : isLastTile i)
    (x0 : Vec F S4096x40 .f32) (x1 : Vec F S4096x40 .i32) (xacc : Vec F S30x40 .f32) : Vec F S1x30x40 .f32 :=
  VO.read (Elt F) (VO.writes (Elt F) VO.junk (runLast c i arg2 harg2 arg3 harg3 arg4 harg4 arg5 harg5 hf hl x0 x1 xacc).1)
theorem outLast_cover (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : ¬isFirstTile i) (hl : isLastTile i)
    (x0 : Vec F S4096x40 .f32) (x1 : Vec F S4096x40 .i32) (xacc : Vec F S30x40 .f32) (y : S1x30x40.Idx) :
    ∃ pc ∈ (runLast c i arg2 harg2 arg3 harg3 arg4 harg4 arg5 harg5 hf hl x0 x1 xacc).1, y ∈ pc.1.set :=
  View.cover_of_tiledL (runLast c i arg2 harg2 arg3 harg3 arg4 harg4 arg5 harg5 hf hl x0 x1 xacc).1 S1x30x40.size (by sl_kernel_rfl) y

/-- The output block's contents where the body stores nothing into it: a placeholder nothing consults (the window is
    neither written back at such a point nor read at the next). -/
def outIdle : Vec F S1x30x40 .f32 := VO.read (Elt F) VO.junk

/-! ## What the output block and the accumulator hold after each point -/

/-- THE ACCUMULATION: after the body at position `n`, the pair (output block, accumulator). A shard's first tile starts
    afresh; every other tile continues from what position `n − 1` left in the accumulator. -/
def outsAt (c : Dev nD) : (n : ℕ) → n < cfg0.N → Vec F S1x30x40 .f32 × Vec F S30x40 .f32
  | 0, hn => (outIdle, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((isFirstTile_iff ⟨0, hn⟩).mpr (Nat.zero_mod _))
      (fun h => (fun h => by (try dsimp only at h); omega) ((isLastTile_iff ⟨0, hn⟩).mp h)) (iblk V c 0 ⟨0, hn⟩) (iblk V c 1 ⟨0, hn⟩))
  | n + 1, hn =>
    if h0 : (n + 1) % 32 = 0 then
      (outIdle, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((isFirstTile_iff ⟨n + 1, hn⟩).mpr h0)
        (fun h => (fun h => by (try dsimp only at h); omega) ((isLastTile_iff ⟨n + 1, hn⟩).mp h)) (iblk V c 0 ⟨n + 1, hn⟩) (iblk V c 1 ⟨n + 1, hn⟩))
    else if h2 : (n + 1) % 32 = 31 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirstTile_iff ⟨n + 1, hn⟩).mp h)) ((isLastTile_iff ⟨n + 1, hn⟩).mpr h2)
          (iblk V c 0 ⟨n + 1, hn⟩) (iblk V c 1 ⟨n + 1, hn⟩) (outsAt c n (Nat.lt_of_succ_lt hn)).2,
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirstTile_iff ⟨n + 1, hn⟩).mp h)) ((isLastTile_iff ⟨n + 1, hn⟩).mpr h2)
          (iblk V c 0 ⟨n + 1, hn⟩) (iblk V c 1 ⟨n + 1, hn⟩) (outsAt c n (Nat.lt_of_succ_lt hn)).2)
    else
      (outIdle, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirstTile_iff ⟨n + 1, hn⟩).mp h)) (fun h => h2 ((isLastTile_iff ⟨n + 1, hn⟩).mp h))
          (iblk V c 0 ⟨n + 1, hn⟩) (iblk V c 1 ⟨n + 1, hn⟩) (outsAt c n (Nat.lt_of_succ_lt hn)).2)

/-- At a shard's first tile: that case's contents. -/
theorem outsAt_first (c : Dev nD) (t : Fin cfg0.N) (h0 : t.val % 32 = 0) :
    outsAt V c t.val t.isLt = (outIdle, accFirst c (grid0.coords t) (ms0 t) (hs0 t) (ms1 t) (hs1 t) (ms2 t) (hs2 t) scM (Memref.isWhole_whole _) ((isFirstTile_iff t).mpr h0)
      (fun h => (fun h => by omega) ((isLastTile_iff t).mp h)) (iblk V c 0 t) (iblk V c 1 t)) := by
  obtain ⟨n, hn⟩ := t
  cases n with
  | zero => exact rfl
  | succ n => exact (dif_pos h0).trans rfl

/-- At a shard's last tile: that case's contents, over what the point before left in the accumulator. -/
theorem outsAt_last (c : Dev nD) (t : Fin cfg0.N) (h0 : ¬t.val % 32 = 0) (h2 : t.val % 32 = 31) :
    outsAt V c t.val t.isLt = (outLast c (grid0.coords t) (ms0 t) (hs0 t) (ms1 t) (hs1 t) (ms2 t) (hs2 t) scM (Memref.isWhole_whole _) (fun h => h0 ((isFirstTile_iff t).mp h)) ((isLastTile_iff t).mpr h2)
        (iblk V c 0 t) (iblk V c 1 t) (outsAt V c (t.val - 1) (Nat.lt_of_le_of_lt (Nat.sub_le _ _) t.isLt)).2,
      accLast c (grid0.coords t) (ms0 t) (hs0 t) (ms1 t) (hs1 t) (ms2 t) (hs2 t) scM (Memref.isWhole_whole _) (fun h => h0 ((isFirstTile_iff t).mp h)) ((isLastTile_iff t).mpr h2)
        (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans rfl)

/-- At a middle tile: that case's contents, over what the point before left in the accumulator. -/
theorem outsAt_middle (c : Dev nD) (t : Fin cfg0.N) (h0 : ¬t.val % 32 = 0) (h2 : ¬t.val % 32 = 31) :
    outsAt V c t.val t.isLt = (outIdle, accMiddle c (grid0.coords t) (ms0 t) (hs0 t) (ms1 t) (hs1 t) (ms2 t) (hs2 t) scM (Memref.isWhole_whole _) (fun h => h0 ((isFirstTile_iff t).mp h)) (fun h => h2 ((isLastTile_iff t).mp h))
        (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h2).trans rfl)

/-! ## The region's invariant -/

/-- Before position `n`: at the launch the scoped buffers at anything; afterwards the accumulator at what position `n − 1`
    left, the other scoped buffers and the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ restOf (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2) ∗ restOf (F := F) c) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2) ∗ restOf (F := F) c) ∗ (∃ r, prngReg c r)) := by
  cases n with
  | zero => exact absurd rfl hz
  | succ n => rfl

/-! ## The pipeline's proof data -/

/-- The proof data of the histogram pipeline on core `c`: the arrays as the region finds them; after the body at point
    `t` each input's buffer at its block and the output's at `outsAt`'s first component; the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = (outsAt V c t.val t.isLt).1 := by dsimp only [dat]
theorem before0 (c : Dev nD) (t : Fin cfg0.N) (d) : (dat V c).before 0 t d = iblk V c 0 t :=
  before_in0_of V (dat V c) (A_eq V c 0) (after0 V c) t d
theorem before1 (c : Dev nD) (t : Fin cfg0.N) (d) : (dat V c).before 1 t d = iblk V c 1 t :=
  before_in1_of V (dat V c) (A_eq V c 1) (after1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's residue modulo 32 says which run applies;
    the invariant hands the run the accumulator (at anything at point 0; at the named contents afterwards, which the
    first-tile run is free to forget) and takes it back at this point's contents, the store list read back by its cover;
    the output block is handed back untouched away from a last tile, and at a last tile holds the run's one store. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  have hN : t.val < 64 := lt_of_lt_of_eq t.isLt (show cfg0.N = 64 from N_0)
  by_cases h0 : t.val % 32 = 0
  · have hl : ¬isLastTile (grid0.coords t) := fun h => (fun h => by omega) ((isLastTile_iff t).mp h)
    rw [Dat.leavesExact_idle (dat V c) 2 t (idle2_of_not_last t hl) (noFlush2_of_not_last t hl)]
    rw [outsAt_first V c t h0]
    unfold accFirst; (try dsimp only)
    by_cases hz : t.val = 0
    · rw [PhiS_castSucc V c t, PhiS_zero V c _ _ hz, PhiA_eq]
      iintro ⟨⟨⟨HS, Hr⟩, Hg⟩, Ho, ⟨%d0, H0⟩, ⟨%d1, H1⟩, ⟨%d2, H2⟩⟩
      iapply ((runFirst c (grid0.coords t) _ _ _ _ _ _ _ _ ((isFirstTile_iff t).mpr h0) hl (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (accFirst_cover c _ _ _ _ _ _ _ _ _ _ _ _ _)
          iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hr⟩, Hg⟩, Ho, ⟨%d0, H0⟩, ⟨%d1, H1⟩, ⟨%d2, H2⟩⟩
      iapply ((runFirst c (grid0.coords t) _ _ _ _ _ _ _ _ ((isFirstTile_iff t).mpr h0) hl (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (accFirst_cover c _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun h => h0 (by rw [h])
    have hf : ¬isFirstTile (grid0.coords t) := fun h => h0 ((isFirstTile_iff t).mp h)
    by_cases h2 : t.val % 32 = 31
    · have hl : isLastTile (grid0.coords t) := (isLastTile_iff t).mpr h2
      rw [show (dat V c).leavesExact 2 t = owns (c : Thread nD τ) (ms2 t) fullShare ((dat V c).after 2 t) from by
        unfold Dat.leavesExact; rw [live2_of_last t hl], after2]
      rw [outsAt_last V c t h0 h2]
      unfold outLast accLast; (try dsimp only)
      rw [PhiS_castSucc V c t, PhiS_pos V c _ _ hz]
      iintro ⟨⟨⟨HS, Hr⟩, Hg⟩, Ho, ⟨%d0, H0⟩, ⟨%d1, H1⟩, ⟨%d2, H2⟩⟩
      iapply ((runLast c (grid0.coords t) _ _ _ _ _ _ _ _ hf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (accLast_cover c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · have hl : ¬isLastTile (grid0.coords t) := fun h => h2 ((isLastTile_iff t).mp h)
      rw [Dat.leavesExact_idle (dat V c) 2 t (idle2_of_not_last t hl) (noFlush2_of_not_last t hl)]
      rw [outsAt_middle V c t h0 h2]
      unfold accMiddle; (try dsimp only)
      rw [PhiS_castSucc V c t, PhiS_pos V c _ _ hz]
      iintro ⟨⟨⟨HS, Hr⟩, Hg⟩, Ho, ⟨%d0, H0⟩, ⟨%d1, H1⟩, ⟨%d2, H2⟩⟩
      iapply ((runMiddle c (grid0.coords t) _ _ _ _ _ _ _ _ hf hl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (accMiddle_cover c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the scoped buffers back: the accumulator's named contents are forgotten. -/
theorem hout (c : Dev nD) : (dat V c).Φ (Fin.last cfg0.N) ⊢ Pipeline.ΦA spec0 c := by
  have hne : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl,
    PhiS_pos V c _ _ hne, PhiA_eq]
  iintro ⟨⟨HS, Hr⟩, Hg⟩
  isplitl [HS Hr]
  · isplitl [HS]
    · iexists _; iexact HS
    iexact Hr
  iexact Hg

end Cert.KernelIdeal.Hist

end
-- ==== Proof.LossRuns.lean ====
/-
  The body of the loss kernel (one shard's weighted loss: the scratch accumulator holds the sum, over the rows seen so far, of the binary cross-entropy times the bin's weight), run once at a symbolic grid point in each of the three situations its two conditionals
  distinguish. A shard's 32 row tiles are visited in order (the grid's inner coordinate): at the FIRST tile the body
  clears its accumulator before adding the tile's contribution; at a MIDDLE tile it only adds; at the LAST tile it adds
  and then copies the accumulator into the shard's output block. In each situation the body, started with whole staging
  buffers for its inputs, runs to its end without a fault, leaves the input buffers as they were, and leaves in the
  accumulator (and, at the last tile, in the output block) a list of stored pieces, which the run itself finds.
  The statements hold for any interpretation of the floats, so they serve the word-level program and the idealized one.
-/
import proofs.«148571_j17987323036120_1_alg».proof.Proof.Gen.KernelIdeal.Launch
import proofs.«148571_j17987323036120_1_alg».proof.Proof.Gen.KernelIdeal.Skeleton
import proofs.«148571_j17987323036120_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, in closed form over the grid -/

/-- The body's first conditional, as the kernel computes it from the inner grid coordinate: "this is tile 0 of the shard". -/
abbrev isFirstTile (i : grid1.Coords) : Prop :=
  (Scalar.cmpi .ne (Scalar.extui (Scalar.cmpi .eq (BitVec.ofNat 32 (i 1).val) 0#32)) 0#32) = 1#1
/-- The body's last conditional: "this is tile 31 of the shard". -/
abbrev isLastTile (i : grid1.Coords) : Prop := k1_cond2 i = 1#1

/-- Point `t` of the 2 × 32 grid is a shard's first tile exactly when `t` is a multiple of 32 (decided over the 64 points). -/
theorem isFirstTile_iff : ∀ t : Fin cfg1.N, isFirstTile (grid1.coords t) ↔ t.val % 32 = 0 :=
  (by decide +kernel : ∀ t : Fin grid1.N, isFirstTile (grid1.coords t) ↔ t.val % 32 = 0)
/-- … and a shard's last tile exactly when `t` is 31 modulo 32. -/
theorem isLastTile_iff : ∀ t : Fin cfg1.N, isLastTile (grid1.coords t) ↔ t.val % 32 = 31 :=
  (by decide +kernel : ∀ t : Fin grid1.N, isLastTile (grid1.coords t) ↔ t.val % 32 = 31)

/-! ## The three runs -/

set_option maxHeartbeats 4000000 in
/-- FIRST TILE. The accumulator may hold anything: the body overwrites it whole with zeros before it reads it. The output
    block is not touched (its contents `xo` are handed back as they were). -/
noncomputable def runFirst (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hfirst : isFirstTile i) (hlast : ¬isLastTile i)
    (x0 : Vec F S4096x40 .f32) (x1 : Vec F S4096x40 .i32) (x2 : Vec F S30x40 .f32) :
    { acc : List (View.Piece (Elt F) S1x1 .f32) //
      ∀ (xo : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f acc)) -∗ K ⟨⟩))
          ⊢ wp frame (wpE (defs₀ (F := F)) Variants.none c none) E (cc1__loss_kernel i arg2 harg2 arg3 harg3 arg4 harg4 arg5 harg5 arg6 harg6) K } := by
  refine ⟨?_, fun xo E K => ?run⟩
  case run =>
    simp only [cc1__loss_kernel_eq_skeleton]; unfold cc1__loss_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hfo
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 4000000 in
/-- MIDDLE TILE. The accumulator holds what the tile before left (`xacc`); the output block is not touched. -/
noncomputable def runMiddle (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hfirst : ¬isFirstTile i) (hlast : ¬isLastTile i)
    (x0 : Vec F S4096x40 .f32) (x1 : Vec F S4096x40 .i32) (x2 : Vec F S30x40 .f32) (xacc : Vec F S1x1 .f32) :
    { acc : List (View.Piece (Elt F) S1x1 .f32) //
      ∀ (xo : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xacc
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f acc)) -∗ K ⟨⟩))
          ⊢ wp frame (wpE (defs₀ (F := F)) Variants.none c none) E (cc1__loss_kernel i arg2 harg2 arg3 harg3 arg4 harg4 arg5 harg5 arg6 harg6) K } := by
  refine ⟨?_, fun xo E K => ?run⟩
  case run =>
    simp only [cc1__loss_kernel_eq_skeleton]; unfold cc1__loss_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 4000000 in
/-- LAST TILE. The accumulator holds what the tile before left; after adding this tile's contribution the body stores the
    accumulator into the output block, whole, whatever the block held. -/
noncomputable def runLast (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hfirst : ¬isFirstTile i) (hlast : isLastTile i)
    (x0 : Vec F S4096x40 .f32) (x1 : Vec F S4096x40 .i32) (x2 : Vec F S30x40 .f32) (xacc : Vec F S1x1 .f32) :
    Σ' (out : List (View.Piece (Elt F) S1x1x1 .f32)), { acc : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xacc
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f out) ∗ (∃ f, arg6.view.loc (c : Thread nD τ) ↦[arg6.view.set]{fullShare} arg6.view.writes (Elt F) f acc)) -∗ K ⟨⟩))
          ⊢ wp frame (wpE (defs₀ (F := F)) Variants.none c none) E (cc1__loss_kernel i arg2 harg2 arg3 harg3 arg4 harg4 arg5 harg5 arg6 harg6) K } := by
  refine ⟨?_, ?_, fun E K => ?run⟩
  case run =>
    simp only [cc1__loss_kernel_eq_skeleton]; unfold cc1__loss_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%dO, %fo, -, HO⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.KernelIdeal.Loss

end
-- ==== Proof.LossFrame.lean ====
/-
  THE LOSS REGION, POINT BY POINT. The grid has 2 × 32 points, visited in order: point `t` is tile `t % 32` of shard
  `t / 32`. The body keeps a 1 × 1 accumulator in a scratch buffer that lives across points: the running sum of the
  weighted losses of the rows seen so far in the shard. The 30 × 40 weight table is a third input window whose block is
  the whole table at every point (it is fetched once). This module says what the accumulator and the shard's 1 × 1 × 1
  output block hold after every point, and proves the pipeline's body obligation from the three runs of the body, exactly
  as for the histogram region: a shard's first tile starts afresh, every other tile continues from what the point before
  left, and only a shard's last tile stores the output block and has it written back. Every store here is a store of the
  whole (one-element) buffer, so each store list covers its buffer.
-/
import proofs.«148571_j17987323036120_1_alg».proof.Proof.LossRuns

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `V c b`: the contents of core `c`'s TensorCore buffer `b` when the region is entered.
variable (V : (c : Dev nD) → (b : Ref sig .tc) → Buf (Elt F) ((c : Thread nD τ).loc b))

/-! ## The windows' blocks, the staging memrefs, the scratch -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the weight table's
    block index never moves, so the one fetch serves every point). -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg1.N) : Memref sig .tc .vmem S4096x40 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S4096x40 .i32 := win1_1.stage (cfg1.slots t 1)
abbrev hs1 (t : Fin cfg1.N) : (ms1 t).IsWhole := hstage1_1 ((cfg1.slots t 1).cast nbuf1_1)
abbrev ms2 (t : Fin cfg1.N) : Memref sig .tc .vmem S30x40 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1x1 .f32 := win1_3.stage (cfg1.slots t 3)
abbrev hs3 (t : Fin cfg1.N) : (ms3 t).IsWhole := hstage1_3 ((cfg1.slots t 3).cast nbuf1_3)
/-- The accumulator: a whole scoped buffer of the kernel's own. -/
abbrev scM : Memref sig .tc .vmem S1x1 .f32 := Memref.whole cc1_scratch0
abbrev VO : View sig .tc .vmem S1x1x1 .f32 := (Memref.whole cc1_stg3_0 : Memref sig .tc .vmem S1x1x1 .f32).view
abbrev VS : View sig .tc .vmem S1x1 .f32 := (scM : Memref sig .tc .vmem S1x1 .f32).view

/-- The scoped buffers of the core that this region's windows do not stage, the accumulator last: the first region's
    staging buffers and scratch, each whole at some contents and never touched here, then the statement `P` about the
    accumulator. -/
abbrev restWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ P)

theorem PhiA_eq (c : Dev nD) :
    (Pipeline.ΦA spec1 c : sProp 𝕄)
      = iprop(restWith (F := F) c iprop(∃ d, owns (c : Thread nD τ) scM fullShare d) ∗ (∃ r, prngReg c r)) := by
  unfold Pipeline.ΦA; rw [scopedRest1_eq]; simp only [scM, owns_whole]; try rfl

/-! ## Where the output window is idle -/

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem idle3_of_not_last : ∀ t : Fin cfg1.N, ¬isLastTile (grid1.coords t) → cfg1.idle 3 (grid1.coords t) = true := by decide +kernel
theorem noFlush3_of_not_last : ∀ t : Fin cfg1.N, ¬isLastTile (grid1.coords t) → (cfg1.win 3).flush t = false := by decide +kernel
theorem live3_of_last : ∀ t : Fin cfg1.N, isLastTile (grid1.coords t) → cfg1.idle 3 (grid1.coords t) = false := by decide +kernel

/-! ## What each case leaves -/

def accFirst (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : isFirstTile i) (hl : ¬isLastTile i)
    (x0 : Vec F S4096x40 .f32) (x1 : Vec F S4096x40 .i32) (x2 : Vec F S30x40 .f32) : Vec F S1x1 .f32 :=
  VS.read (Elt F) (VS.writes (Elt F) VS.junk (runFirst c i arg2 harg2 arg3 harg3 arg4 harg4 arg5 harg5 arg6 harg6 hf hl x0 x1 x2).1)
theorem accFirst_cover (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : isFirstTile i) (hl : ¬isLastTile i)
    (x0 : Vec F S4096x40 .f32) (x1 : Vec F S4096x40 .i32) (x2 : Vec F S30x40 .f32) (y : S1x1.Idx) :
    ∃ pc ∈ (runFirst c i arg2 harg2 arg3 harg3 arg4 harg4 arg5 harg5 arg6 harg6 hf hl x0 x1 x2).1, y ∈ pc.1.set :=
  View.cover_of_wholeMem (runFirst c i arg2 harg2 arg3 harg3 arg4 harg4 arg5 harg5 arg6 harg6 hf hl x0 x1 x2).1 (by sl_whole_mem) y

def accMiddle (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : ¬isLastTile i)
    (x0 : Vec F S4096x40 .f32) (x1 : Vec F S4096x40 .i32) (x2 : Vec F S30x40 .f32) (xacc : Vec F S1x1 .f32) : Vec F S1x1 .f32 :=
  VS.read (Elt F) (VS.writes (Elt F) VS.junk (runMiddle c i arg2 harg2 arg3 harg3 arg4 harg4 arg5 harg5 arg6 harg6 hf hl x0 x1 x2 xacc).1)
theorem accMiddle_cover (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : ¬isLastTile i)
    (x0 : Vec F S4096x40 .f32) (x1 : Vec F S4096x40 .i32) (x2 : Vec F S30x40 .f32) (xacc : Vec F S1x1 .f32) (y : S1x1.Idx) :
    ∃ pc ∈ (runMiddle c i arg2 harg2 arg3 harg3 arg4 harg4 arg5 harg5 arg6 harg6 hf hl x0 x1 x2 xacc).1, y ∈ pc.1.set :=
  View.cover_of_wholeMem (runMiddle c i arg2 harg2 arg3 harg3 arg4 harg4 arg5 harg5 arg6 harg6 hf hl x0 x1 x2 xacc).1 (by sl_whole_mem) y

def accLast (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : isLastTile i)
    (x0 : Vec F S4096x40 .f32) (x1 : Vec F S4096x40 .i32) (x2 : Vec F S30x40 .f32) (xacc : Vec F S1x1 .f32) : Vec F S1x1 .f32 :=
  VS.read (Elt F) (VS.writes (Elt F) VS.junk (runLast c i arg2 harg2 arg3 harg3 arg4 harg4 arg5 harg5 arg6 harg6 hf hl x0 x1 x2 xacc).2.1)
theorem accLast_cover (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : isLastTile i)
    (x0 : Vec F S4096x40 .f32) (x1 : Vec F S4096x40 .i32) (x2 : Vec F S30x40 .f32) (xacc : Vec F S1x1 .f32) (y : S1x1.Idx) :
    ∃ pc ∈ (runLast c i arg2 harg2 arg3 harg3 arg4 harg4 arg5 harg5 arg6 harg6 hf hl x0 x1 x2 xacc).2.1, y ∈ pc.1.set :=
  View.cover_of_wholeMem (runLast c i arg2 harg2 arg3 harg3 arg4 harg4 arg5 harg5 arg6 harg6 hf hl x0 x1 x2 xacc).2.1 (by sl_whole_mem) y
def outLast (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : isLastTile i)
    (x0 : Vec F S4096x40 .f32) (x1 : Vec F S4096x40 .i32) (x2 : Vec F S30x40 .f32) (xacc : Vec F S1x1 .f32) : Vec F S1x1x1 .f32 :=
  VO.read (Elt F) (VO.writes (Elt F) VO.junk (runLast c i arg2 harg2 arg3 harg3 arg4 harg4 arg5 harg5 arg6 harg6 hf hl x0 x1 x2 xacc).1)
theorem outLast_cover (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : isLastTile i)
    (x0 : Vec F S4096x40 .f32) (x1 : Vec F S4096x40 .i32) (x2 : Vec F S30x40 .f32) (xacc : Vec F S1x1 .f32) (y : S1x1x1.Idx) :
    ∃ pc ∈ (runLast c i arg2 harg2 arg3 harg3 arg4 harg4 arg5 harg5 arg6 harg6 hf hl x0 x1 x2 xacc).1, y ∈ pc.1.set :=
  View.cover_of_wholeMem (runLast c i arg2 harg2 arg3 harg3 arg4 harg4 arg5 harg5 arg6 harg6 hf hl x0 x1 x2 xacc).1 (by sl_whole_mem) y

/-- The output block's contents where the body stores nothing into it: a placeholder nothing consults. -/
def outIdle : Vec F S1x1x1 .f32 := VO.read (Elt F) VO.junk

/-! ## What the output block and the accumulator hold after each point -/

def outsAt (c : Dev nD) : (n : ℕ) → n < cfg1.N → Vec F S1x1x1 .f32 × Vec F S1x1 .f32
  | 0, hn => (outIdle, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((isFirstTile_iff ⟨0, hn⟩).mpr (Nat.zero_mod _))
      (fun h => (fun h => by (try dsimp only at h); omega) ((isLastTile_iff ⟨0, hn⟩).mp h)) (iblk V c 0 ⟨0, hn⟩) (iblk V c 1 ⟨0, hn⟩) (iblk V c 2 ⟨0, hn⟩))
  | n + 1, hn =>
    if h0 : (n + 1) % 32 = 0 then
      (outIdle, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((isFirstTile_iff ⟨n + 1, hn⟩).mpr h0)
        (fun h => (fun h => by (try dsimp only at h); omega) ((isLastTile_iff ⟨n + 1, hn⟩).mp h)) (iblk V c 0 ⟨n + 1, hn⟩) (iblk V c 1 ⟨n + 1, hn⟩) (iblk V c 2 ⟨n + 1, hn⟩))
    else if h2 : (n + 1) % 32 = 31 then
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirstTile_iff ⟨n + 1, hn⟩).mp h)) ((isLastTile_iff ⟨n + 1, hn⟩).mpr h2)
          (iblk V c 0 ⟨n + 1, hn⟩) (iblk V c 1 ⟨n + 1, hn⟩) (iblk V c 2 ⟨n + 1, hn⟩) (outsAt c n (Nat.lt_of_succ_lt hn)).2,
        accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirstTile_iff ⟨n + 1, hn⟩).mp h)) ((isLastTile_iff ⟨n + 1, hn⟩).mpr h2)
          (iblk V c 0 ⟨n + 1, hn⟩) (iblk V c 1 ⟨n + 1, hn⟩) (iblk V c 2 ⟨n + 1, hn⟩) (outsAt c n (Nat.lt_of_succ_lt hn)).2)
    else
      (outIdle, accMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirstTile_iff ⟨n + 1, hn⟩).mp h)) (fun h => h2 ((isLastTile_iff ⟨n + 1, hn⟩).mp h))
          (iblk V c 0 ⟨n + 1, hn⟩) (iblk V c 1 ⟨n + 1, hn⟩) (iblk V c 2 ⟨n + 1, hn⟩) (outsAt c n (Nat.lt_of_succ_lt hn)).2)

theorem outsAt_first (c : Dev nD) (t : Fin cfg1.N) (h0 : t.val % 32 = 0) :
    outsAt V c t.val t.isLt = (outIdle, accFirst c (grid1.coords t) (ms0 t) (hs0 t) (ms1 t) (hs1 t) (ms2 t) (hs2 t) (ms3 t) (hs3 t) scM (Memref.isWhole_whole _) ((isFirstTile_iff t).mpr h0)
      (fun h => (fun h => by omega) ((isLastTile_iff t).mp h)) (iblk V c 0 t) (iblk V c 1 t) (iblk V c 2 t)) := by
  obtain ⟨n, hn⟩ := t
  cases n with
  | zero => exact rfl
  | succ n => exact (dif_pos h0).trans rfl

theorem outsAt_last (c : Dev nD) (t : Fin cfg1.N) (h0 : ¬t.val % 32 = 0) (h2 : t.val % 32 = 31) :
    outsAt V c t.val t.isLt = (outLast c (grid1.coords t) (ms0 t) (hs0 t) (ms1 t) (hs1 t) (ms2 t) (hs2 t) (ms3 t) (hs3 t) scM (Memref.isWhole_whole _) (fun h => h0 ((isFirstTile_iff t).mp h)) ((isLastTile_iff t).mpr h2)
        (iblk V c 0 t) (iblk V c 1 t) (iblk V c 2 t) (outsAt V c (t.val - 1) (Nat.lt_of_le_of_lt (Nat.sub_le _ _) t.isLt)).2,
      accLast c (grid1.coords t) (ms0 t) (hs0 t) (ms1 t) (hs1 t) (ms2 t) (hs2 t) (ms3 t) (hs3 t) scM (Memref.isWhole_whole _) (fun h => h0 ((isFirstTile_iff t).mp h)) ((isLastTile_iff t).mpr h2)
        (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans rfl)

theorem outsAt_middle (c : Dev nD) (t : Fin cfg1.N) (h0 : ¬t.val % 32 = 0) (h2 : ¬t.val % 32 = 31) :
    outsAt V c t.val t.isLt = (outIdle, accMiddle c (grid1.coords t) (ms0 t) (hs0 t) (ms1 t) (hs1 t) (ms2 t) (hs2 t) (ms3 t) (hs3 t) scM (Memref.isWhole_whole _) (fun h => h0 ((isFirstTile_iff t).mp h)) (fun h => h2 ((isLastTile_iff t).mp h))
        (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h2).trans rfl)

/-! ## The region's invariant -/

def PhiS (c : Dev nD) : (n : ℕ) → n ≤ cfg1.N → sProp 𝕄
  | 0, _ => Pipeline.ΦA spec1 c
  | n + 1, hn => iprop(restWith (F := F) c (owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith (F := F) c (owns (c : Thread nD τ) scM fullShare ((outsAt V c n hn).2)) ∗ (∃ r, prngReg c r)) := rfl
theorem PhiS_pos (c : Dev nD) (n : ℕ) (h : n ≤ cfg1.N) (hz : n ≠ 0) :
    PhiS V c n h = iprop(restWith (F := F) c (owns (c : Thread nD τ) scM fullShare ((outsAt V c (n - 1) (by omega)).2)) ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = (outsAt V c t.val t.isLt).1 := by dsimp only [dat]
theorem before0 (c : Dev nD) (t : Fin cfg1.N) (d) : (dat V c).before 0 t d = iblk V c 0 t :=
  before_in0_of V (dat V c) (A_eq V c 0) (after0 V c) t d
theorem before1 (c : Dev nD) (t : Fin cfg1.N) (d) : (dat V c).before 1 t d = iblk V c 1 t :=
  before_in1_of V (dat V c) (A_eq V c 1) (after1 V c) t d
theorem before2 (c : Dev nD) (t : Fin cfg1.N) (d) : (dat V c).before 2 t d = iblk V c 2 t :=
  before_in2_of V (dat V c) (A_eq V c 2) (after2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  have hN : t.val < 64 := lt_of_lt_of_eq t.isLt (show cfg1.N = 64 from N_1)
  by_cases h0 : t.val % 32 = 0
  · have hl : ¬isLastTile (grid1.coords t) := fun h => (fun h => by omega) ((isLastTile_iff t).mp h)
    rw [Dat.leavesExact_idle (dat V c) 3 t (idle3_of_not_last t hl) (noFlush3_of_not_last t hl)]
    rw [outsAt_first V c t h0]
    unfold accFirst; (try dsimp only)
    by_cases hz : t.val = 0
    · rw [PhiS_castSucc V c t, PhiS_zero V c _ _ hz, PhiA_eq]
      iintro ⟨⟨⟨Hb1, Hb2, Hb3, Hb4, Hb5, Hb6, Hb7, HS⟩, Hg⟩, Ho, ⟨%d0, H0⟩, ⟨%d1, H1⟩, ⟨%d2, H2⟩, ⟨%d3, H3⟩⟩
      iapply ((runFirst c (grid1.coords t) _ _ _ _ _ _ _ _ _ _ ((isFirstTile_iff t).mpr h0) hl (iblk V c 0 t) (iblk V c 1 t) (iblk V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hb1 Hb2 Hb3 Hb4 Hb5 Hb6 Hb7 HS Hg]
      · isplitl [Hb1 Hb2 Hb3 Hb4 Hb5 Hb6 Hb7 HS]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (accFirst_cover c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Hb1, Hb2, Hb3, Hb4, Hb5, Hb6, Hb7, HS⟩, Hg⟩, Ho, ⟨%d0, H0⟩, ⟨%d1, H1⟩, ⟨%d2, H2⟩, ⟨%d3, H3⟩⟩
      iapply ((runFirst c (grid1.coords t) _ _ _ _ _ _ _ _ _ _ ((isFirstTile_iff t).mpr h0) hl (iblk V c 0 t) (iblk V c 1 t) (iblk V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Hb1 Hb2 Hb3 Hb4 Hb5 Hb6 Hb7 HS Hg]
      · isplitl [Hb1 Hb2 Hb3 Hb4 Hb5 Hb6 Hb7 HS]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (accFirst_cover c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hf : ¬isFirstTile (grid1.coords t) := fun h => h0 ((isFirstTile_iff t).mp h)
    by_cases h2 : t.val % 32 = 31
    · have hl : isLastTile (grid1.coords t) := (isLastTile_iff t).mpr h2
      rw [show (dat V c).leavesExact 3 t = owns (c : Thread nD τ) (ms3 t) fullShare ((dat V c).after 3 t) from by
        unfold Dat.leavesExact; rw [live3_of_last t hl], after3]
      rw [outsAt_last V c t h0 h2]
      unfold outLast accLast; (try dsimp only)
      rw [PhiS_castSucc V c t, PhiS_pos V c _ _ hz]
      iintro ⟨⟨⟨Hb1, Hb2, Hb3, Hb4, Hb5, Hb6, Hb7, HS⟩, Hg⟩, Ho, ⟨%d0, H0⟩, ⟨%d1, H1⟩, ⟨%d2, H2⟩, ⟨%d3, H3⟩⟩
      iapply ((runLast c (grid1.coords t) _ _ _ _ _ _ _ _ _ _ hf hl (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hb1 Hb2 Hb3 Hb4 Hb5 Hb6 Hb7 HS Hg]
      · isplitl [Hb1 Hb2 Hb3 Hb4 Hb5 Hb6 Hb7 HS]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (accLast_cover c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · have hl : ¬isLastTile (grid1.coords t) := fun h => h2 ((isLastTile_iff t).mp h)
      rw [Dat.leavesExact_idle (dat V c) 3 t (idle3_of_not_last t hl) (noFlush3_of_not_last t hl)]
      rw [outsAt_middle V c t h0 h2]
      unfold accMiddle; (try dsimp only)
      rw [PhiS_castSucc V c t, PhiS_pos V c _ _ hz]
      iintro ⟨⟨⟨Hb1, Hb2, Hb3, Hb4, Hb5, Hb6, Hb7, HS⟩, Hg⟩, Ho, ⟨%d0, H0⟩, ⟨%d1, H1⟩, ⟨%d2, H2⟩, ⟨%d3, H3⟩⟩
      iapply ((runMiddle c (grid1.coords t) _ _ _ _ _ _ _ _ _ _ hf hl (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hb1 Hb2 Hb3 Hb4 Hb5 Hb6 Hb7 HS Hg]
      · isplitl [Hb1 Hb2 Hb3 Hb4 Hb5 Hb6 Hb7 HS]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (accMiddle_cover c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg1.N) ⊢ Pipeline.ΦA spec1 c := by
  have hne : (Fin.last cfg1.N).val ≠ 0 := by rw [Fin.val_last]; have : cfg1.N = 64 := N_1; omega
  rw [show (dat V c).Φ (Fin.last cfg1.N) = PhiS V c (Fin.last cfg1.N).val (Nat.le_of_lt_succ (Fin.last cfg1.N).isLt) from rfl,
    PhiS_pos V c _ _ hne, PhiA_eq]
  iintro ⟨⟨Hb1, Hb2, Hb3, Hb4, Hb5, Hb6, Hb7, HS⟩, Hg⟩
  isplitl [Hb1 Hb2 Hb3 Hb4 Hb5 Hb6 Hb7 HS]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    iexists _; iexact HS
  iexact Hg

end Cert.KernelIdeal.Loss

end
-- ==== Proof.MainFrame.lean ====
/-
  THE WHOLE PROGRAM AS SEGMENTS, AND ITS FRAME. @main is six items: the histogram region, three stretches of host
  operations (the weight table from the counts), the loss region, and a last host stretch (the mean). Between two items
  every unscoped buffer of the core is held whole at a named valuation: the launch contents, then what each item writes.
  A host stretch writes the buffers of its own operations; a region writes its output array and nothing else, and what it
  writes is the fold of its write-backs over the grid (the proof data's array after the last point).

  Each region enters from the valuation before it: its windows' arrays are split out of the unscoped buffers at the
  contents read off that valuation, the generator register goes into the region's invariant, the accumulator is taken
  from the scoped buffers at anything (the first tile clears it); and it leaves to the valuation after it: the arrays are
  put back, the output array at the fold of the write-backs, every other buffer as it was, the accumulator's named
  contents forgotten. No item writes an argument array, which is the frame claim.
-/
import proofs.«148571_j17987323036120_1_alg».proof.Proof.HistFrame
import proofs.«148571_j17987323036120_1_alg».proof.Proof.LossFrame
import proofs.«148571_j17987323036120_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the items -/

/-- What the histogram region is entered from: the launch contents, read at the TensorCore's references. -/
abbrev VR0 : (c : Dev nD) → (b : Ref sig .tc) → Buf (Elt F) ((c : Thread nD τ).loc b) := fun c b => Gen.V0 m c b

/-- After the histogram region: its arrays at what the pipeline leaves (the two inputs as entered, the per-shard counts
    at the fold of the write-backs), every other buffer as launched. -/
def W1 (c : Dev nD) : Valuation τ sig (Elt F) :=
  Pipeline.withArrays spec0 c (Gen.V0 m c) fun w => (Hist.dat (VR0 m) c).arrAt w cfg0.N
theorem W1_arr (c : Dev nD) (w : Fin cfg0.W) :
    W1 m c (Proc.devRef .tc (Pipeline.arrRef spec0 w)) = (Hist.dat (VR0 m) c).arrAt w cfg0.N := by
  unfold W1; exact Pipeline.withArrays_arr spec0 launch0.win.arr_inj c _ _ w

/-- The contents a region leaves, as far as the host stretches between the regions read them: the histogram's. -/
def outs1 : Gen.Outs (F := F) := fun _ r c => W1 m c r
/-- What the loss region is entered from: the weight table computed by the host from the histogram's counts. -/
abbrev VR1 : (c : Dev nD) → (b : Ref sig .tc) → Buf (Elt F) ((c : Thread nD τ).loc b) := fun c b => Gen.V4 m (outs1 m) c b
/-- After the loss region: the per-shard loss sums at the fold of the write-backs, every other buffer as entered. -/
def W5 (c : Dev nD) : Valuation τ sig (Elt F) :=
  Pipeline.withArrays spec1 c (Gen.V4 m (outs1 m) c) fun w => (Loss.dat (VR1 m) c).arrAt w cfg1.N
theorem W5_arr (c : Dev nD) (w : Fin cfg1.W) :
    W5 m c (Proc.devRef .tc (Pipeline.arrRef spec1 w)) = (Loss.dat (VR1 m) c).arrAt w cfg1.N := by
  unfold W5; exact Pipeline.withArrays_arr spec1 launch1.win.arr_inj c _ _ w

/-- What the two regions leave, by item: after item 4 (the loss region) the second valuation, otherwise the first. -/
def outs : Gen.Outs (F := F) := fun j r c => if j = 5 then W5 m c r else W1 m c r
theorem outs_one (r : Ref sig .tc) (c : Dev nD) : outs m 1 r c = W1 m c r := if_neg (by decide)
theorem outs_five (r : Ref sig .tc) (c : Dev nD) : outs m 5 r c = W5 m c r := if_pos rfl
/-- The host stretches between the regions read only what the histogram left. -/
theorem V4_outs (c : Dev nD) : Gen.V4 m (outs m) c = Gen.V4 m (outs1 m) c := by
  have h : outs m 1 main_v0 c = outs1 m 1 main_v0 c := outs_one m main_v0 c
  simp only [Gen.V4, Gen.V3, Gen.V2, Gen.V1, h]

/-! ## The proof data, the thread state -/

/-- Both pipelines' proof data, each at its region's entry contents. -/
def pdats : (p : Fin 2) → (c : Dev nD) → Dat τ (Elt F) Unit ℕ (UR sig nD τ) ℕ (cfgs p) c
  | ⟨0, _⟩ => fun c => Hist.dat (VR0 m) c
  | ⟨1, _⟩ => fun c => Loss.dat (VR1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev Rr (c : Dev nD) : sProp 𝕄 := iprop((∃ r, prngReg c r) ∗ ∃ W, owes (c : Thread nD τ) (0 : CellTallies nD τ sig Unit) W)

/-! ## What each region leaves, against the valuations of the generated segment list -/

/-- After the histogram region each of its arrays holds what the pipeline leaves: the inputs are arguments, which the
    valuation after item 0 keeps; the counts are what that valuation is updated to. -/
theorem hF0 (c : Dev nD) (w : Fin cfg0.W) : (pdats m 0 c).arrAt w cfg0.N = Gen.V1 m (outs m) c (Pipeline.arrRef spec0 w) := by
  match w with
  | ⟨0, _⟩ => exact ((Hist.dat (VR0 m) c).arrAt_in 0 rfl _).trans ((Hist.A_eq (VR0 m) c 0).trans (Gen.V1_of m (outs m) c main_arg0 (by decide)).symm)
  | ⟨1, _⟩ => exact ((Hist.dat (VR0 m) c).arrAt_in 1 rfl _).trans ((Hist.A_eq (VR0 m) c 1).trans (Gen.V1_of m (outs m) c main_arg1 (by decide)).symm)
  | ⟨2, _⟩ =>
    refine (W1_arr m c 2).symm.trans ((outs_one m main_v0 c).symm.trans ?_)
    simp only [Gen.V1, Function.update_self]
theorem hrest0 (c : Dev nD) : ∀ b, b ∉ Finset.univ.image (Pipeline.arrRef spec0) → Gen.V1 m (outs m) c b = VR0 m c b :=
  fun b hb => Gen.V1_of m (outs m) c b fun h => hb (by
    rw [List.mem_singleton] at h; subst h
    exact Finset.mem_image.mpr ⟨2, Finset.mem_univ _, rfl⟩)

theorem hF1 (c : Dev nD) (w : Fin cfg1.W) : (pdats m 1 c).arrAt w cfg1.N = Gen.V5 m (outs m) c (Pipeline.arrRef spec1 w) := by
  match w with
  | ⟨0, _⟩ => exact ((Loss.dat (VR1 m) c).arrAt_in 0 rfl _).trans ((Loss.A_eq (VR1 m) c 0).trans
      ((congrFun (V4_outs m c) _).symm.trans (Gen.V5_of m (outs m) c main_arg0 (by decide)).symm))
  | ⟨1, _⟩ => exact ((Loss.dat (VR1 m) c).arrAt_in 1 rfl _).trans ((Loss.A_eq (VR1 m) c 1).trans
      ((congrFun (V4_outs m c) _).symm.trans (Gen.V5_of m (outs m) c main_arg1 (by decide)).symm))
  | ⟨2, _⟩ => exact ((Loss.dat (VR1 m) c).arrAt_in 2 rfl _).trans ((Loss.A_eq (VR1 m) c 2).trans
      ((congrFun (V4_outs m c) _).symm.trans (Gen.V5_of m (outs m) c main_v18 (by decide)).symm))
  | ⟨3, _⟩ =>
    refine (W5_arr m c 3).symm.trans ((outs_five m main_v19 c).symm.trans ?_)
    simp only [Gen.V5, Function.update_self]
theorem hrest1 (c : Dev nD) : ∀ b, b ∉ Finset.univ.image (Pipeline.arrRef spec1) → Gen.V5 m (outs m) c b = VR1 m c b :=
  fun b hb => (Gen.V5_of m (outs m) c b fun h => hb (by
    rw [List.mem_singleton] at h; subst h
    exact Finset.mem_image.mpr ⟨3, Finset.mem_univ _, rfl⟩)).trans (congrFun (V4_outs m c) _)

/-! ## The regions as segments -/

set_option backward.isDefEq.respectTransparency.types false in
/-- THE HISTOGRAM REGION over the thread state: entered from the launch contents, left at the valuation after item 0. -/
def reg0 : Pipeline.RegionSeg (pcfgs (F := F)) (Gen.adm (F := F)) (pdats m) () defs₀ 𝒱₀ L lv 0 where
  win := launch0.win.to₀
  block_pos := launch0.block_pos
  stage_whole := launch0.stage_whole
  K := PEmpty
  osem k := k.elim
  ho := Pipeline.OwnSemFacts.none _
  hbody c := (Hist.body_obligation (VR0 m) c).loose
  hwaits := Pipeline.hwaits_of_owed_zero _ _ _ _ L lv 0 fun _ _ => rfl
  pre c := iprop(StableHlo.held (c : Thread nD τ) (Pipeline.ucRefs τ sig) (Gen.V0 m c) ∗ Rr c)
  post c := iprop(StableHlo.held (c : Thread nD τ) (Pipeline.ucRefs τ sig) (Gen.V1 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) (Gen.adm (F := F)) (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Hist.hout (VR0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (Gen.adm (F := F)) (Ix := Unit) (Name := ℕ) (U := UR sig nD τ) (Lvl := ℕ)
      launch0.win launch0.arr_whole c (pdats m) ((pdats m 0 c).share_full fun _ => rfl)
      (VR0 m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE LOSS REGION over the thread state: entered from the valuation after item 3, left at the one after item 4. -/
def reg1 : Pipeline.RegionSeg (pcfgs (F := F)) (Gen.adm (F := F)) (pdats m) () defs₀ 𝒱₀ L lv 1 where
  win := launch1.win.to₀
  block_pos := launch1.block_pos
  stage_whole := launch1.stage_whole
  K := PEmpty
  osem k := k.elim
  ho := Pipeline.OwnSemFacts.none _
  hbody c := (Loss.body_obligation (VR1 m) c).loose
  hwaits := Pipeline.hwaits_of_owed_zero _ _ _ _ L lv 1 fun _ _ => rfl
  pre c := iprop(StableHlo.held (c : Thread nD τ) (Pipeline.ucRefs τ sig) (Gen.V4 m (outs m) c) ∗ Rr c)
  post c := iprop(StableHlo.held (c : Thread nD τ) (Pipeline.ucRefs τ sig) (Gen.V5 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    rw [V4_outs m c]
    have hsplit := Pipeline.arrays_of_unscopedBufs (p := 1) (pcfgs (F := F)) (Gen.adm (F := F)) (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Loss.hout (VR1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (Gen.adm (F := F)) (Ix := Unit) (Name := ℕ) (U := UR sig nD τ) (Lvl := ℕ)
      launch1.win launch1.arr_whole c (pdats m) ((pdats m 1 c).share_full fun _ => rfl)
      (VR1 m c) (fun b => Gen.V5 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- THE FRAME: from any memory with zero counters every weakly fair execution of @main terminates, nothing faults, and
    the three argument arrays end as launched — the generated segment list run with the two regions' records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)

end Cert.KernelIdeal.Main

end
-- ==== Proof.HistRunsWord.lean ====
/-
  The body of the histogram kernel (one shard's bin counts: the scratch accumulator holds, per bin and class, the number of rows seen so far whose gradient magnitude falls in the bin), run once at a symbolic grid point in each of the three situations its two conditionals
  distinguish. A shard's 32 row tiles are visited in order (the grid's inner coordinate): at the FIRST tile the body
  clears its accumulator before adding the tile's contribution; at a MIDDLE tile it only adds; at the LAST tile it adds
  and then copies the accumulator into the shard's output block. In each situation the body, started with whole staging
  buffers for its inputs, runs to its end without a fault, leaves the input buffers as they were, and leaves in the
  accumulator (and, at the last tile, in the output block) a list of stored pieces, which the run itself finds.
  The statements hold for any interpretation of the floats, so they serve the word-level program and the idealized one.
-/
import proofs.«148571_j17987323036120_1_alg».proof.Proof.Gen.Kernel.Launch
import proofs.«148571_j17987323036120_1_alg».proof.Proof.Gen.Kernel.Skeleton
import proofs.«148571_j17987323036120_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, in closed form over the grid -/

/-- The body's first conditional, as the kernel computes it from the inner grid coordinate: "this is tile 0 of the shard". -/
abbrev isFirstTile (i : grid0.Coords) : Prop :=
  (Scalar.cmpi .ne (Scalar.extui (Scalar.cmpi .eq (BitVec.ofNat 32 (i 1).val) 0#32)) 0#32) = 1#1
/-- The body's last conditional: "this is tile 31 of the shard". -/
abbrev isLastTile (i : grid0.Coords) : Prop := k0_cond2 i = 1#1

/-- Point `t` of the 2 × 32 grid is a shard's first tile exactly when `t` is a multiple of 32 (decided over the 64 points). -/
theorem isFirstTile_iff : ∀ t : Fin cfg0.N, isFirstTile (grid0.coords t) ↔ t.val % 32 = 0 :=
  (by decide +kernel : ∀ t : Fin grid0.N, isFirstTile (grid0.coords t) ↔ t.val % 32 = 0)
/-- … and a shard's last tile exactly when `t` is 31 modulo 32. -/
theorem isLastTile_iff : ∀ t : Fin cfg0.N, isLastTile (grid0.coords t) ↔ t.val % 32 = 31 :=
  (by decide +kernel : ∀ t : Fin grid0.N, isLastTile (grid0.coords t) ↔ t.val % 32 = 31)

/-! ## The three runs -/

set_option maxHeartbeats 4000000 in
/-- FIRST TILE. The accumulator may hold anything: the body overwrites it whole with zeros before it reads it. The output
    block is not touched (its contents `xo` are handed back as they were). -/
noncomputable def runFirst (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hfirst : isFirstTile i) (hlast : ¬isLastTile i)
    (x0 : Vec F S4096x40 .f32) (x1 : Vec F S4096x40 .i32) :
    { acc : List (View.Piece (Elt F) S30x40 .f32) //
      ∀ (xo : Vec F S1x30x40 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f acc)) -∗ K ⟨⟩))
          ⊢ wp frame (wpE (defs₀ (F := F)) Variants.none c none) E (cc0__hist_kernel i arg2 harg2 arg3 harg3 arg4 harg4 arg5 harg5) K } := by
  refine ⟨?_, fun xo E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 4000000 in
/-- MIDDLE TILE. The accumulator holds what the tile before left (`xacc`); the output block is not touched. -/
noncomputable def runMiddle (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hfirst : ¬isFirstTile i) (hlast : ¬isLastTile i)
    (x0 : Vec F S4096x40 .f32) (x1 : Vec F S4096x40 .i32) (xacc : Vec F S30x40 .f32) :
    { acc : List (View.Piece (Elt F) S30x40 .f32) //
      ∀ (xo : Vec F S1x30x40 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xacc
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f acc)) -∗ K ⟨⟩))
          ⊢ wp frame (wpE (defs₀ (F := F)) Variants.none c none) E (cc0__hist_kernel i arg2 harg2 arg3 harg3 arg4 harg4 arg5 harg5) K } := by
  refine ⟨?_, fun xo E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo; obtain rfl := harg5.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 4000000 in
/-- LAST TILE. The accumulator holds what the tile before left; after adding this tile's contribution the body stores the
    accumulator into the output block, whole, whatever the block held. -/
noncomputable def runLast (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hfirst : ¬isFirstTile i) (hlast : isLastTile i)
    (x0 : Vec F S4096x40 .f32) (x1 : Vec F S4096x40 .i32) (xacc : Vec F S30x40 .f32) :
    Σ' (out : List (View.Piece (Elt F) S1x30x40 .f32)), { acc : List (View.Piece (Elt F) S30x40 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xacc
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f out) ∗ (∃ f, arg5.view.loc (c : Thread nD τ) ↦[arg5.view.set]{fullShare} arg5.view.writes (Elt F) f acc)) -∗ K ⟨⟩))
          ⊢ wp frame (wpE (defs₀ (F := F)) Variants.none c none) E (cc0__hist_kernel i arg2 harg2 arg3 harg3 arg4 harg4 arg5 harg5) K } := by
  refine ⟨?_, ?_, fun E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%dO, %fo, -, HO⟩, ⟨%fs, %hfs, HS⟩, Hk⟩
    obtain rfl := harg2.eq_unread hf0; obtain rfl := harg3.eq_unread hf1; obtain rfl := harg5.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cert.Kernel.Hist

end
-- ==== Proof.HistFrameWord.lean ====
/-
  THE HISTOGRAM REGION, POINT BY POINT. The grid has 2 × 32 points, visited in order: point `t` is tile `t % 32` of shard
  `t / 32`. The body keeps a 30 × 40 accumulator in a scratch buffer that lives across points. This module says what
  the accumulator and the shard's output block hold after every point, and proves the pipeline's body obligation from
  the three runs of the body:

  * after a shard's first tile the accumulator holds what the first-tile run stored (it does not depend on what was there);
  * after a later tile it holds what the middle- or last-tile run stored, a function of the tile's two input blocks and of
    what the accumulator held after the point before;
  * the output block is stored, whole, only at a shard's last tile, and only there is it written back.

  The region's invariant before point `t > 0` is therefore "the scratch buffer holds the contents named for point `t − 1`"
  (beside the other scoped buffers and the generator register, untouched); before point 0 the scratch holds anything.
  Every store list the runs produce covers its buffer (the first tile's list contains the whole-buffer zero fill, the other
  lists' thirty row stores tile the 30 × 40 buffer, the last tile's one store is the whole output block), so the
  contents read back do not depend on what the buffer held before.
-/
import proofs.«148571_j17987323036120_1_alg».proof.Proof.HistRunsWord

set_option maxRecDepth 16384

noncomputable section

namespace Cert.Kernel.Hist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `V c b`: the contents of core `c`'s TensorCore buffer `b` when the region is entered.
variable (V : (c : Dev nD) → (b : Ref sig .tc) → Buf (Elt F) ((c : Thread nD τ).loc b))

/-! ## The windows' blocks, the staging memrefs, the scratch -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it to the body, and its wholeness. -/
abbrev ms0 (t : Fin cfg0.N) : Memref sig .tc .vmem S4096x40 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x40 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x30x40 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev scM : Memref sig .tc .vmem S30x40 .f32 := Memref.whole cc0_scratch0
/-- Views through which the output block's and the accumulator's contents are stated. -/
abbrev VO : View sig .tc .vmem S1x30x40 .f32 := (Memref.whole cc0_stg2_0 : Memref sig .tc .vmem S1x30x40 .f32).view
abbrev VS : View sig .tc .vmem S30x40 .f32 := (scM : Memref sig .tc .vmem S30x40 .f32).view

/-- The other scoped buffers of the core that this region's windows do not stage: the second region's staging buffers and
    its scratch, each whole at some contents. The region never touches them. -/
abbrev restOf (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the launch hands the region's body besides the windows: the accumulator at some contents, the other scoped
    buffers, the generator register. -/
theorem PhiA_eq (c : Dev nD) :
    (Pipeline.ΦA spec0 c : sProp 𝕄)
      = iprop(iprop((∃ d, owns (c : Thread nD τ) scM fullShare d) ∗ restOf (F := F) c) ∗ (∃ r, prngReg c r)) := by
  unfold Pipeline.ΦA; rw [scopedRest0_eq]; simp only [scM, owns_whole]; try rfl

/-! ## Where the output window is idle -/

theorem live0 : ∀ t : Fin cfg0.N, cfg0.idle 0 (grid0.coords t) = false := fun _ => rfl
theorem live1 : ∀ t : Fin cfg0.N, cfg0.idle 1 (grid0.coords t) = false := fun _ => rfl
/-- Away from a shard's last tile the output window is idle and is not written back; -/
theorem idle2_of_not_last : ∀ t : Fin cfg0.N, ¬isLastTile (grid0.coords t) → cfg0.idle 2 (grid0.coords t) = true := by decide +kernel
theorem noFlush2_of_not_last : ∀ t : Fin cfg0.N, ¬isLastTile (grid0.coords t) → (cfg0.win 2).flush t = false := by decide +kernel
/-- at a last tile it is live. -/
theorem live2_of_last : ∀ t : Fin cfg0.N, isLastTile (grid0.coords t) → cfg0.idle 2 (grid0.coords t) = false := by decide +kernel

/-! ## What each case leaves -/

/-- FIRST TILE: the accumulator's stores read back (over anything: the list contains the zero fill of the whole buffer). -/
def accFirst (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : isFirstTile i) (hl : ¬isLastTile i)
    (x0 : Vec F S4096x40 .f32) (x1 : Vec F S4096x40 .i32) : Vec F S30x40 .f32 :=
  VS.read (Elt F) (VS.writes (Elt F) VS.junk (runFirst c i arg2 harg2 arg3 harg3 arg4 harg4 arg5 harg5 hf hl x0 x1).1)
theorem accFirst_cover (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : isFirstTile i) (hl : ¬isLastTile i)
    (x0 : Vec F S4096x40 .f32) (x1 : Vec F S4096x40 .i32) (y : S30x40.Idx) :
    ∃ pc ∈ (runFirst c i arg2 harg2 arg3 harg3 arg4 harg4 arg5 harg5 hf hl x0 x1).1, y ∈ pc.1.set :=
  View.cover_of_wholeMem (runFirst c i arg2 harg2 arg3 harg3 arg4 harg4 arg5 harg5 hf hl x0 x1).1 (by sl_whole_mem) y

/-- MIDDLE TILE: the thirty row stores read back; they tile the buffer. -/
def accMiddle (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : ¬isFirstTile i) (hl : ¬isLastTile i)
    (x0 : Vec F S4096x40 .f32) (x1 : Vec F S4096x40 .i32) (xacc : Vec F S30x40 .f32) : Vec F S30x40 .f32 :=
  VS.read (Elt F) (VS.writes (Elt F) VS.junk (runMiddle c i arg2 harg2 arg3 harg3 arg4 harg4 arg5 harg5 hf hl x0 x1 xacc).1)
theorem accMiddle_cover (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : ¬isFirstTile i) (hl : ¬isLastTile i)
    (x0 : Vec F S4096x40 .f32) (x1 : Vec F S4096x40 .i32) (xacc : Vec F S30x40 .f32) (y : S30x40.Idx) :
    ∃ pc ∈ (runMiddle c i arg2 harg2 arg3 harg3 arg4 harg4 arg5 harg5 hf hl x0 x1 xacc).1, y ∈ pc.1.set :=
  View.cover_of_tiledL (runMiddle c i arg2 harg2 arg3 harg3 arg4 harg4 arg5 harg5 hf hl x0 x1 xacc).1 S1x40.size (by sl_kernel_rfl) y

/-- LAST TILE: the accumulator's row stores, and the one whole store into the output block. -/
def accLast (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : ¬isFirstTile i) (hl : isLastTile i)
    (x0 : Vec F S4096x40 .f32) (x1 : Vec F S4096x40 .i32) (xacc : Vec F S30x40 .f32) : Vec F S30x40 .f32 :=
  VS.read (Elt F) (VS.writes (Elt F) VS.junk (runLast c i arg2 harg2 arg3 harg3 arg4 harg4 arg5 harg5 hf hl x0 x1 xacc).2.1)
theorem accLast_cover (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : ¬isFirstTile i) (hl : isLastTile i)
    (x0 : Vec F S4096x40 .f32) (x1 : Vec F S4096x40 .i32) (xacc : Vec F S30x40 .f32) (y : S30x40.Idx) :
    ∃ pc ∈ (runLast c i arg2 harg2 arg3 harg3 arg4 harg4 arg5 harg5 hf hl x0 x1 xacc).2.1, y ∈ pc.1.set :=
  View.cover_of_tiledL (runLast c i arg2 harg2 arg3 harg3 arg4 harg4 arg5 harg5 hf hl x0 x1 xacc).2.1 S1x40.size (by sl_kernel_rfl) y
def outLast (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : ¬isFirstTile i) (hl : isLastTile i)
    (x0 : Vec F S4096x40 .f32) (x1 : Vec F S4096x40 .i32) (xacc : Vec F S30x40 .f32) : Vec F S1x30x40 .f32 :=
  VO.read (Elt F) (VO.writes (Elt F) VO.junk (runLast c i arg2 harg2 arg3 harg3 arg4 harg4 arg5 harg5 hf hl x0 x1 xacc).1)
theorem outLast_cover (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (arg5 : Memref sig .tc .vmem S30x40 .f32) (harg5 : arg5.IsWhole) (hf : ¬isFirstTile i) (hl : isLastTile i)
    (x0 : Vec F S4096x40 .f32) (x1 : Vec F S4096x40 .i32) (xacc : Vec F S30x40 .f32) (y : S1x30x40.Idx) :
    ∃ pc ∈ (runLast c i arg2 harg2 arg3 harg3 arg4 harg4 arg5 harg5 hf hl x0 x1 xacc).1, y ∈ pc.1.set :=
  View.cover_of_tiledL (runLast c i arg2 harg2 arg3 harg3 arg4 harg4 arg5 harg5 hf hl x0 x1 xacc).1 S1x30x40.size (by sl_kernel_rfl) y

/-- The output block's contents where the body stores nothing into it: a placeholder nothing consults (the window is
    neither written back at such a point nor read at the next). -/
def outIdle : Vec F S1x30x40 .f32 := VO.read (Elt F) VO.junk

/-! ## What the output block and the accumulator hold after each point -/

/-- THE ACCUMULATION: after the body at position `n`, the pair (output block, accumulator). A shard's first tile starts
    afresh; every other tile continues from what position `n − 1` left in the accumulator. -/
def outsAt (c : Dev nD) : (n : ℕ) → n < cfg0.N → Vec F S1x30x40 .f32 × Vec F S30x40 .f32
  | 0, hn => (outIdle, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((isFirstTile_iff ⟨0, hn⟩).mpr (Nat.zero_mod _))
      (fun h => (fun h => by (try dsimp only at h); omega) ((isLastTile_iff ⟨0, hn⟩).mp h)) (iblk V c 0 ⟨0, hn⟩) (iblk V c 1 ⟨0, hn⟩))
  | n + 1, hn =>
    if h0 : (n + 1) % 32 = 0 then
      (outIdle, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((isFirstTile_iff ⟨n + 1, hn⟩).mpr h0)
        (fun h => (fun h => by (try dsimp only at h); omega) ((isLastTile_iff ⟨n + 1, hn⟩).mp h)) (iblk V c 0 ⟨n + 1, hn⟩) (iblk V c 1 ⟨n + 1, hn⟩))
    else if h2 : (n + 1) % 32 = 31 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirstTile_iff ⟨n + 1, hn⟩).mp h)) ((isLastTile_iff ⟨n + 1, hn⟩).mpr h2)
          (iblk V c 0 ⟨n + 1, hn⟩) (iblk V c 1 ⟨n + 1, hn⟩) (outsAt c n (Nat.lt_of_succ_lt hn)).2,
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirstTile_iff ⟨n + 1, hn⟩).mp h)) ((isLastTile_iff ⟨n + 1, hn⟩).mpr h2)
          (iblk V c 0 ⟨n + 1, hn⟩) (iblk V c 1 ⟨n + 1, hn⟩) (outsAt c n (Nat.lt_of_succ_lt hn)).2)
    else
      (outIdle, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirstTile_iff ⟨n + 1, hn⟩).mp h)) (fun h => h2 ((isLastTile_iff ⟨n + 1, hn⟩).mp h))
          (iblk V c 0 ⟨n + 1, hn⟩) (iblk V c 1 ⟨n + 1, hn⟩) (outsAt c n (Nat.lt_of_succ_lt hn)).2)

/-- At a shard's first tile: that case's contents. -/
theorem outsAt_first (c : Dev nD) (t : Fin cfg0.N) (h0 : t.val % 32 = 0) :
    outsAt V c t.val t.isLt = (outIdle, accFirst c (grid0.coords t) (ms0 t) (hs0 t) (ms1 t) (hs1 t) (ms2 t) (hs2 t) scM (Memref.isWhole_whole _) ((isFirstTile_iff t).mpr h0)
      (fun h => (fun h => by omega) ((isLastTile_iff t).mp h)) (iblk V c 0 t) (iblk V c 1 t)) := by
  obtain ⟨n, hn⟩ := t
  cases n with
  | zero => exact rfl
  | succ n => exact (dif_pos h0).trans rfl

/-- At a shard's last tile: that case's contents, over what the point before left in the accumulator. -/
theorem outsAt_last (c : Dev nD) (t : Fin cfg0.N) (h0 : ¬t.val % 32 = 0) (h2 : t.val % 32 = 31) :
    outsAt V c t.val t.isLt = (outLast c (grid0.coords t) (ms0 t) (hs0 t) (ms1 t) (hs1 t) (ms2 t) (hs2 t) scM (Memref.isWhole_whole _) (fun h => h0 ((isFirstTile_iff t).mp h)) ((isLastTile_iff t).mpr h2)
        (iblk V c 0 t) (iblk V c 1 t) (outsAt V c (t.val - 1) (Nat.lt_of_le_of_lt (Nat.sub_le _ _) t.isLt)).2,
      accLast c (grid0.coords t) (ms0 t) (hs0 t) (ms1 t) (hs1 t) (ms2 t) (hs2 t) scM (Memref.isWhole_whole _) (fun h => h0 ((isFirstTile_iff t).mp h)) ((isLastTile_iff t).mpr h2)
        (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans rfl)

/-- At a middle tile: that case's contents, over what the point before left in the accumulator. -/
theorem outsAt_middle (c : Dev nD) (t : Fin cfg0.N) (h0 : ¬t.val % 32 = 0) (h2 : ¬t.val % 32 = 31) :
    outsAt V c t.val t.isLt = (outIdle, accMiddle c (grid0.coords t) (ms0 t) (hs0 t) (ms1 t) (hs1 t) (ms2 t) (hs2 t) scM (Memref.isWhole_whole _) (fun h => h0 ((isFirstTile_iff t).mp h)) (fun h => h2 ((isLastTile_iff t).mp h))
        (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h2).trans rfl)

/-! ## The region's invariant -/

/-- Before position `n`: at the launch the scoped buffers at anything; afterwards the accumulator at what position `n − 1`
    left, the other scoped buffers and the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ restOf (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2) ∗ restOf (F := F) c) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2) ∗ restOf (F := F) c) ∗ (∃ r, prngReg c r)) := by
  cases n with
  | zero => exact absurd rfl hz
  | succ n => rfl

/-! ## The pipeline's proof data -/

/-- The proof data of the histogram pipeline on core `c`: the arrays as the region finds them; after the body at point
    `t` each input's buffer at its block and the output's at `outsAt`'s first component; the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = (outsAt V c t.val t.isLt).1 := by dsimp only [dat]
theorem before0 (c : Dev nD) (t : Fin cfg0.N) (d) : (dat V c).before 0 t d = iblk V c 0 t :=
  before_in0_of V (dat V c) (A_eq V c 0) (after0 V c) t d
theorem before1 (c : Dev nD) (t : Fin cfg0.N) (d) : (dat V c).before 1 t d = iblk V c 1 t :=
  before_in1_of V (dat V c) (A_eq V c 1) (after1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's residue modulo 32 says which run applies;
    the invariant hands the run the accumulator (at anything at point 0; at the named contents afterwards, which the
    first-tile run is free to forget) and takes it back at this point's contents, the store list read back by its cover;
    the output block is handed back untouched away from a last tile, and at a last tile holds the run's one store. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  have hN : t.val < 64 := lt_of_lt_of_eq t.isLt (show cfg0.N = 64 from N_0)
  by_cases h0 : t.val % 32 = 0
  · have hl : ¬isLastTile (grid0.coords t) := fun h => (fun h => by omega) ((isLastTile_iff t).mp h)
    rw [Dat.leavesExact_idle (dat V c) 2 t (idle2_of_not_last t hl) (noFlush2_of_not_last t hl)]
    rw [outsAt_first V c t h0]
    unfold accFirst; (try dsimp only)
    by_cases hz : t.val = 0
    · rw [PhiS_castSucc V c t, PhiS_zero V c _ _ hz, PhiA_eq]
      iintro ⟨⟨⟨HS, Hr⟩, Hg⟩, Ho, ⟨%d0, H0⟩, ⟨%d1, H1⟩, ⟨%d2, H2⟩⟩
      iapply ((runFirst c (grid0.coords t) _ _ _ _ _ _ _ _ ((isFirstTile_iff t).mpr h0) hl (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (accFirst_cover c _ _ _ _ _ _ _ _ _ _ _ _ _)
          iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hr⟩, Hg⟩, Ho, ⟨%d0, H0⟩, ⟨%d1, H1⟩, ⟨%d2, H2⟩⟩
      iapply ((runFirst c (grid0.coords t) _ _ _ _ _ _ _ _ ((isFirstTile_iff t).mpr h0) hl (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (accFirst_cover c _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun h => h0 (by rw [h])
    have hf : ¬isFirstTile (grid0.coords t) := fun h => h0 ((isFirstTile_iff t).mp h)
    by_cases h2 : t.val % 32 = 31
    · have hl : isLastTile (grid0.coords t) := (isLastTile_iff t).mpr h2
      rw [show (dat V c).leavesExact 2 t = owns (c : Thread nD τ) (ms2 t) fullShare ((dat V c).after 2 t) from by
        unfold Dat.leavesExact; rw [live2_of_last t hl], after2]
      rw [outsAt_last V c t h0 h2]
      unfold outLast accLast; (try dsimp only)
      rw [PhiS_castSucc V c t, PhiS_pos V c _ _ hz]
      iintro ⟨⟨⟨HS, Hr⟩, Hg⟩, Ho, ⟨%d0, H0⟩, ⟨%d1, H1⟩, ⟨%d2, H2⟩⟩
      iapply ((runLast c (grid0.coords t) _ _ _ _ _ _ _ _ hf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (accLast_cover c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · have hl : ¬isLastTile (grid0.coords t) := fun h => h2 ((isLastTile_iff t).mp h)
      rw [Dat.leavesExact_idle (dat V c) 2 t (idle2_of_not_last t hl) (noFlush2_of_not_last t hl)]
      rw [outsAt_middle V c t h0 h2]
      unfold accMiddle; (try dsimp only)
      rw [PhiS_castSucc V c t, PhiS_pos V c _ _ hz]
      iintro ⟨⟨⟨HS, Hr⟩, Hg⟩, Ho, ⟨%d0, H0⟩, ⟨%d1, H1⟩, ⟨%d2, H2⟩⟩
      iapply ((runMiddle c (grid0.coords t) _ _ _ _ _ _ _ _ hf hl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (accMiddle_cover c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the scoped buffers back: the accumulator's named contents are forgotten. -/
theorem hout (c : Dev nD) : (dat V c).Φ (Fin.last cfg0.N) ⊢ Pipeline.ΦA spec0 c := by
  have hne : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl,
    PhiS_pos V c _ _ hne, PhiA_eq]
  iintro ⟨⟨HS, Hr⟩, Hg⟩
  isplitl [HS Hr]
  · isplitl [HS]
    · iexists _; iexact HS
    iexact Hr
  iexact Hg

end Cert.Kernel.Hist

end
-- ==== Proof.LossRunsWord.lean ====
/-
  The body of the loss kernel (one shard's weighted loss: the scratch accumulator holds the sum, over the rows seen so far, of the binary cross-entropy times the bin's weight), run once at a symbolic grid point in each of the three situations its two conditionals
  distinguish. A shard's 32 row tiles are visited in order (the grid's inner coordinate): at the FIRST tile the body
  clears its accumulator before adding the tile's contribution; at a MIDDLE tile it only adds; at the LAST tile it adds
  and then copies the accumulator into the shard's output block. In each situation the body, started with whole staging
  buffers for its inputs, runs to its end without a fault, leaves the input buffers as they were, and leaves in the
  accumulator (and, at the last tile, in the output block) a list of stored pieces, which the run itself finds.
  The statements hold for any interpretation of the floats, so they serve the word-level program and the idealized one.
-/
import proofs.«148571_j17987323036120_1_alg».proof.Proof.Gen.Kernel.Launch
import proofs.«148571_j17987323036120_1_alg».proof.Proof.Gen.Kernel.Skeleton
import proofs.«148571_j17987323036120_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, in closed form over the grid -/

/-- The body's first conditional, as the kernel computes it from the inner grid coordinate: "this is tile 0 of the shard". -/
abbrev isFirstTile (i : grid1.Coords) : Prop :=
  (Scalar.cmpi .ne (Scalar.extui (Scalar.cmpi .eq (BitVec.ofNat 32 (i 1).val) 0#32)) 0#32) = 1#1
/-- The body's last conditional: "this is tile 31 of the shard". -/
abbrev isLastTile (i : grid1.Coords) : Prop := k1_cond2 i = 1#1

/-- Point `t` of the 2 × 32 grid is a shard's first tile exactly when `t` is a multiple of 32 (decided over the 64 points). -/
theorem isFirstTile_iff : ∀ t : Fin cfg1.N, isFirstTile (grid1.coords t) ↔ t.val % 32 = 0 :=
  (by decide +kernel : ∀ t : Fin grid1.N, isFirstTile (grid1.coords t) ↔ t.val % 32 = 0)
/-- … and a shard's last tile exactly when `t` is 31 modulo 32. -/
theorem isLastTile_iff : ∀ t : Fin cfg1.N, isLastTile (grid1.coords t) ↔ t.val % 32 = 31 :=
  (by decide +kernel : ∀ t : Fin grid1.N, isLastTile (grid1.coords t) ↔ t.val % 32 = 31)

/-! ## The three runs -/

set_option maxHeartbeats 4000000 in
/-- FIRST TILE. The accumulator may hold anything: the body overwrites it whole with zeros before it reads it. The output
    block is not touched (its contents `xo` are handed back as they were). -/
noncomputable def runFirst (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hfirst : isFirstTile i) (hlast : ¬isLastTile i)
    (x0 : Vec F S4096x40 .f32) (x1 : Vec F S4096x40 .i32) (x2 : Vec F S30x40 .f32) :
    { acc : List (View.Piece (Elt F) S1x1 .f32) //
      ∀ (xo : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f acc)) -∗ K ⟨⟩))
          ⊢ wp frame (wpE (defs₀ (F := F)) Variants.none c none) E (cc1__loss_kernel i arg2 harg2 arg3 harg3 arg4 harg4 arg5 harg5 arg6 harg6) K } := by
  refine ⟨?_, fun xo E K => ?run⟩
  case run =>
    simp only [cc1__loss_kernel_eq_skeleton]; unfold cc1__loss_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hfo
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 4000000 in
/-- MIDDLE TILE. The accumulator holds what the tile before left (`xacc`); the output block is not touched. -/
noncomputable def runMiddle (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hfirst : ¬isFirstTile i) (hlast : ¬isLastTile i)
    (x0 : Vec F S4096x40 .f32) (x1 : Vec F S4096x40 .i32) (x2 : Vec F S30x40 .f32) (xacc : Vec F S1x1 .f32) :
    { acc : List (View.Piece (Elt F) S1x1 .f32) //
      ∀ (xo : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xacc
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f acc)) -∗ K ⟨⟩))
          ⊢ wp frame (wpE (defs₀ (F := F)) Variants.none c none) E (cc1__loss_kernel i arg2 harg2 arg3 harg3 arg4 harg4 arg5 harg5 arg6 harg6) K } := by
  refine ⟨?_, fun xo E K => ?run⟩
  case run =>
    simp only [cc1__loss_kernel_eq_skeleton]; unfold cc1__loss_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 4000000 in
/-- LAST TILE. The accumulator holds what the tile before left; after adding this tile's contribution the body stores the
    accumulator into the output block, whole, whatever the block held. -/
noncomputable def runLast (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hfirst : ¬isFirstTile i) (hlast : isLastTile i)
    (x0 : Vec F S4096x40 .f32) (x1 : Vec F S4096x40 .i32) (x2 : Vec F S30x40 .f32) (xacc : Vec F S1x1 .f32) :
    Σ' (out : List (View.Piece (Elt F) S1x1x1 .f32)), { acc : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xacc
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f out) ∗ (∃ f, arg6.view.loc (c : Thread nD τ) ↦[arg6.view.set]{fullShare} arg6.view.writes (Elt F) f acc)) -∗ K ⟨⟩))
          ⊢ wp frame (wpE (defs₀ (F := F)) Variants.none c none) E (cc1__loss_kernel i arg2 harg2 arg3 harg3 arg4 harg4 arg5 harg5 arg6 harg6) K } := by
  refine ⟨?_, ?_, fun E K => ?run⟩
  case run =>
    simp only [cc1__loss_kernel_eq_skeleton]; unfold cc1__loss_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%dO, %fo, -, HO⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.Kernel.Loss

end
-- ==== Proof.LossFrameWord.lean ====
/-
  THE LOSS REGION, POINT BY POINT. The grid has 2 × 32 points, visited in order: point `t` is tile `t % 32` of shard
  `t / 32`. The body keeps a 1 × 1 accumulator in a scratch buffer that lives across points: the running sum of the
  weighted losses of the rows seen so far in the shard. The 30 × 40 weight table is a third input window whose block is
  the whole table at every point (it is fetched once). This module says what the accumulator and the shard's 1 × 1 × 1
  output block hold after every point, and proves the pipeline's body obligation from the three runs of the body, exactly
  as for the histogram region: a shard's first tile starts afresh, every other tile continues from what the point before
  left, and only a shard's last tile stores the output block and has it written back. Every store here is a store of the
  whole (one-element) buffer, so each store list covers its buffer.
-/
import proofs.«148571_j17987323036120_1_alg».proof.Proof.LossRunsWord

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- `V c b`: the contents of core `c`'s TensorCore buffer `b` when the region is entered.
variable (V : (c : Dev nD) → (b : Ref sig .tc) → Buf (Elt F) ((c : Thread nD τ).loc b))

/-! ## The windows' blocks, the staging memrefs, the scratch -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the weight table's
    block index never moves, so the one fetch serves every point). -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg1.N) : Memref sig .tc .vmem S4096x40 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S4096x40 .i32 := win1_1.stage (cfg1.slots t 1)
abbrev hs1 (t : Fin cfg1.N) : (ms1 t).IsWhole := hstage1_1 ((cfg1.slots t 1).cast nbuf1_1)
abbrev ms2 (t : Fin cfg1.N) : Memref sig .tc .vmem S30x40 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1x1 .f32 := win1_3.stage (cfg1.slots t 3)
abbrev hs3 (t : Fin cfg1.N) : (ms3 t).IsWhole := hstage1_3 ((cfg1.slots t 3).cast nbuf1_3)
/-- The accumulator: a whole scoped buffer of the kernel's own. -/
abbrev scM : Memref sig .tc .vmem S1x1 .f32 := Memref.whole cc1_scratch0
abbrev VO : View sig .tc .vmem S1x1x1 .f32 := (Memref.whole cc1_stg3_0 : Memref sig .tc .vmem S1x1x1 .f32).view
abbrev VS : View sig .tc .vmem S1x1 .f32 := (scM : Memref sig .tc .vmem S1x1 .f32).view

/-- The scoped buffers of the core that this region's windows do not stage, the accumulator last: the first region's
    staging buffers and scratch, each whole at some contents and never touched here, then the statement `P` about the
    accumulator. -/
abbrev restWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ P)

theorem PhiA_eq (c : Dev nD) :
    (Pipeline.ΦA spec1 c : sProp 𝕄)
      = iprop(restWith (F := F) c iprop(∃ d, owns (c : Thread nD τ) scM fullShare d) ∗ (∃ r, prngReg c r)) := by
  unfold Pipeline.ΦA; rw [scopedRest1_eq]; simp only [scM, owns_whole]; try rfl

/-! ## Where the output window is idle -/

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem idle3_of_not_last : ∀ t : Fin cfg1.N, ¬isLastTile (grid1.coords t) → cfg1.idle 3 (grid1.coords t) = true := by decide +kernel
theorem noFlush3_of_not_last : ∀ t : Fin cfg1.N, ¬isLastTile (grid1.coords t) → (cfg1.win 3).flush t = false := by decide +kernel
theorem live3_of_last : ∀ t : Fin cfg1.N, isLastTile (grid1.coords t) → cfg1.idle 3 (grid1.coords t) = false := by decide +kernel

/-! ## What each case leaves -/

def accFirst (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : isFirstTile i) (hl : ¬isLastTile i)
    (x0 : Vec F S4096x40 .f32) (x1 : Vec F S4096x40 .i32) (x2 : Vec F S30x40 .f32) : Vec F S1x1 .f32 :=
  VS.read (Elt F) (VS.writes (Elt F) VS.junk (runFirst c i arg2 harg2 arg3 harg3 arg4 harg4 arg5 harg5 arg6 harg6 hf hl x0 x1 x2).1)
theorem accFirst_cover (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : isFirstTile i) (hl : ¬isLastTile i)
    (x0 : Vec F S4096x40 .f32) (x1 : Vec F S4096x40 .i32) (x2 : Vec F S30x40 .f32) (y : S1x1.Idx) :
    ∃ pc ∈ (runFirst c i arg2 harg2 arg3 harg3 arg4 harg4 arg5 harg5 arg6 harg6 hf hl x0 x1 x2).1, y ∈ pc.1.set :=
  View.cover_of_wholeMem (runFirst c i arg2 harg2 arg3 harg3 arg4 harg4 arg5 harg5 arg6 harg6 hf hl x0 x1 x2).1 (by sl_whole_mem) y

def accMiddle (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : ¬isLastTile i)
    (x0 : Vec F S4096x40 .f32) (x1 : Vec F S4096x40 .i32) (x2 : Vec F S30x40 .f32) (xacc : Vec F S1x1 .f32) : Vec F S1x1 .f32 :=
  VS.read (Elt F) (VS.writes (Elt F) VS.junk (runMiddle c i arg2 harg2 arg3 harg3 arg4 harg4 arg5 harg5 arg6 harg6 hf hl x0 x1 x2 xacc).1)
theorem accMiddle_cover (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : ¬isLastTile i)
    (x0 : Vec F S4096x40 .f32) (x1 : Vec F S4096x40 .i32) (x2 : Vec F S30x40 .f32) (xacc : Vec F S1x1 .f32) (y : S1x1.Idx) :
    ∃ pc ∈ (runMiddle c i arg2 harg2 arg3 harg3 arg4 harg4 arg5 harg5 arg6 harg6 hf hl x0 x1 x2 xacc).1, y ∈ pc.1.set :=
  View.cover_of_wholeMem (runMiddle c i arg2 harg2 arg3 harg3 arg4 harg4 arg5 harg5 arg6 harg6 hf hl x0 x1 x2 xacc).1 (by sl_whole_mem) y

def accLast (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : isLastTile i)
    (x0 : Vec F S4096x40 .f32) (x1 : Vec F S4096x40 .i32) (x2 : Vec F S30x40 .f32) (xacc : Vec F S1x1 .f32) : Vec F S1x1 .f32 :=
  VS.read (Elt F) (VS.writes (Elt F) VS.junk (runLast c i arg2 harg2 arg3 harg3 arg4 harg4 arg5 harg5 arg6 harg6 hf hl x0 x1 x2 xacc).2.1)
theorem accLast_cover (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : isLastTile i)
    (x0 : Vec F S4096x40 .f32) (x1 : Vec F S4096x40 .i32) (x2 : Vec F S30x40 .f32) (xacc : Vec F S1x1 .f32) (y : S1x1.Idx) :
    ∃ pc ∈ (runLast c i arg2 harg2 arg3 harg3 arg4 harg4 arg5 harg5 arg6 harg6 hf hl x0 x1 x2 xacc).2.1, y ∈ pc.1.set :=
  View.cover_of_wholeMem (runLast c i arg2 harg2 arg3 harg3 arg4 harg4 arg5 harg5 arg6 harg6 hf hl x0 x1 x2 xacc).2.1 (by sl_whole_mem) y
def outLast (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : isLastTile i)
    (x0 : Vec F S4096x40 .f32) (x1 : Vec F S4096x40 .i32) (x2 : Vec F S30x40 .f32) (xacc : Vec F S1x1 .f32) : Vec F S1x1x1 .f32 :=
  VO.read (Elt F) (VO.writes (Elt F) VO.junk (runLast c i arg2 harg2 arg3 harg3 arg4 harg4 arg5 harg5 arg6 harg6 hf hl x0 x1 x2 xacc).1)
theorem outLast_cover (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : isLastTile i)
    (x0 : Vec F S4096x40 .f32) (x1 : Vec F S4096x40 .i32) (x2 : Vec F S30x40 .f32) (xacc : Vec F S1x1 .f32) (y : S1x1x1.Idx) :
    ∃ pc ∈ (runLast c i arg2 harg2 arg3 harg3 arg4 harg4 arg5 harg5 arg6 harg6 hf hl x0 x1 x2 xacc).1, y ∈ pc.1.set :=
  View.cover_of_wholeMem (runLast c i arg2 harg2 arg3 harg3 arg4 harg4 arg5 harg5 arg6 harg6 hf hl x0 x1 x2 xacc).1 (by sl_whole_mem) y

/-- The output block's contents where the body stores nothing into it: a placeholder nothing consults. -/
def outIdle : Vec F S1x1x1 .f32 := VO.read (Elt F) VO.junk

/-! ## What the output block and the accumulator hold after each point -/

def outsAt (c : Dev nD) : (n : ℕ) → n < cfg1.N → Vec F S1x1x1 .f32 × Vec F S1x1 .f32
  | 0, hn => (outIdle, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((isFirstTile_iff ⟨0, hn⟩).mpr (Nat.zero_mod _))
      (fun h => (fun h => by (try dsimp only at h); omega) ((isLastTile_iff ⟨0, hn⟩).mp h)) (iblk V c 0 ⟨0, hn⟩) (iblk V c 1 ⟨0, hn⟩) (iblk V c 2 ⟨0, hn⟩))
  | n + 1, hn =>
    if h0 : (n + 1) % 32 = 0 then
      (outIdle, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((isFirstTile_iff ⟨n + 1, hn⟩).mpr h0)
        (fun h => (fun h => by (try dsimp only at h); omega) ((isLastTile_iff ⟨n + 1, hn⟩).mp h)) (iblk V c 0 ⟨n + 1, hn⟩) (iblk V c 1 ⟨n + 1, hn⟩) (iblk V c 2 ⟨n + 1, hn⟩))
    else if h2 : (n + 1) % 32 = 31 then
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirstTile_iff ⟨n + 1, hn⟩).mp h)) ((isLastTile_iff ⟨n + 1, hn⟩).mpr h2)
          (iblk V c 0 ⟨n + 1, hn⟩) (iblk V c 1 ⟨n + 1, hn⟩) (iblk V c 2 ⟨n + 1, hn⟩) (outsAt c n (Nat.lt_of_succ_lt hn)).2,
        accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirstTile_iff ⟨n + 1, hn⟩).mp h)) ((isLastTile_iff ⟨n + 1, hn⟩).mpr h2)
          (iblk V c 0 ⟨n + 1, hn⟩) (iblk V c 1 ⟨n + 1, hn⟩) (iblk V c 2 ⟨n + 1, hn⟩) (outsAt c n (Nat.lt_of_succ_lt hn)).2)
    else
      (outIdle, accMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirstTile_iff ⟨n + 1, hn⟩).mp h)) (fun h => h2 ((isLastTile_iff ⟨n + 1, hn⟩).mp h))
          (iblk V c 0 ⟨n + 1, hn⟩) (iblk V c 1 ⟨n + 1, hn⟩) (iblk V c 2 ⟨n + 1, hn⟩) (outsAt c n (Nat.lt_of_succ_lt hn)).2)

theorem outsAt_first (c : Dev nD) (t : Fin cfg1.N) (h0 : t.val % 32 = 0) :
    outsAt V c t.val t.isLt = (outIdle, accFirst c (grid1.coords t) (ms0 t) (hs0 t) (ms1 t) (hs1 t) (ms2 t) (hs2 t) (ms3 t) (hs3 t) scM (Memref.isWhole_whole _) ((isFirstTile_iff t).mpr h0)
      (fun h => (fun h => by omega) ((isLastTile_iff t).mp h)) (iblk V c 0 t) (iblk V c 1 t) (iblk V c 2 t)) := by
  obtain ⟨n, hn⟩ := t
  cases n with
  | zero => exact rfl
  | succ n => exact (dif_pos h0).trans rfl

theorem outsAt_last (c : Dev nD) (t : Fin cfg1.N) (h0 : ¬t.val % 32 = 0) (h2 : t.val % 32 = 31) :
    outsAt V c t.val t.isLt = (outLast c (grid1.coords t) (ms0 t) (hs0 t) (ms1 t) (hs1 t) (ms2 t) (hs2 t) (ms3 t) (hs3 t) scM (Memref.isWhole_whole _) (fun h => h0 ((isFirstTile_iff t).mp h)) ((isLastTile_iff t).mpr h2)
        (iblk V c 0 t) (iblk V c 1 t) (iblk V c 2 t) (outsAt V c (t.val - 1) (Nat.lt_of_le_of_lt (Nat.sub_le _ _) t.isLt)).2,
      accLast c (grid1.coords t) (ms0 t) (hs0 t) (ms1 t) (hs1 t) (ms2 t) (hs2 t) (ms3 t) (hs3 t) scM (Memref.isWhole_whole _) (fun h => h0 ((isFirstTile_iff t).mp h)) ((isLastTile_iff t).mpr h2)
        (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans rfl)

theorem outsAt_middle (c : Dev nD) (t : Fin cfg1.N) (h0 : ¬t.val % 32 = 0) (h2 : ¬t.val % 32 = 31) :
    outsAt V c t.val t.isLt = (outIdle, accMiddle c (grid1.coords t) (ms0 t) (hs0 t) (ms1 t) (hs1 t) (ms2 t) (hs2 t) (ms3 t) (hs3 t) scM (Memref.isWhole_whole _) (fun h => h0 ((isFirstTile_iff t).mp h)) (fun h => h2 ((isLastTile_iff t).mp h))
        (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h2).trans rfl)

/-! ## The region's invariant -/

def PhiS (c : Dev nD) : (n : ℕ) → n ≤ cfg1.N → sProp 𝕄
  | 0, _ => Pipeline.ΦA spec1 c
  | n + 1, hn => iprop(restWith (F := F) c (owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith (F := F) c (owns (c : Thread nD τ) scM fullShare ((outsAt V c n hn).2)) ∗ (∃ r, prngReg c r)) := rfl
theorem PhiS_pos (c : Dev nD) (n : ℕ) (h : n ≤ cfg1.N) (hz : n ≠ 0) :
    PhiS V c n h = iprop(restWith (F := F) c (owns (c : Thread nD τ) scM fullShare ((outsAt V c (n - 1) (by omega)).2)) ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = (outsAt V c t.val t.isLt).1 := by dsimp only [dat]
theorem before0 (c : Dev nD) (t : Fin cfg1.N) (d) : (dat V c).before 0 t d = iblk V c 0 t :=
  before_in0_of V (dat V c) (A_eq V c 0) (after0 V c) t d
theorem before1 (c : Dev nD) (t : Fin cfg1.N) (d) : (dat V c).before 1 t d = iblk V c 1 t :=
  before_in1_of V (dat V c) (A_eq V c 1) (after1 V c) t d
theorem before2 (c : Dev nD) (t : Fin cfg1.N) (d) : (dat V c).before 2 t d = iblk V c 2 t :=
  before_in2_of V (dat V c) (A_eq V c 2) (after2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  have hN : t.val < 64 := lt_of_lt_of_eq t.isLt (show cfg1.N = 64 from N_1)
  by_cases h0 : t.val % 32 = 0
  · have hl : ¬isLastTile (grid1.coords t) := fun h => (fun h => by omega) ((isLastTile_iff t).mp h)
    rw [Dat.leavesExact_idle (dat V c) 3 t (idle3_of_not_last t hl) (noFlush3_of_not_last t hl)]
    rw [outsAt_first V c t h0]
    unfold accFirst; (try dsimp only)
    by_cases hz : t.val = 0
    · rw [PhiS_castSucc V c t, PhiS_zero V c _ _ hz, PhiA_eq]
      iintro ⟨⟨⟨Hb1, Hb2, Hb3, Hb4, Hb5, Hb6, Hb7, HS⟩, Hg⟩, Ho, ⟨%d0, H0⟩, ⟨%d1, H1⟩, ⟨%d2, H2⟩, ⟨%d3, H3⟩⟩
      iapply ((runFirst c (grid1.coords t) _ _ _ _ _ _ _ _ _ _ ((isFirstTile_iff t).mpr h0) hl (iblk V c 0 t) (iblk V c 1 t) (iblk V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hb1 Hb2 Hb3 Hb4 Hb5 Hb6 Hb7 HS Hg]
      · isplitl [Hb1 Hb2 Hb3 Hb4 Hb5 Hb6 Hb7 HS]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (accFirst_cover c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Hb1, Hb2, Hb3, Hb4, Hb5, Hb6, Hb7, HS⟩, Hg⟩, Ho, ⟨%d0, H0⟩, ⟨%d1, H1⟩, ⟨%d2, H2⟩, ⟨%d3, H3⟩⟩
      iapply ((runFirst c (grid1.coords t) _ _ _ _ _ _ _ _ _ _ ((isFirstTile_iff t).mpr h0) hl (iblk V c 0 t) (iblk V c 1 t) (iblk V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Hb1 Hb2 Hb3 Hb4 Hb5 Hb6 Hb7 HS Hg]
      · isplitl [Hb1 Hb2 Hb3 Hb4 Hb5 Hb6 Hb7 HS]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (accFirst_cover c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hf : ¬isFirstTile (grid1.coords t) := fun h => h0 ((isFirstTile_iff t).mp h)
    by_cases h2 : t.val % 32 = 31
    · have hl : isLastTile (grid1.coords t) := (isLastTile_iff t).mpr h2
      rw [show (dat V c).leavesExact 3 t = owns (c : Thread nD τ) (ms3 t) fullShare ((dat V c).after 3 t) from by
        unfold Dat.leavesExact; rw [live3_of_last t hl], after3]
      rw [outsAt_last V c t h0 h2]
      unfold outLast accLast; (try dsimp only)
      rw [PhiS_castSucc V c t, PhiS_pos V c _ _ hz]
      iintro ⟨⟨⟨Hb1, Hb2, Hb3, Hb4, Hb5, Hb6, Hb7, HS⟩, Hg⟩, Ho, ⟨%d0, H0⟩, ⟨%d1, H1⟩, ⟨%d2, H2⟩, ⟨%d3, H3⟩⟩
      iapply ((runLast c (grid1.coords t) _ _ _ _ _ _ _ _ _ _ hf hl (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hb1 Hb2 Hb3 Hb4 Hb5 Hb6 Hb7 HS Hg]
      · isplitl [Hb1 Hb2 Hb3 Hb4 Hb5 Hb6 Hb7 HS]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (accLast_cover c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · have hl : ¬isLastTile (grid1.coords t) := fun h => h2 ((isLastTile_iff t).mp h)
      rw [Dat.leavesExact_idle (dat V c) 3 t (idle3_of_not_last t hl) (noFlush3_of_not_last t hl)]
      rw [outsAt_middle V c t h0 h2]
      unfold accMiddle; (try dsimp only)
      rw [PhiS_castSucc V c t, PhiS_pos V c _ _ hz]
      iintro ⟨⟨⟨Hb1, Hb2, Hb3, Hb4, Hb5, Hb6, Hb7, HS⟩, Hg⟩, Ho, ⟨%d0, H0⟩, ⟨%d1, H1⟩, ⟨%d2, H2⟩, ⟨%d3, H3⟩⟩
      iapply ((runMiddle c (grid1.coords t) _ _ _ _ _ _ _ _ _ _ hf hl (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hb1 Hb2 Hb3 Hb4 Hb5 Hb6 Hb7 HS Hg]
      · isplitl [Hb1 Hb2 Hb3 Hb4 Hb5 Hb6 Hb7 HS]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          unfold owns; iexists _; isplitr
          swap; · iexact HS
          ipureintro; exact View.read_writes_of_cover _ _ _ _ _ (accMiddle_cover c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg1.N) ⊢ Pipeline.ΦA spec1 c := by
  have hne : (Fin.last cfg1.N).val ≠ 0 := by rw [Fin.val_last]; have : cfg1.N = 64 := N_1; omega
  rw [show (dat V c).Φ (Fin.last cfg1.N) = PhiS V c (Fin.last cfg1.N).val (Nat.le_of_lt_succ (Fin.last cfg1.N).isLt) from rfl,
    PhiS_pos V c _ _ hne, PhiA_eq]
  iintro ⟨⟨Hb1, Hb2, Hb3, Hb4, Hb5, Hb6, Hb7, HS⟩, Hg⟩
  isplitl [Hb1 Hb2 Hb3 Hb4 Hb5 Hb6 Hb7 HS]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    iexists _; iexact HS
  iexact Hg

end Cert.Kernel.Loss

end
-- ==== Proof.MainFrameWord.lean ====
/-
  THE WHOLE PROGRAM AS SEGMENTS, AND ITS FRAME. @main is six items: the histogram region, three stretches of host
  operations (the weight table from the counts), the loss region, and a last host stretch (the mean). Between two items
  every unscoped buffer of the core is held whole at a named valuation: the launch contents, then what each item writes.
  A host stretch writes the buffers of its own operations; a region writes its output array and nothing else, and what it
  writes is the fold of its write-backs over the grid (the proof data's array after the last point).

  Each region enters from the valuation before it: its windows' arrays are split out of the unscoped buffers at the
  contents read off that valuation, the generator register goes into the region's invariant, the accumulator is taken
  from the scoped buffers at anything (the first tile clears it); and it leaves to the valuation after it: the arrays are
  put back, the output array at the fold of the write-backs, every other buffer as it was, the accumulator's named
  contents forgotten. No item writes an argument array, which is the frame claim.
-/
import proofs.«148571_j17987323036120_1_alg».proof.Proof.HistFrameWord
import proofs.«148571_j17987323036120_1_alg».proof.Proof.LossFrameWord
import proofs.«148571_j17987323036120_1_alg».proof.Proof.Gen.Kernel.Regions
import Idealize.ShloMosaic.Lib.Pipeline.RegionsLoop
import Idealize.ShloMosaic.Lib.Pipeline.FrameSuffix

set_option maxRecDepth 16384

noncomputable section

namespace Cert.Kernel.Main

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the items -/

/-- What the histogram region is entered from: the launch contents, read at the TensorCore's references. -/
abbrev VR0 : (c : Dev nD) → (b : Ref sig .tc) → Buf (Elt F) ((c : Thread nD τ).loc b) := fun c b => Gen.V0 m c b

/-- After the histogram region: its arrays at what the pipeline leaves (the two inputs as entered, the per-shard counts
    at the fold of the write-backs), every other buffer as launched. -/
def W1 (c : Dev nD) : Valuation τ sig (Elt F) :=
  Pipeline.withArrays spec0 c (Gen.V0 m c) fun w => (Hist.dat (VR0 m) c).arrAt w cfg0.N
theorem W1_arr (c : Dev nD) (w : Fin cfg0.W) :
    W1 m c (Proc.devRef .tc (Pipeline.arrRef spec0 w)) = (Hist.dat (VR0 m) c).arrAt w cfg0.N := by
  unfold W1; exact Pipeline.withArrays_arr spec0 launch0.win.arr_inj c _ _ w

/-- The contents a region leaves, as far as the host stretches between the regions read them: the histogram's. -/
def outs1 : Gen.Outs (F := F) := fun _ r c => W1 m c r
/-- What the loss region is entered from: the weight table computed by the host from the histogram's counts. -/
abbrev VR1 : (c : Dev nD) → (b : Ref sig .tc) → Buf (Elt F) ((c : Thread nD τ).loc b) := fun c b => Gen.V4 m (outs1 m) c b
/-- After the loss region: the per-shard loss sums at the fold of the write-backs, every other buffer as entered. -/
def W5 (c : Dev nD) : Valuation τ sig (Elt F) :=
  Pipeline.withArrays spec1 c (Gen.V4 m (outs1 m) c) fun w => (Loss.dat (VR1 m) c).arrAt w cfg1.N
theorem W5_arr (c : Dev nD) (w : Fin cfg1.W) :
    W5 m c (Proc.devRef .tc (Pipeline.arrRef spec1 w)) = (Loss.dat (VR1 m) c).arrAt w cfg1.N := by
  unfold W5; exact Pipeline.withArrays_arr spec1 launch1.win.arr_inj c _ _ w

/-- What the two regions leave, by item: after item 4 (the loss region) the second valuation, otherwise the first. -/
def outs : Gen.Outs (F := F) := fun j r c => if j = 5 then W5 m c r else W1 m c r
theorem outs_one (r : Ref sig .tc) (c : Dev nD) : outs m 1 r c = W1 m c r := if_neg (by decide)
theorem outs_five (r : Ref sig .tc) (c : Dev nD) : outs m 5 r c = W5 m c r := if_pos rfl
/-- The host stretches between the regions read only what the histogram left. -/
theorem V4_outs (c : Dev nD) : Gen.V4 m (outs m) c = Gen.V4 m (outs1 m) c := by
  have h : outs m 1 main_v0 c = outs1 m 1 main_v0 c := outs_one m main_v0 c
  simp only [Gen.V4, Gen.V3, Gen.V2, Gen.V1, h]

/-! ## The proof data, the thread state -/

/-- Both pipelines' proof data, each at its region's entry contents. -/
def pdats : (p : Fin 2) → (c : Dev nD) → Dat τ (Elt F) Unit ℕ (UR sig nD τ) ℕ (cfgs p) c
  | ⟨0, _⟩ => fun c => Hist.dat (VR0 m) c
  | ⟨1, _⟩ => fun c => Loss.dat (VR1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev Rr (c : Dev nD) : sProp 𝕄 := iprop((∃ r, prngReg c r) ∗ ∃ W, owes (c : Thread nD τ) (0 : CellTallies nD τ sig Unit) W)

/-! ## What each region leaves, against the valuations of the generated segment list -/

/-- After the histogram region each of its arrays holds what the pipeline leaves: the inputs are arguments, which the
    valuation after item 0 keeps; the counts are what that valuation is updated to. -/
theorem hF0 (c : Dev nD) (w : Fin cfg0.W) : (pdats m 0 c).arrAt w cfg0.N = Gen.V1 m (outs m) c (Pipeline.arrRef spec0 w) := by
  match w with
  | ⟨0, _⟩ => exact ((Hist.dat (VR0 m) c).arrAt_in 0 rfl _).trans ((Hist.A_eq (VR0 m) c 0).trans (Gen.V1_of m (outs m) c main_arg0 (by decide)).symm)
  | ⟨1, _⟩ => exact ((Hist.dat (VR0 m) c).arrAt_in 1 rfl _).trans ((Hist.A_eq (VR0 m) c 1).trans (Gen.V1_of m (outs m) c main_arg1 (by decide)).symm)
  | ⟨2, _⟩ =>
    refine (W1_arr m c 2).symm.trans ((outs_one m main_v0 c).symm.trans ?_)
    simp only [Gen.V1, Function.update_self]
theorem hrest0 (c : Dev nD) : ∀ b, b ∉ Finset.univ.image (Pipeline.arrRef spec0) → Gen.V1 m (outs m) c b = VR0 m c b :=
  fun b hb => Gen.V1_of m (outs m) c b fun h => hb (by
    rw [List.mem_singleton] at h; subst h
    exact Finset.mem_image.mpr ⟨2, Finset.mem_univ _, rfl⟩)

theorem hF1 (c : Dev nD) (w : Fin cfg1.W) : (pdats m 1 c).arrAt w cfg1.N = Gen.V5 m (outs m) c (Pipeline.arrRef spec1 w) := by
  match w with
  | ⟨0, _⟩ => exact ((Loss.dat (VR1 m) c).arrAt_in 0 rfl _).trans ((Loss.A_eq (VR1 m) c 0).trans
      ((congrFun (V4_outs m c) _).symm.trans (Gen.V5_of m (outs m) c main_arg0 (by decide)).symm))
  | ⟨1, _⟩ => exact ((Loss.dat (VR1 m) c).arrAt_in 1 rfl _).trans ((Loss.A_eq (VR1 m) c 1).trans
      ((congrFun (V4_outs m c) _).symm.trans (Gen.V5_of m (outs m) c main_arg1 (by decide)).symm))
  | ⟨2, _⟩ => exact ((Loss.dat (VR1 m) c).arrAt_in 2 rfl _).trans ((Loss.A_eq (VR1 m) c 2).trans
      ((congrFun (V4_outs m c) _).symm.trans (Gen.V5_of m (outs m) c main_v18 (by decide)).symm))
  | ⟨3, _⟩ =>
    refine (W5_arr m c 3).symm.trans ((outs_five m main_v19 c).symm.trans ?_)
    simp only [Gen.V5, Function.update_self]
theorem hrest1 (c : Dev nD) : ∀ b, b ∉ Finset.univ.image (Pipeline.arrRef spec1) → Gen.V5 m (outs m) c b = VR1 m c b :=
  fun b hb => (Gen.V5_of m (outs m) c b fun h => hb (by
    rw [List.mem_singleton] at h; subst h
    exact Finset.mem_image.mpr ⟨3, Finset.mem_univ _, rfl⟩)).trans (congrFun (V4_outs m c) _)

/-! ## The regions as segments -/

set_option backward.isDefEq.respectTransparency.types false in
/-- THE HISTOGRAM REGION over the thread state: entered from the launch contents, left at the valuation after item 0. -/
def reg0 : Pipeline.RegionSeg (pcfgs (F := F)) (Gen.adm (F := F)) (pdats m) () defs₀ 𝒱₀ L lv 0 where
  win := launch0.win.to₀
  block_pos := launch0.block_pos
  stage_whole := launch0.stage_whole
  K := PEmpty
  osem k := k.elim
  ho := Pipeline.OwnSemFacts.none _
  hbody c := (Hist.body_obligation (VR0 m) c).loose
  hwaits := Pipeline.hwaits_of_owed_zero _ _ _ _ L lv 0 fun _ _ => rfl
  pre c := iprop(StableHlo.held (c : Thread nD τ) (Pipeline.ucRefs τ sig) (Gen.V0 m c) ∗ Rr c)
  post c := iprop(StableHlo.held (c : Thread nD τ) (Pipeline.ucRefs τ sig) (Gen.V1 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) (Gen.adm (F := F)) (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Hist.hout (VR0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (Gen.adm (F := F)) (Ix := Unit) (Name := ℕ) (U := UR sig nD τ) (Lvl := ℕ)
      launch0.win launch0.arr_whole c (pdats m) ((pdats m 0 c).share_full fun _ => rfl)
      (VR0 m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE LOSS REGION over the thread state: entered from the valuation after item 3, left at the one after item 4. -/
def reg1 : Pipeline.RegionSeg (pcfgs (F := F)) (Gen.adm (F := F)) (pdats m) () defs₀ 𝒱₀ L lv 1 where
  win := launch1.win.to₀
  block_pos := launch1.block_pos
  stage_whole := launch1.stage_whole
  K := PEmpty
  osem k := k.elim
  ho := Pipeline.OwnSemFacts.none _
  hbody c := (Loss.body_obligation (VR1 m) c).loose
  hwaits := Pipeline.hwaits_of_owed_zero _ _ _ _ L lv 1 fun _ _ => rfl
  pre c := iprop(StableHlo.held (c : Thread nD τ) (Pipeline.ucRefs τ sig) (Gen.V4 m (outs m) c) ∗ Rr c)
  post c := iprop(StableHlo.held (c : Thread nD τ) (Pipeline.ucRefs τ sig) (Gen.V5 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    rw [V4_outs m c]
    have hsplit := Pipeline.arrays_of_unscopedBufs (p := 1) (pcfgs (F := F)) (Gen.adm (F := F)) (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Loss.hout (VR1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (Gen.adm (F := F)) (Ix := Unit) (Name := ℕ) (U := UR sig nD τ) (Lvl := ℕ)
      launch1.win launch1.arr_whole c (pdats m) ((pdats m 1 c).share_full fun _ => rfl)
      (VR1 m c) (fun b => Gen.V5 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- THE FRAME: from any memory with zero counters every weakly fair execution of @main terminates, nothing faults, and
    the three argument arrays end as launched — the generated segment list run with the two regions' records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)

end Cert.Kernel.Main

end
-- ==== Proof.RefFrame.lean ====
/-
  The reference is a host program with no kernel launch: its run is a straight line of array operations, each writing a
  fresh buffer. Every weakly fair execution therefore terminates without a fault, and no operation writes an argument
  array; the frame claim is that run with the statement about the result dropped.
-/
import proofs.«148571_j17987323036120_1_alg».proof.Defs
import proofs.«148571_j17987323036120_1_alg».proof.Proof.Gen.ReferenceIdeal
import proofs.«148571_j17987323036120_1_alg».proof.Proof.Gen.Pre_finite_inputs
import proofs.«148571_j17987323036120_1_alg».proof.Proof.RunP

noncomputable section

open Idealize.ShloMosaic Idealize.ShloMosaic.TcCoe Idealize.SL.Sem

namespace Cert.Proof.Reference

/-- The reference runs to its end, faults nowhere and leaves its three argument arrays as it found them. -/
theorem frame [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.Reference

end
-- ==== Proof.MainValue.lean ====
/-
  THE IDEALIZED KERNEL'S RUN WITH ITS RESULT NAMED. The frame says the program runs and keeps its arguments; for the
  value claim the same run is read once more at its end: the result buffer holds what the last valuation of the segment
  list names for it — the host's last stretch (add the two shards' loss sums, divide by the number of elements) applied
  to what the loss region left, which in turn was computed from the weight table the host formed out of what the
  histogram region left.
-/
import proofs.«148571_j17987323036120_1_alg».proof.Proof.MainFrame

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

set_option backward.isDefEq.respectTransparency.types false in
/-- The whole program's run, given the two regions' records: every weakly fair execution of @main from memory `m` with zero
    counters terminates, and every final memory holds the result buffer at what the last valuation names for it and each
    argument as launched. (The argument is the conditional frame's; only the final read-out also reads the result.) -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      r.2.mem ((c.tc : Thread nD τ).loc main_v21) = V6 m outs c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨hpre0 c, hpost0 c, .rfl, .rfl, hpre1 c, hpost1 c, sep_mono .rfl (hE2 c)⟩)
    (hinit := ?_) (QY := fun c s => s.mem ((c.tc : Thread nD τ).loc main_v21) = V6 m outs c (Proc.devRef .tc main_v21) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨h (Proc.devRef .tc main_v21) (Finset.mem_filter.mpr ⟨StableHlo.devRef_mem_tcRefs main_v21, by decide⟩),
        (h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c),
        (h (Proc.devRef .tc main_arg2) (Finset.mem_filter.mpr ⟨StableHlo.devRef_mem_tcRefs main_arg2, by decide⟩)).trans (V6_main_arg2 m outs c)⟩
    · iexact HSI

local notation "𝕄" => MT nD τ sig Unit (Elt F) ℕ (UR sig nD τ) ℕ

variable (ρ : Dev nD → PrngReg)

set_option backward.isDefEq.respectTransparency.types false in
/-- THE RUN WITH THE RESULT: the program terminates on every weakly fair execution, the result buffer ends at the last
    valuation's contents, the arguments end as launched. -/
theorem run_value : θ_run defs (onTc (τ := τ) (main (F := F))) ⟨m, fun _ => 0, ρ⟩ (fun r => ∀ c : Dev nD,
      r.2.mem ((c.tc : Thread nD τ).loc main_v21) = Gen.V6 m (outs m) c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)

end Cert.KernelIdeal.Main

end
-- ==== Proof.Spec.lean ====
/-
  THE SPECIFICATION: the harmonised loss as one function of the three argument arrays, over the extended reals.

  For an element (r, c) with prediction p and integer target y:
    t   = y as a real;            g = |sigmoid(p) − t|;          bin = min(⌊30·g⌋ clamped to a word, 29);
    bce = (max(p, 0) − p·t) + log(1 + exp(−|p|)).
  For a bin b and class c, with the accumulator array `acc` indexed (class, bin):
    cnt(b, c)    = 0 + Σ over the 262144 rows r of [bin(r, c) = b]          (each hit adds the float 1.0);
    newacc(b, c) = 0.6·acc(c, b) + 0.4·cnt(b, c)  where cnt(b, c) > 0,  acc(c, b) elsewhere;
    n(c)         = the number of bins b with cnt(b, c) > 0, counted in 32-bit words and then made a float;
    w(b, c)      = (262144 / newacc(b, c)) / n(c).
  The result is (0 + Σ over all (r, c) of bce(r, c) · w(bin(r, c), c)) / 10485760, the bin read as a natural number
  and clamped at 29 (it is in range anyway: LibBinning.lean).
  Float constants are kept as their 32-bit words: the same word appears in both programs and is never evaluated, except
  the zero word and the word of 1.0.
-/
import Idealize.ShloMosaic.PureOps.Ideal
import Idealize.ShloMosaic.Lib.ValueIdx
import Idealize.ShloMosaic.PureOps.Reduce

noncomputable section

open scoped BigOperators

namespace Cert.Spec

open Idealize.ShloMosaic Idealize.ShloMosaic.ValueIdx

abbrev SBC : Shape := ⟨2, ![262144, 40]⟩
abbrev SCN : Shape := ⟨2, ![40, 30]⟩

/-- The float constants of the two programs, as their words read at the ideal instance. -/
def kZero : EReal := Ideal.ofBits .f32 0x00000000#32
def kOne : EReal := Ideal.ofBits .f32 0x3F800000#32
def k30 : EReal := Ideal.ofBits .f32 0x41F00000#32
def k06 : EReal := Ideal.ofBits .f32 0x3F19999A#32
def k04 : EReal := Ideal.ofBits .f32 0x3ECCCCCD#32
def kB : EReal := Ideal.ofBits .f32 0x48800000#32
def kN : EReal := Ideal.ofBits .f32 0x4B200000#32

/-- The target as a real. -/
def tOf (y : BitVec 32) : EReal := ((y.toInt : ℝ) : EReal)
/-- The gradient magnitude |sigmoid(p) − t|. -/
def gOf (p : EReal) (y : BitVec 32) : EReal := max (Ideal.logistic p - tOf y) (-(Ideal.logistic p - tOf y))
/-- The bin word: 30·g converted toward zero (clamped into the word), capped at 29. -/
def binOf (p : EReal) (y : BitVec 32) : BitVec 32 := IntOp.minsi (Ideal.fptosi 32 (gOf p y * k30)) 29#32
/-- The binary cross-entropy with logits, in its numerically stable spelling. -/
def bceOf (p : EReal) (y : BitVec 32) : EReal := (max p kZero - p * tOf y) + Ideal.log1p (Ideal.exp (-(max p (-p))))

variable (pred : SBC.Idx → EReal) (tgt : IVec SBC 32) (acc : SCN.Idx → EReal)

/-- The bin word of element (r, c). -/
def bin (r : Fin 262144) (c : Fin 40) : BitVec 32 := binOf (pred (ix2 r c)) (tgt (ix2 r c))

/-- How many rows fall in bin `b` for class `c`: each hit adds the float 1.0 onto zero. -/
def cnt (b : Fin 30) (c : Fin 40) : EReal :=
  kZero + ∑ r : Fin 262144, if bin pred tgt r c = BitVec.ofNat 32 b.val then kOne else 0

/-- "The bin is non-empty", as the comparison's one-bit word. -/
def nonempty (b : Fin 30) (c : Fin 40) : BitVec 1 := Ideal.cmp .ogt (cnt pred tgt b c) kZero

/-- The moving average, updated only where the bin is non-empty. -/
def newacc (b : Fin 30) (c : Fin 40) : EReal :=
  if nonempty pred tgt b c = 1#1 then k06 * acc (ix2 c b) + k04 * cnt pred tgt b c else acc (ix2 c b)

/-- The number of non-empty bins of class `c`: the one-bit words widened and added as 32-bit words, then made a float. -/
def nOf (c : Fin 40) : EReal :=
  ((((Finset.univ : Finset (Fin 30)).fold IntOp.addi 0#32 fun b => (nonempty pred tgt b c).setWidth 32).toInt : ℝ) : EReal)

/-- The weight of bin `b` for class `c`. -/
def w (b : Fin 30) (c : Fin 40) : EReal :=
  Ideal.div (Ideal.div kB (newacc pred tgt acc b c)) (nOf pred tgt c)

/-- The bin of element (r, c) as an index into the 30 bins: the word read signed, as a natural number, clamped at 29. -/
def binIdx (r : Fin 262144) (c : Fin 40) : Fin 30 := ⟨min (bin pred tgt r c).toInt.toNat 29, by omega⟩

/-- One element's contribution. -/
def term (r : Fin 262144) (c : Fin 40) : EReal :=
  bceOf (pred (ix2 r c)) (tgt (ix2 r c)) * w pred tgt acc (binIdx pred tgt r c) c

/-- The harmonised loss. -/
def result : EReal :=
  Ideal.div (kZero + ∑ r : Fin 262144, ∑ c : Fin 40, term pred tgt acc r c) kN

/-! ## The same quantities, arranged as the kernel computes them

The kernel splits the 262144 rows into 2 shards of 32 tiles of 4096 rows. -/

/-- Row `r` of tile `i` of shard `p`, as a row of the whole array. -/
def rowOf (p : Fin 2) (i : Fin 32) (r : Fin 4096) : Fin 262144 := ⟨(p.val * 32 + i.val) * 4096 + r.val, by omega⟩

/-- One shard's count for bin `b` and class `c`: tile by tile, row by row, the indicator of the bin. -/
def shardCount (p : Fin 2) (b : Fin 30) (c : Fin 40) : EReal :=
  ∑ i : Fin 32, ∑ r : Fin 4096, if bin pred tgt (rowOf p i r) c = BitVec.ofNat 32 b.val then (1 : EReal) else 0

/-- One shard's weighted loss against a given 30 × 40 weight table `wt`: tile by tile, row by row, class by class. -/
def shardLoss (wt : (⟨2, ![30, 40]⟩ : Shape).Idx → EReal) (p : Fin 2) : EReal :=
  ∑ i : Fin 32, ∑ r : Fin 4096, ∑ c : Fin 40,
    bceOf (pred (ix2 (rowOf p i r) c)) (tgt (ix2 (rowOf p i r) c)) * wt (ix2 (binIdx pred tgt (rowOf p i r) c) c)

end Cert.Spec

end
-- ==== Proof.SpecLaws.lean ====
/-
  THE SPECIFICATION IN THE KERNEL'S ARRANGEMENT. The 262144 rows are 2 shards × 32 tiles × 4096 rows, row
  (p·32 + i)·4096 + r being row r of tile i of shard p. A sum over all rows is the triple sum over shards, tiles and rows
  (a reindexing along a bijection, in any commutative additive monoid). Hence the count of a bin is zero plus the two
  shards' counts, and the loss is the sum of the two shards' weighted losses against the weight table, over the number of
  elements. The float word of 1.0 is the real 1 and the zero word is 0.
-/
import proofs.«148571_j17987323036120_1_alg».proof.Proof.Spec
import Idealize.ShloMosaic.PureOps.Ideal.Laws

noncomputable section

open scoped BigOperators

namespace Cert.Spec

open Idealize.ShloMosaic Idealize.ShloMosaic.ValueIdx

theorem kZero_eq : kZero = 0 := Ideal.ofBits_zero_f32

theorem kOne_eq : kOne = 1 := by
  unfold kOne
  simp [Ideal.ofBits, Ideal.ieee, -EReal.coe_mul]; norm_num

/-- The bijection (shard, tile, row) ↦ row of the whole array. -/
def rowEquiv : (Fin 2 × Fin 32) × Fin 4096 ≃ Fin 262144 :=
  ((finProdFinEquiv.prodCongr (Equiv.refl (Fin 4096))).trans finProdFinEquiv).trans (finCongr (by norm_num))

theorem rowEquiv_apply (p : Fin 2) (i : Fin 32) (r : Fin 4096) : rowEquiv ((p, i), r) = rowOf p i r := by
  apply Fin.ext
  simp [rowEquiv, rowOf, finProdFinEquiv]
  omega

/-- A sum over all rows, shard by shard, tile by tile, row by row. -/
theorem sum_rows {M : Type*} [AddCommMonoid M] (f : Fin 262144 → M) :
    ∑ x, f x = ∑ p : Fin 2, ∑ i : Fin 32, ∑ r : Fin 4096, f (rowOf p i r) := by
  rw [← rowEquiv.sum_comp f, Fintype.sum_prod_type, Fintype.sum_prod_type]
  refine Finset.sum_congr rfl fun p _ => Finset.sum_congr rfl fun i _ => Finset.sum_congr rfl fun r _ => ?_
  rw [rowEquiv_apply]

variable (pred : SBC.Idx → EReal) (tgt : IVec SBC 32) (acc : SCN.Idx → EReal)

/-- The count of a bin is zero plus the two shards' counts. -/
theorem cnt_eq_shards (b : Fin 30) (c : Fin 40) :
    cnt pred tgt b c = kZero + ∑ p : Fin 2, shardCount pred tgt p b c := by
  unfold cnt shardCount
  rw [sum_rows]
  simp only [kOne_eq]

/-- The loss is the two shards' weighted losses against the weight table, added onto zero, over the number of elements. -/
theorem result_eq_shards :
    result pred tgt acc
      = Ideal.div (kZero + ∑ p : Fin 2, shardLoss pred tgt (fun j => w pred tgt acc (j 0) (j 1)) p) kN := by
  unfold result shardLoss term
  rw [sum_rows]

end Cert.Spec

end
-- ==== Proof.KernelHost.lean ====
/-
  THE HOST GLUE OF THE KERNEL, AT THE IDEAL VALUES. Between the two regions the host turns the two shards' counts into
  the 30 × 40 weight table: it adds the shards (the count of a bin), compares with zero (the bin is non-empty), blends the
  transposed accumulator with the counts where non-empty, counts the non-empty bins of each class in 32-bit words, and
  divides 262144 by the blend and then by that number. Read at a bin b and a class c this is the specification's weight
  w(b, c), once the histogram region's array is known to hold the shards' counts. After the loss region the host adds the
  two shards' sums onto zero and divides by the number of elements.
-/
import proofs.«148571_j17987323036120_1_alg».proof.Proof.MainValue
import proofs.«148571_j17987323036120_1_alg».proof.Proof.SpecLaws
import Idealize.ShloMosaic.Lib.StableHlo.Run
import Idealize.ShloMosaic.Lib.IdealHost
import Idealize.ShloMosaic.Lib.Pipeline.Value
import Idealize.ShloMosaic.PureOps.Ideal.Laws
import Idealize.ShloMosaic.PureOps.Reduce

set_option maxRecDepth 16384

noncomputable section

open scoped BigOperators

namespace Cert.KernelIdeal.Main

open Cert.KernelIdeal Cert.KernelIdeal.Gen
open Idealize.ShloMosaic Idealize.ShloMosaic.TcCoe Idealize.ShloMosaic.Tactic Idealize.ShloMosaic.StableHlo
open Idealize.ShloMosaic.ValueIdx
open Idealize.SL.Sem

variable (P : S262144x40.Idx → EReal) (T : IVec S262144x40 32) (A : S40x30.Idx → EReal)

/-- Adding the two shards' counts onto zero gives the count of the bin. -/
theorem counts_apply (b : Fin 30) (k : Fin 40) :
    Host.reduceAdd (F := Ideal) (φ := .f32) (fun j : S2x30x40.Idx => Cert.Spec.shardCount P T (j 0) (j 1) (j 2))
        (constant S_ .f32 0x00000000#32) reducesTo_S2x30x40_S30x40_d0 h_S_ (ix2 b k)
      = Cert.Spec.cnt P T b k := by
  rw [hostReduceAdd_apply, Ideal.hostReduceAdd_single _ (by decide : S2x30x40.Reduces [0] S30x40), Cert.Spec.cnt_eq_shards]
  rfl

/-- The same as an equation of arrays. -/
theorem counts_eq :
    Host.reduceAdd (F := Ideal) (φ := .f32) (fun j : S2x30x40.Idx => Cert.Spec.shardCount P T (j 0) (j 1) (j 2))
        (constant S_ .f32 0x00000000#32) reducesTo_S2x30x40_S30x40_d0 h_S_
      = fun j : S30x40.Idx => Cert.Spec.cnt P T (j 0) (j 1) := by
  funext j
  obtain ⟨b, k, rfl⟩ : ∃ (b : Fin 30) (k : Fin 40), j = ix2 b k := ⟨j 0, j 1, eq_ix2 j⟩
  exact counts_apply P T b k

/-- "Non-empty" at (b, c): the count compared with the zero splat. -/
theorem nonempty_apply (b : Fin 30) (k : Fin 40) :
    cmpf (F := Ideal) .ogt (fun j : S30x40.Idx => Cert.Spec.cnt P T (j 0) (j 1))
        (broadcastInDim S30x40 ![] bcast_S_S30x40 (constant S_ .f32 0x00000000#32)) (ix2 b k)
      = Cert.Spec.nonempty P T b k := by
  rw [cmpf_apply, broadcastInDim_scalar_apply]
  rfl

/-- The number of non-empty bins of class k: the host's integer sum down the 30 bins is the order-free fold. -/
theorem nbins_apply (k : Fin 40) :
    Host.reduce IntOp.addi
        (extui 32 (cmpf (F := Ideal) .ogt (fun j : S30x40.Idx => Cert.Spec.cnt P T (j 0) (j 1))
          (broadcastInDim S30x40 ![] bcast_S_S30x40 (constant S_ .f32 0x00000000#32))) natLt_1_32)
        (constantI S_ 32 0#32) reducesTo_S30x40_S40_d0 h_S_ (ix1 k)
      = (Finset.univ : Finset (Fin 30)).fold IntOp.addi 0#32 fun b => (Cert.Spec.nonempty P T b k).setWidth 32 := by
  rw [Host.reduce_eq_fold]
  have hset : (Finset.univ.filter fun i : S30x40.Idx => reducesTo_S30x40_S40_d0.drop i = ix1 k)
      = (Finset.univ : Finset (Fin 30)).image (fun b => (ix2 b k : S30x40.Idx)) := by
    ext i
    simp only [Finset.mem_filter, Finset.mem_univ, true_and, Finset.mem_image]
    constructor
    · intro h
      have h1 : ((i 1 : Fin 40) : Nat) = k.val := by
        have h2 := congrArg (fun f : S40.Idx => ((f 0 : Fin 40) : Nat)) h
        rw [show ((reducesTo_S30x40_S40_d0.drop i) 0 : Nat) = i 1 from reducesTo_S30x40_S40_d0.drop_apply_val_of_eq i 0 1] at h2
        exact h2
      have hk : i 1 = k := Fin.ext h1
      exact ⟨i 0, by rw [← hk]; exact (eq_ix2 i).symm⟩
    · rintro ⟨b, rfl⟩
      funext a
      obtain rfl : a = 0 := Subsingleton.elim _ _
      exact Fin.ext (reducesTo_S30x40_S40_d0.drop_apply_val_of_eq (ix2 b k) 0 1)
  rw [hset, Finset.fold_image (fun x _ y _ h => by
    have := congrArg (fun f : S30x40.Idx => f 0) h
    exact this)]
  refine congrArg (fun g => Finset.fold IntOp.addi _ g Finset.univ) (funext fun b => ?_)
  rw [Function.comp, extui_apply, nonempty_apply]

/-- The host's weight-table term, over the shards' counts and the accumulator argument, is the specification's weight. -/
theorem wtable_term :
    Host.divf (F := Ideal) (φ := .f32)
      (Host.divf (broadcastInDim S30x40 ![] bcast_S_S30x40 (constant S_ .f32 0x48800000#32))
        (select
          (cmpf (F := Ideal) (φ := .f32) .ogt
            (Host.reduceAdd (F := Ideal) (φ := .f32) (fun j : S2x30x40.Idx => Cert.Spec.shardCount P T (j 0) (j 1) (j 2)) (constant S_ .f32 0x00000000#32)
              reducesTo_S2x30x40_S30x40_d0 h_S_)
            (broadcastInDim S30x40 ![] bcast_S_S30x40 (constant S_ .f32 0x00000000#32)))
          (addf
            (mulf (broadcastInDim S30x40 ![] bcast_S_S30x40 (constant S_ .f32 0x3F19999A#32))
              (transpose S30x40 [1, 0] A transposes_S40x30_S30x40_1_0))
            (mulf (broadcastInDim S30x40 ![] bcast_S_S30x40 (constant S_ .f32 0x3ECCCCCD#32))
              (Host.reduceAdd (F := Ideal) (φ := .f32) (fun j : S2x30x40.Idx => Cert.Spec.shardCount P T (j 0) (j 1) (j 2)) (constant S_ .f32 0x00000000#32)
                reducesTo_S2x30x40_S30x40_d0 h_S_)))
          (transpose S30x40 [1, 0] A transposes_S40x30_S30x40_1_0)))
      (broadcastInDim S30x40 ![0, 1] bcast_S1x40_S30x40_0_1
        (broadcastInDim S1x40 ![1] bcast_S40_S1x40_1
          (sitofp .f32
            (Host.reduce IntOp.addi
              (extui 32
                (cmpf (F := Ideal) (φ := .f32) .ogt
                  (Host.reduceAdd (F := Ideal) (φ := .f32) (fun j : S2x30x40.Idx => Cert.Spec.shardCount P T (j 0) (j 1) (j 2)) (constant S_ .f32 0x00000000#32)
                    reducesTo_S2x30x40_S30x40_d0 h_S_)
                  (broadcastInDim S30x40 ![] bcast_S_S30x40 (constant S_ .f32 0x00000000#32)))
                natLt_1_32)
              (constantI S_ 32 0#32) reducesTo_S30x40_S40_d0 h_S_))))
      = fun j : S30x40.Idx => Cert.Spec.w P T A (j 0) (j 1) := by
  rw [counts_eq]
  funext j
  obtain ⟨b, k, rfl⟩ : ∃ (b : Fin 30) (k : Fin 40), j = ix2 b k := ⟨j 0, j 1, eq_ix2 j⟩
  have htr : transpose S30x40 [1, 0] A transposes_S40x30_S30x40_1_0 (ix2 b k) = A (ix2 k b) :=
    transpose_apply _ _ _ _ (ix2 k b) (fun a => by match a with | ⟨0, _⟩ => rfl | ⟨1, _⟩ => rfl)
  have hb2 : ∀ (x : S40.Idx → EReal),
      broadcastInDim S30x40 ![0, 1] bcast_S1x40_S30x40_0_1 (broadcastInDim S1x40 ![1] bcast_S40_S1x40_1 x) (ix2 b k) = x (ix1 k) := by
    intro x
    rw [broadcastInDim_apply _ _ _ (ix2 b k) (ix2 (0 : Fin 1) k) (fun a => by match a with | ⟨0, _⟩ => rfl | ⟨1, _⟩ => rfl),
      broadcastInDim_apply _ _ _ (ix2 (0 : Fin 1) k) (ix1 k) (fun a => by match a with | ⟨0, _⟩ => rfl)]
  rw [hostDivf_apply, hostDivf_apply, hb2, sitofp_apply, nbins_apply, broadcastInDim_scalar_apply, select_apply,
    nonempty_apply, addf_apply, mulf_apply, mulf_apply, broadcastInDim_scalar_apply, broadcastInDim_scalar_apply, htr]
  rfl

set_option maxHeartbeats 4000000 in
/-- The weight table the loss region is entered with, given the array the histogram region left and the accumulator
    argument. -/
theorem wtable_eq (m : (ℓ : Loc nD τ sig) → Buf (Elt Ideal) ℓ) (c : Dev nD)
    (hH : (Gen.V1 m (outs1 m) c (Proc.devRef .tc main_v0) : S2x30x40.Idx → EReal)
      = fun j => Cert.Spec.shardCount P T (j 0) (j 1) (j 2))
    (hA : (Gen.V1 m (outs1 m) c (Proc.devRef .tc main_arg2) : S40x30.Idx → EReal) = A) :
    (Gen.V4 m (outs1 m) c (Proc.devRef .tc main_v18) : S30x40.Idx → EReal)
      = fun j => Cert.Spec.w P T A (j 0) (j 1) := by
  show StableHlo.after hostOps1_2 (Gen.V3 m (outs1 m) c) (Proc.devRef .tc main_v18) = _
  after_results
  rw [hH, hA]
  exact wtable_term P T A

end Cert.KernelIdeal.Main

end
-- ==== Proof.KernelValue.lean ====
/-
  THE IDEALIZED KERNEL COMPUTES THE SPECIFICATION. The result buffer's final contents, named by the last valuation of
  the segment list, unfold from the end: the mean stretch divides by the number of elements the sum, onto zero, of the
  loss region's two-element array; each element is that shard's weighted loss against the weight table the region was
  entered with; that table is the specification's weights because the histogram region's array holds the shards' counts;
  and the predictions and targets the loss region sees are the arguments, which no earlier item writes. Summing the two
  shards is summing all rows.
-/
import proofs.«148571_j17987323036120_1_alg».proof.Proof.KernelHost

set_option maxRecDepth 16384

noncomputable section

open scoped BigOperators

namespace Cert.KernelIdeal.Main

open Cert.KernelIdeal Cert.KernelIdeal.Gen
open Idealize.ShloMosaic Idealize.ShloMosaic.TcCoe Idealize.ShloMosaic.Tactic Idealize.ShloMosaic.StableHlo
open Idealize.ShloMosaic.ValueIdx
open Idealize.SL.Sem

variable (m : (ℓ : Loc nD τ sig) → Buf (Elt Ideal) ℓ)

/-- The arguments reach the loss region as launched: no earlier item writes them. -/
theorem VR1_arg0 (c : Dev nD) : VR1 m c main_arg0 = m ((c.tc : Thread nD τ).loc main_arg0) :=
  (Gen.V4_of m (outs1 m) c main_arg0 (by decide)).trans <| (Gen.V3_of m (outs1 m) c main_arg0 (by decide)).trans <|
    (Gen.V2_of m (outs1 m) c main_arg0 (by decide)).trans <| (Gen.V1_of m (outs1 m) c main_arg0 (by decide)).trans rfl
theorem VR1_arg1 (c : Dev nD) : VR1 m c main_arg1 = m ((c.tc : Thread nD τ).loc main_arg1) :=
  (Gen.V4_of m (outs1 m) c main_arg1 (by decide)).trans <| (Gen.V3_of m (outs1 m) c main_arg1 (by decide)).trans <|
    (Gen.V2_of m (outs1 m) c main_arg1 (by decide)).trans <| (Gen.V1_of m (outs1 m) c main_arg1 (by decide)).trans rfl

/-- A sum over the two-element array's indices is the sum over the two shards. -/
theorem sum_shards {M : Type*} [AddCommMonoid M] (f : Fin 2 → M) : ∑ j : S2x1x1.Idx, f (j 0) = ∑ p : Fin 2, f p := by
  let e : S2x1x1.Idx ≃ Fin 2 :=
    { toFun := fun j => j 0
      invFun := fun p => ix3 p 0 0
      left_inv := fun j => by
        funext a
        apply Fin.ext
        match a with
        | ⟨0, _⟩ => rfl
        | ⟨1, _⟩ =>
          have h := (j 1).isLt
          change (j 1).val < 1 at h
          show (0 : ℕ) = (j 1).val
          omega
        | ⟨2, _⟩ =>
          have h := (j 2).isLt
          change (j 2).val < 1 at h
          show (0 : ℕ) = (j 2).val
          omega
      right_inv := fun _ => rfl }
  exact Fintype.sum_equiv e _ _ fun _ => rfl

set_option maxHeartbeats 4000000 in
/-- THE KERNEL'S VALUE, given what the two regions leave in their output arrays. -/
theorem kernel_value (c : Dev nD)
    (hHist : (Hist.dat (F := Ideal) (VR0 m) c).arrAt 2 cfg0.N
      = fun j => Cert.Spec.shardCount (VR0 m c main_arg0) (VR0 m c main_arg1) (j 0) (j 1) (j 2))
    (hLoss : (Loss.dat (F := Ideal) (VR1 m) c).arrAt 3 cfg1.N
      = fun j => Cert.Spec.shardLoss (VR1 m c main_arg0) (VR1 m c main_arg1) (VR1 m c main_v18) (j 0)) :
    (Gen.V6 m (outs m) c (Proc.devRef .tc main_v21) : S_.Idx → EReal)
      = fun _ => Cert.Spec.result (m ((c.tc : Thread nD τ).loc main_arg0)) (m ((c.tc : Thread nD τ).loc main_arg1))
          (m ((c.tc : Thread nD τ).loc main_arg2)) := by
  -- the weight table the loss region is entered with
  have hW : (VR1 m c main_v18 : S30x40.Idx → EReal)
      = fun j => Cert.Spec.w (m ((c.tc : Thread nD τ).loc main_arg0)) (m ((c.tc : Thread nD τ).loc main_arg1))
          (m ((c.tc : Thread nD τ).loc main_arg2)) (j 0) (j 1) := by
    refine wtable_eq _ _ _ m c ?_ ?_
    · have h1 : Gen.V1 m (outs1 m) c (Proc.devRef .tc main_v0) = W1 m c (Proc.devRef .tc main_v0) := by
        simp only [Gen.V1, Function.update_self]; rfl
      rw [h1, W1_arr m c 2, hHist]
    · exact Gen.V1_of m (outs1 m) c main_arg2 (by decide)
  -- the loss region's array
  have hL : (Gen.V5 m (outs m) c (Proc.devRef .tc main_v19) : S2x1x1.Idx → EReal)
      = fun j => Cert.Spec.shardLoss (m ((c.tc : Thread nD τ).loc main_arg0)) (m ((c.tc : Thread nD τ).loc main_arg1))
          (fun j => Cert.Spec.w (m ((c.tc : Thread nD τ).loc main_arg0)) (m ((c.tc : Thread nD τ).loc main_arg1))
            (m ((c.tc : Thread nD τ).loc main_arg2)) (j 0) (j 1)) (j 0) := by
    rw [← hF1 m c 3]
    refine hLoss.trans ?_
    rw [VR1_arg0, VR1_arg1, hW]
    rfl
  show StableHlo.after hostOps2 (Gen.V5 m (outs m) c) (Proc.devRef .tc main_v21) = _
  after_results
  rw [hL]
  funext i
  rw [hostDivf_apply, hostReduceAdd_apply, Ideal.hostReduceAdd_total _ (fun b => b.elim0), sum_shards, Cert.Spec.result_eq_shards]
  rfl

end Cert.KernelIdeal.Main

end
-- ==== Proof.Algebraic.lean ====
/-
  THE VALUE CLAIM, ASSEMBLED. Both idealized programs run to their end with their arguments unchanged; the kernel's
  result buffer ends at the specification's value of the kernel's arguments (the run with the result named, then the
  kernel's value), the reference's at the specification's value of the reference's arguments (its straight-line run, then
  the reference's value); the arguments agree, so the two results are one extended real.
-/
import proofs.«148571_j17987323036120_1_alg».proof.Defs
import proofs.«148571_j17987323036120_1_alg».proof.Proof.KernelValue
import proofs.«148571_j17987323036120_1_alg».proof.Proof.RunP
import proofs.«148571_j17987323036120_1_alg».proof.Proof.Gen.Pre_finite_inputs
import proofs.«148571_j17987323036120_1_alg».proof.Proof.Gen.KernelIdeal
import proofs.«148571_j17987323036120_1_alg».proof.Proof.Gen.ReferenceIdeal

noncomputable section

namespace Cert.Proof.Value

open Idealize.ShloMosaic Idealize.ShloMosaic.TcCoe Idealize.SL.Sem

/-- The value claim from the three legs: what the histogram region leaves, what the loss region leaves, what the reference
    computes. -/
theorem algebraic_of
    (hHist : ∀ (V : (c : Dev Cert.KernelIdeal.nD) → (b : Ref Cert.KernelIdeal.sig .tc) → Buf (Elt Ideal) ((c : Thread Cert.KernelIdeal.nD Cert.KernelIdeal.τ).loc b))
        (c : Dev Cert.KernelIdeal.nD),
      (Cert.KernelIdeal.Hist.dat (F := Ideal) V c).arrAt 2 Cert.KernelIdeal.cfg0.N
        = fun j => Cert.Spec.shardCount (V c Cert.KernelIdeal.main_arg0) (V c Cert.KernelIdeal.main_arg1) (j 0) (j 1) (j 2))
    (hLoss : ∀ (V : (c : Dev Cert.KernelIdeal.nD) → (b : Ref Cert.KernelIdeal.sig .tc) → Buf (Elt Ideal) ((c : Thread Cert.KernelIdeal.nD Cert.KernelIdeal.τ).loc b))
        (c : Dev Cert.KernelIdeal.nD),
      (Cert.KernelIdeal.Loss.dat (F := Ideal) V c).arrAt 3 Cert.KernelIdeal.cfg1.N
        = fun j => Cert.Spec.shardLoss (V c Cert.KernelIdeal.main_arg0) (V c Cert.KernelIdeal.main_arg1) (V c Cert.KernelIdeal.main_v18) (j 0))
    (hRef : ∀ (m' : (ℓ : Loc Cert.ReferenceIdeal.nD Cert.ReferenceIdeal.τ Cert.ReferenceIdeal.sig) → Buf (Elt Ideal) ℓ) (c : Dev Cert.ReferenceIdeal.nD),
      Cert.ReferenceIdeal.ValueP.res_main_v74 (F := Ideal) m' c
        = fun _ => Cert.Spec.result (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))) :
    Cert.algebraic_KernelIdeal_ReferenceIdeal := by
  intro m ρ m' ρ' _ hagree
  refine ⟨fun c => fun _ => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Main.kernel_value m c (hHist _ c) (hLoss _ c)), (h c).2⟩)
      (Cert.KernelIdeal.Main.run_value (F := Ideal) m ρ)
  · refine (θ_run Cert.ReferenceIdeal.defs _ _).mono (fun _ h c => ⟨(h c).1.trans ?_, (h c).2⟩)
      (Cert.ReferenceIdeal.ValueP.run (F := Ideal) m' ρ')
    rw [hRef m' c, (hagree c).1, (hagree c).2.1, (hagree c).2.2]
    rfl

end Cert.Proof.Value

end
-- ==== Proof.LibBinning.lean ====
/-
  BINNING A NONNEGATIVE QUANTITY, AND SELECTING BY A ONE-HOT MASK, over the extended reals and 32-bit words.
  General lemmas: nothing here mentions a program.

  A histogram kernel computes a bin index as `min (int (g · B)) (B − 1)` and then, having no gather, builds per bin `b`
  the mask `float (bin == b)` and uses it either to count (`sum mask`) or to select (`Σ_b mask_b · w_b`); a reference does
  the same with a scatter-add of ones and a gather. The two agree because:

  * `fptosi` at the ideal instance rounds toward zero and CLAMPS into the word's range, so a nonnegative extended real
    (the top element included) converts to a nonnegative word (`fptosi_nonneg`);
  * the signed minimum with a cap `cap ≥ 0` of a nonnegative word lies in `[0, cap]` (`minsi_cap_range`), so the
    "add the extent where negative" wrap that array indexing inserts leaves it alone (`wrap_of_nonneg`) and a later clamp
    into `[0, cap]` does not move it (`clamp_of_range`);
  * the mask word `zext (x == y)` read as a signed integer is 1 or 0 (`mask_toInt`), hence as an ideal float the
    indicator of `x = y` (`mask_ideal`);
  * on the extended reals `0 · t = 0` and `1 · t = t` for EVERY `t` (the infinities included), so a one-hot sum
    `Σ_b [k = b] · t_b` is `t_k` with no finiteness assumption (`sum_onehot_mul`).
-/
import Idealize.ShloMosaic.PureOps.Ideal
import Idealize.ShloMosaic.Lib.Affine

noncomputable section

open scoped BigOperators

namespace Cert.Lib.Binning

open Idealize.ShloMosaic

/-! ## The conversion and the cap -/

/-- Rounding toward zero and clamping into `[lo, hi]` with `lo ≤ 0 ≤ hi` keeps a nonnegative extended real in `[0, hi]`. -/
theorem toIntClamped_range {lo hi : Int} (hlo : lo ≤ 0) (hhi : 0 ≤ hi) {x : EReal} (hx : 0 ≤ x) :
    0 ≤ Ideal.toIntClamped lo hi x ∧ Ideal.toIntClamped lo hi x ≤ hi := by
  induction x using EReal.rec with
  | bot => exact absurd hx (by simp)
  | top => simp only [Ideal.toIntClamped_top]; omega
  | coe r =>
    have hr : 0 ≤ r := EReal.coe_nonneg.mp hx
    have hf : 0 ≤ ⌊r⌋ := Int.floor_nonneg.mpr hr
    simp only [Ideal.toIntClamped_coe, if_pos hr]
    omega

/-- A nonnegative extended real converts to a nonnegative signed 32-bit word. -/
theorem fptosi_nonneg {x : EReal} (hx : 0 ≤ x) : 0 ≤ (Ideal.fptosi 32 x).toInt := by
  obtain ⟨h0, h1⟩ := toIntClamped_range (lo := -((2 ^ (32 - 1) : Nat) : Int)) (hi := ((2 ^ (32 - 1) : Nat) : Int) - 1)
    (by norm_num) (by norm_num) hx
  unfold Ideal.fptosi
  rw [BitVec.toInt_ofInt_eq_self (by norm_num) (by norm_num at h0 h1 ⊢; omega) (by norm_num at h0 h1 ⊢; omega)]
  exact h0

/-- The signed minimum of a nonnegative word with a cap whose signed value is `n ≥ 0` lies in `[0, n]`. -/
theorem minsi_cap_range {y cap : BitVec 32} (hy : 0 ≤ y.toInt) (hcap : 0 ≤ cap.toInt) :
    0 ≤ (IntOp.minsi y cap).toInt ∧ (IntOp.minsi y cap).toInt ≤ cap.toInt := by
  unfold IntOp.minsi
  by_cases h : y.slt cap
  · rw [if_pos h]
    have := BitVec.slt_iff_toInt_lt.mp h
    omega
  · rw [if_neg h]; omega

/-- Array indexing wraps a negative index by adding the extent: a nonnegative word is left alone. -/
theorem wrap_of_nonneg {y ext : BitVec 32} (hy : 0 ≤ y.toInt) :
    (if IntOp.cmpi .slt y 0#32 = 1#1 then y + ext else y) = y := by
  rw [if_neg]
  intro h
  have := IntOp.cmpi_slt.mp h
  simp at this
  omega

/-- A signed value already in `[0, n]` is not moved by reading it as a natural number and clamping at `n`. -/
theorem clamp_of_range {v : Int} {n : Nat} (h0 : 0 ≤ v) (h1 : v ≤ n) : min v.toNat n = v.toNat := by
  omega

/-! ## The mask -/

/-- The mask word: two words compared for equality, the bit widened to 32 bits and read signed, is 1 or 0. -/
theorem mask_toInt {w : Nat} (x y : BitVec w) :
    ((IntOp.cmpi .eq x y).setWidth 32).toInt = if x = y then 1 else 0 := by
  by_cases h : x = y
  · rw [if_pos h, IntOp.cmpi_eq.mpr h]; decide
  · rw [if_neg h]
    have h0 : IntOp.cmpi .eq x y = 0#1 :=
      (BitVec.eq_zero_or_eq_one _).resolve_right fun h1 => h (IntOp.cmpi_eq.mp h1)
    rw [h0]; decide

/-- As a float at the ideal instance the mask is the indicator of equality. -/
theorem mask_ideal {w : Nat} (x y : BitVec w) :
    (FloatOps.sitofp (F := Ideal) .f32 ((IntOp.cmpi .eq x y).setWidth 32) : Ideal .f32)
      = if x = y then (1 : EReal) else 0 := by
  show ((((IntOp.cmpi .eq x y).setWidth 32).toInt : ℝ) : EReal) = _
  rw [mask_toInt]
  by_cases h : x = y
  · simp [h]
  · simp [h]

/-! ## One-hot selection -/

/-- A one-hot sum selects its entry, on every extended real: the other terms are `0 · t = 0`, the chosen one `1 · t = t`. -/
theorem sum_onehot_mul {n : Nat} (k : Fin n) (t : Fin n → EReal) :
    ∑ b : Fin n, (if k = b then (1 : EReal) else 0) * t b = t k := by
  rw [Finset.sum_eq_single k]
  · rw [if_pos rfl, one_mul]
  · intro b _ hb
    rw [if_neg (Ne.symm hb), zero_mul]
  · intro h
    exact absurd (Finset.mem_univ k) h

end Cert.Lib.Binning

end
-- ==== Proof.HistValue.lean ====
/-
  WHAT THE HISTOGRAM REGION LEAVES IN ITS OUTPUT ARRAY (at the ideal instance).

  The region's output array is f32[2, 30, 40]: entry (p, b, c) is meant to be the number of rows of shard `p` whose
  gradient-magnitude bin at class `c` is `b`. The grid has 2 × 32 points; point `t` is tile `t % 32` of shard `t / 32`,
  a tile being 4096 consecutive rows of the two [262144, 40] arguments.

  * One bin's row update (`rowUpd`, `rowUpd_apply`): the body compares the tile's bin words with `b`, makes the answers
    floats (1 on a hit, 0 elsewhere), sums the 4096 rows column by column and adds the result onto row `b` of its
    30 × 40 accumulator. Over the extended reals the new entry is the old one plus a sum of ones and zeros.
  * One tile (`accFirst_apply`, `accMiddle_apply`, `accLast_apply`): at a shard's first tile the accumulator is zeroed
    first, so it ends holding the tile's counts; at a later tile every entry grows by the tile's count. The bin words
    are the specification's `binOf` of the tile's predictions and targets (`pay5_apply`).
  * The points in order (`acc_sum`): after point `n` the accumulator holds the sum of the counts of the tiles
    `32·(n / 32) … n`, i.e. of the tiles of the current shard seen so far. Addition on the extended reals is associative
    and commutative, so the order of the tiles does not matter.
  * The output block (`outLast_apply`, `out_eq_acc`): at a shard's last tile the body copies the accumulator into the
    shard's [1, 30, 40] block, and only there is the block written back; the two blocks tile the array (`arr_eq`).
  * Where a tile's element sits in the arguments (`iblk0_apply`, `iblk1_apply`): element `(r, c)` of the block staged at
    point `t` is element `(4096·t + r, c)` of the array, which is row `r` of tile `t % 32` of shard `t / 32` in the
    specification's numbering (`Spec.rowOf`).
-/
import proofs.«148571_j17987323036120_1_alg».proof.Proof.HistFrame
import proofs.«148571_j17987323036120_1_alg».proof.Proof.Spec
import proofs.«148571_j17987323036120_1_alg».proof.Proof.LibBinning
import Idealize.ShloMosaic.Lib.Pipeline.Value
import Idealize.ShloMosaic.Lib.ValueIdx
import Idealize.ShloMosaic.PureOps.Ideal.Laws

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL.Sem
open Idealize.ShloMosaic.ValueIdx
open Idealize.ShloMosaic.Pipeline (Dat Cfg Window cellOf)
open scoped BigOperators

variable {F : FTy → Type} [FloatOps F]

/-! ## One bin's row update

For every bin `b` the body does the same thing to row `b` of the 30 × 40 accumulator: it compares the tile's bin words
with the word `b`, widens the one-bit answers to words, makes them floats (1.0 on a hit, 0.0 elsewhere), sums the 4096
rows of the tile column by column, and adds the 40 column sums onto the row it has just read. -/

/-- Row `b`'s update, as one term: the old row (a [1, 40] vector) plus the column sums of the mask of the word `bw`. -/
def rowUpd (bw : BitVec 32) (v13 : IVec S4096x40 32) (row : Vec F S1x40 .f32) : FVec F S1x40 .f32 :=
  shapeCast S1x40 (addf (shapeCast S40 row shapeCasts_S1x40_S40)
    (multiReduction .add [0] S40 (sitofp .f32 (extui 32 (cmpi .eq v13 (broadcast S4096x40 bw)) natLt_1_32)) 0x00000000#32
      reduces_S4096x40_S40 (.inl rfl) rfl)) shapeCasts_S40_S1x40

/-- The column index `c` of the reduced vector with row `k` put back is `(k, c)`. -/
theorem lift_row (h : S4096x40.Reduces [0] S40) (c : Fin 40) (k : Fin (S4096x40.size 0)) :
    h.lift (ix1 c) k = ix2 (⟨k.val, k.isLt⟩ : Fin 4096) c := by
  funext a; apply Fin.ext
  fin_cases a <;> rfl

/-- At the ideal instance the updated row at column `c` is the old entry plus the number of the tile's rows whose bin
    word at column `c` is `bw` (a sum of ones and zeros over the 4096 rows). -/
theorem rowUpd_apply (bw : BitVec 32) (v13 : IVec S4096x40 32) (row : Vec Ideal S1x40 .f32) (c : Fin 40) :
    rowUpd (F := Ideal) bw v13 row (ix2 0 c)
      = row (ix2 0 c) + ∑ r : Fin 4096, if v13 (ix2 r c) = bw then (1 : EReal) else 0 := by
  unfold rowUpd
  refine (shapeCast_addUnit_apply ![40] _ shapeCasts_S40_S1x40 (ix2 0 c)).trans ?_
  have hj : (fun a : Fin 1 => (ix2 (0 : Fin 1) c) a.succ) = ix1 c := by
    funext a; fin_cases a; rfl
  rw [hj]
  refine (addf_apply _ _ (ix1 c)).trans ?_
  refine congrArg₂ (· + ·) ?_ ?_
  · refine (shapeCast_dropUnit_apply ![40] row shapeCasts_S1x40_S40 (ix1 c)).trans ?_
    refine congrArg row ?_
    funext a; fin_cases a <;> rfl
  · refine (Ideal.multiReduction_add_single _ _ reduces_S4096x40_S40 (.inl rfl) rfl (ix1 c)).trans ?_
    refine Finset.sum_congr rfl fun r _ => ?_
    rw [lift_row]
    exact Cert.Lib.Binning.mask_ideal (v13 (ix2 (⟨r.val, r.isLt⟩ : Fin 4096) c)) bw

/-! ## A tile's bin words and one bin's count -/

/-- The body's bin words are the specification's: element `(r, c)` of the tile gets `binOf` of its prediction and target. -/
theorem pay5_apply (x0 : Vec Ideal S4096x40 .f32) (x1 : Vec Ideal S4096x40 .i32) (r : Fin 4096) (c : Fin 40) :
    k0_pay5 (F := Ideal) x0 x1 (ix2 r c) = Cert.Spec.binOf (x0 (ix2 r c)) (x1 (ix2 r c)) := rfl

/-- How many of a tile's 4096 rows have bin word `b` at column `c`: a sum of ones and zeros. -/
def cntOf (v13 : IVec S4096x40 32) (b : Fin 30) (c : Fin 40) : EReal :=
  ∑ r : Fin 4096, if v13 (ix2 r c) = BitVec.ofNat 32 b.val then (1 : EReal) else 0

/-- What a tile makes of an accumulator `xacc`: entry `(b, c)` grows by the tile's count of bin `b` at column `c`. -/
def stepG (v13 : IVec S4096x40 32) (xacc : S30x40.Idx → EReal) : S30x40.Idx → EReal :=
  fun y => xacc y + cntOf v13 (⟨(y 0).val, (y 0).isLt⟩ : Fin 30) (⟨(y 1).val, (y 1).isLt⟩ : Fin 40)

theorem stepG_apply (v13 : IVec S4096x40 32) (xacc : S30x40.Idx → EReal) (b : Fin 30) (c : Fin 40) :
    stepG v13 xacc (ix2 b c) = xacc (ix2 b c) + cntOf v13 b c := rfl

/-- Row `b`'s store, whose payload is the row update of the row read from `xacc`, agrees with `stepG` on its rectangle. -/
theorem piece_ok (b : ℕ) (hb : b < 30) (inb : ∀ a, (![b, 0] : Fin 2 → Nat) a + S1x40.size a ≤ S30x40.size a)
    (v13 : IVec S4096x40 32) (xacc : S30x40.Idx → EReal) (x : S1x40.Idx) :
    rowUpd (F := Ideal) (BitVec.ofNat 32 b) v13 (View.ld xacc (Rect.unit (s := S30x40) ![b, 0] ![1, 40] inb)) x
      = stepG v13 xacc ((Rect.unit (s := S30x40) ![b, 0] ![1, 40] inb).emb x) := by
  obtain ⟨c, rfl⟩ : ∃ c : Fin 40, x = ix2 0 c := ⟨x 1, by
    funext a; fin_cases a
    · apply Fin.ext
      have h : (x 0).val < 1 := (x 0).isLt
      show (x 0).val = 0
      omega
    · rfl⟩
  have he : (Rect.unit (s := S30x40) ![b, 0] ![1, 40] inb).emb (ix2 0 c) = ix2 (⟨b, hb⟩ : Fin 30) c := by
    funext a; apply Fin.ext; fin_cases a
    · show b + 1 * 0 = b; omega
    · show 0 + 1 * c.val = c.val; omega
  rw [rowUpd_apply, he, stepG_apply]
  refine congrArg₂ (· + ·) ?_ rfl
  show xacc ((Rect.unit (s := S30x40) ![b, 0] ![1, 40] inb).emb (ix2 0 c)) = _
  rw [he]

/-! ## A later tile -/

theorem hz2 : (![0, 0] : Fin 2 → Nat) = fun _ => 0 := funext fun a => by fin_cases a <;> rfl

/-- Reading the whole accumulator buffer at given contents gives the contents back. -/
theorem read_scratch (xacc : Vec F S30x40 .f32) :
    View.read (Elt F) (View.whole cc0_scratch0) ((Memref.isWhole_whole cc0_scratch0).unread xacc) = xacc :=
  Memref.IsWhole.read_unread (m := scM) (Memref.isWhole_whole cc0_scratch0) xacc

set_option maxHeartbeats 2000000 in
/-- MIDDLE TILE: every entry of the accumulator grows by the tile's count of its bin at its column. -/
theorem accMiddle_apply (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (hf : ¬isFirstTile i) (hl : ¬isLastTile i)
    (x0 : Vec Ideal S4096x40 .f32) (x1 : Vec Ideal S4096x40 .i32) (xacc : Vec Ideal S30x40 .f32) (b : Fin 30) (cc : Fin 40) :
    accMiddle (F := Ideal) c i arg2 harg2 arg3 harg3 arg4 harg4 scM (Memref.isWhole_whole _) hf hl x0 x1 xacc (ix2 b cc)
      = xacc (ix2 b cc) + cntOf (k0_pay5 x0 x1) b cc := by
  have hcov := accMiddle_cover (F := Ideal) c i arg2 harg2 arg3 harg3 arg4 harg4 scM (Memref.isWhole_whole _) hf hl x0 x1 xacc (ix2 b cc)
  unfold accMiddle
  rw [View.read_writes_eq_canon _ _ _ (accMiddle_cover c i arg2 harg2 arg3 harg3 arg4 harg4 scM (Memref.isWhole_whole _) hf hl x0 x1 xacc)]
  revert hcov
  unfold runMiddle
  dsimp only
  sl_unfold_words
  simp only [View.readAt_eq_ld, Memref.IsWhole.read_unread, read_scratch, View.ld_unit_zero (S := S4096x40) hz2]
  intro hcov
  refine (View.canon_apply_of_pieces (stepG (k0_pay5 x0 x1) xacc) _ ?_ (ix2 b cc) hcov).trans (stepG_apply _ _ b cc)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => piece_ok 29 (by omega) inb_S30x40_S1x40_29_0 (k0_pay5 x0 x1) xacc x
  · exact fun x => piece_ok 28 (by omega) inb_S30x40_S1x40_28_0 (k0_pay5 x0 x1) xacc x
  · exact fun x => piece_ok 27 (by omega) inb_S30x40_S1x40_27_0 (k0_pay5 x0 x1) xacc x
  · exact fun x => piece_ok 26 (by omega) inb_S30x40_S1x40_26_0 (k0_pay5 x0 x1) xacc x
  · exact fun x => piece_ok 25 (by omega) inb_S30x40_S1x40_25_0 (k0_pay5 x0 x1) xacc x
  · exact fun x => piece_ok 24 (by omega) inb_S30x40_S1x40_24_0 (k0_pay5 x0 x1) xacc x
  · exact fun x => piece_ok 23 (by omega) inb_S30x40_S1x40_23_0 (k0_pay5 x0 x1) xacc x
  · exact fun x => piece_ok 22 (by omega) inb_S30x40_S1x40_22_0 (k0_pay5 x0 x1) xacc x
  · exact fun x => piece_ok 21 (by omega) inb_S30x40_S1x40_21_0 (k0_pay5 x0 x1) xacc x
  · exact fun x => piece_ok 20 (by omega) inb_S30x40_S1x40_20_0 (k0_pay5 x0 x1) xacc x
  · exact fun x => piece_ok 19 (by omega) inb_S30x40_S1x40_19_0 (k0_pay5 x0 x1) xacc x
  · exact fun x => piece_ok 18 (by omega) inb_S30x40_S1x40_18_0 (k0_pay5 x0 x1) xacc x
  · exact fun x => piece_ok 17 (by omega) inb_S30x40_S1x40_17_0 (k0_pay5 x0 x1) xacc x
  · exact fun x => piece_ok 16 (by omega) inb_S30x40_S1x40_16_0 (k0_pay5 x0 x1) xacc x
  · exact fun x => piece_ok 15 (by omega) inb_S30x40_S1x40_15_0 (k0_pay5 x0 x1) xacc x
  · exact fun x => piece_ok 14 (by omega) inb_S30x40_S1x40_14_0 (k0_pay5 x0 x1) xacc x
  · exact fun x => piece_ok 13 (by omega) inb_S30x40_S1x40_13_0 (k0_pay5 x0 x1) xacc x
  · exact fun x => piece_ok 12 (by omega) inb_S30x40_S1x40_12_0 (k0_pay5 x0 x1) xacc x
  · exact fun x => piece_ok 11 (by omega) inb_S30x40_S1x40_11_0 (k0_pay5 x0 x1) xacc x
  · exact fun x => piece_ok 10 (by omega) inb_S30x40_S1x40_10_0 (k0_pay5 x0 x1) xacc x
  · exact fun x => piece_ok 9 (by omega) inb_S30x40_S1x40_9_0 (k0_pay5 x0 x1) xacc x
  · exact fun x => piece_ok 8 (by omega) inb_S30x40_S1x40_8_0 (k0_pay5 x0 x1) xacc x
  · exact fun x => piece_ok 7 (by omega) inb_S30x40_S1x40_7_0 (k0_pay5 x0 x1) xacc x
  · exact fun x => piece_ok 6 (by omega) inb_S30x40_S1x40_6_0 (k0_pay5 x0 x1) xacc x
  · exact fun x => piece_ok 5 (by omega) inb_S30x40_S1x40_5_0 (k0_pay5 x0 x1) xacc x
  · exact fun x => piece_ok 4 (by omega) inb_S30x40_S1x40_4_0 (k0_pay5 x0 x1) xacc x
  · exact fun x => piece_ok 3 (by omega) inb_S30x40_S1x40_3_0 (k0_pay5 x0 x1) xacc x
  · exact fun x => piece_ok 2 (by omega) inb_S30x40_S1x40_2_0 (k0_pay5 x0 x1) xacc x
  · exact fun x => piece_ok 1 (by omega) inb_S30x40_S1x40_1_0 (k0_pay5 x0 x1) xacc x
  · exact fun x => piece_ok 0 (by omega) inb_S30x40_S1x40_0_0 (k0_pay5 x0 x1) xacc x

/-! ## A shard's first tile

The body first fills the whole accumulator with zeros, then updates the rows one after the other; each row's read goes
through the stores made so far, of which only the zero fill touches the row. -/

/-- After the zero fill and the stores of rows `0 … k − 1`: the stored pieces cover the buffer, rows below `k` hold
    their counts and the other rows zero. -/
def FirstInv (v13 : IVec S4096x40 32) (L : List (View.Piece (Elt Ideal) S30x40 .f32)) (k : ℕ) : Prop :=
  (∀ y : S30x40.Idx, ∃ p ∈ L, y ∈ p.1.set) ∧
  ∀ (b : Fin 30) (c : Fin 40), View.canon L (ix2 b c) = if b.val < k then cntOf v13 b c else 0

/-- The zero fill alone. -/
theorem firstInv_zero (v13 : IVec S4096x40 32) :
    FirstInv v13 [⟨Rect.unit ![0, 0] S30x40.size inb_S30x40_S30x40_0_0, k0_pay4 (F := Ideal)⟩] 0 := by
  refine ⟨fun y => ⟨_, List.mem_singleton_self _, View.mem_set_unit_zero hz2 inb_S30x40_S30x40_0_0 y⟩, fun b c => ?_⟩
  rw [View.canon_unit_zero hz2, if_neg (Nat.not_lt_zero _)]
  unfold k0_pay4
  refine (congrFun (shapeCast_self _ _) _).trans ?_
  exact Ideal.ofBits_zero_f32

/-- One more row: row `k`'s store reads the row through the stores so far (zero there) and adds the tile's count. -/
theorem firstInv_step (v13 : IVec S4096x40 32) (V : View sig .tc .vmem S30x40 .f32)
    (L : List (View.Piece (Elt Ideal) S30x40 .f32)) (k : ℕ) (hk : k < 30)
    (inb : ∀ a, (![k, 0] : Fin 2 → Nat) a + S1x40.size a ≤ S30x40.size a) (w : S1x40.Idx → EReal)
    (hw : w = rowUpd (F := Ideal) (BitVec.ofNat 32 k) v13 (V.readCov L (Rect.unit (s := S30x40) ![k, 0] ![1, 40] inb).toLoadRect))
    (h : FirstInv v13 L k) :
    FirstInv v13 ((⟨Rect.unit (s := S30x40) ![k, 0] ![1, 40] inb, w⟩ : View.Piece (Elt Ideal) S30x40 .f32) :: L) (k + 1) := by
  obtain ⟨hcov, hval⟩ := h
  refine ⟨fun y => ?_, fun b c => ?_⟩
  · obtain ⟨p, hp, hy⟩ := hcov y
    exact ⟨p, List.mem_cons_of_mem _ hp, hy⟩
  · by_cases hb : b.val = k
    · have he : (Rect.unit (s := S30x40) ![k, 0] ![1, 40] inb).emb (ix2 0 c) = ix2 b c := by
        funext a; apply Fin.ext; fin_cases a
        · show k + 1 * 0 = b.val; omega
        · show 0 + 1 * c.val = c.val; omega
      rw [← he, View.canon_cons_emb, hw, rowUpd_apply, View.readCov_eq_canon_ld _ _ _ hcov]
      show View.canon L ((Rect.unit (s := S30x40) ![k, 0] ![1, 40] inb).emb (ix2 0 c)) + _ = _
      rw [he, hval, if_neg (by omega), if_pos (by omega), zero_add]
      unfold cntOf
      rw [hb]
    · have hn : ix2 b c ∉ (Rect.unit (s := S30x40) ![k, 0] ![1, 40] inb).set := by
        rw [Rect.mem_set_unit]
        intro h
        have h0 := h 0
        have e0 : ((ix2 b c : S30x40.Idx) 0).val = b.val := rfl
        have e1 : (![k, 0] : Fin 2 → Nat) 0 = k := rfl
        have e2 : (![1, 40] : Fin 2 → Nat) 0 = 1 := rfl
        rw [e0, e1, e2] at h0
        omega
      refine (View.canon_cons_of_not_mem (⟨Rect.unit (s := S30x40) ![k, 0] ![1, 40] inb, w⟩ : View.Piece (Elt Ideal) S30x40 .f32) L hn).trans ?_
      rw [hval]
      by_cases hlt : b.val < k
      · rw [if_pos hlt, if_pos (by omega)]
      · rw [if_neg hlt, if_neg (by omega)]

set_option maxHeartbeats 4000000 in
/-- FIRST TILE: whatever the accumulator held, it ends holding the tile's counts. -/
theorem accFirst_apply (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (hf : isFirstTile i) (hl : ¬isLastTile i)
    (x0 : Vec Ideal S4096x40 .f32) (x1 : Vec Ideal S4096x40 .i32) (b : Fin 30) (cc : Fin 40) :
    accFirst (F := Ideal) c i arg2 harg2 arg3 harg3 arg4 harg4 scM (Memref.isWhole_whole _) hf hl x0 x1 (ix2 b cc)
      = cntOf (k0_pay5 x0 x1) b cc := by
  unfold accFirst
  rw [View.read_writes_eq_canon _ _ _ (accFirst_cover c i arg2 harg2 arg3 harg3 arg4 harg4 scM (Memref.isWhole_whole _) hf hl x0 x1)]
  unfold runFirst
  dsimp only
  have hr : runFirst.sl.r (F := Ideal) c arg2 harg2 arg3 harg3 x0 x1 = k0_pay5 x0 x1 := by
    unfold runFirst.sl.r
    simp only [View.readAt_eq_ld, Memref.IsWhole.read_unread, View.ld_unit_zero (S := S4096x40) hz2]
  have h0 := firstInv_zero (runFirst.sl.r (F := Ideal) c arg2 harg2 arg3 harg3 x0 x1)
  have h1 : FirstInv (runFirst.sl.r (F := Ideal) c arg2 harg2 arg3 harg3 x0 x1) (runFirst.sl.HS_2 c arg2 harg2 arg3 harg3 scM x0 x1) 1 :=
    firstInv_step _ scM.view _ 0 (by omega) _ _ rfl h0
  have h2 : FirstInv (runFirst.sl.r (F := Ideal) c arg2 harg2 arg3 harg3 x0 x1) (runFirst.sl.HS_3 c arg2 harg2 arg3 harg3 scM x0 x1) 2 :=
    firstInv_step _ scM.view _ 1 (by omega) _ _ rfl h1
  have h3 : FirstInv (runFirst.sl.r (F := Ideal) c arg2 harg2 arg3 harg3 x0 x1) (runFirst.sl.HS_4 c arg2 harg2 arg3 harg3 scM x0 x1) 3 :=
    firstInv_step _ scM.view _ 2 (by omega) _ _ rfl h2
  have h4 : FirstInv (runFirst.sl.r (F := Ideal) c arg2 harg2 arg3 harg3 x0 x1) (runFirst.sl.HS_5 c arg2 harg2 arg3 harg3 scM x0 x1) 4 :=
    firstInv_step _ scM.view _ 3 (by omega) _ _ rfl h3
  have h5 : FirstInv (runFirst.sl.r (F := Ideal) c arg2 harg2 arg3 harg3 x0 x1) (runFirst.sl.HS_6 c arg2 harg2 arg3 harg3 scM x0 x1) 5 :=
    firstInv_step _ scM.view _ 4 (by omega) _ _ rfl h4
  have h6 : FirstInv (runFirst.sl.r (F := Ideal) c arg2 harg2 arg3 harg3 x0 x1) (runFirst.sl.HS_7 c arg2 harg2 arg3 harg3 scM x0 x1) 6 :=
    firstInv_step _ scM.view _ 5 (by omega) _ _ rfl h5
  have h7 : FirstInv (runFirst.sl.r (F := Ideal) c arg2 harg2 arg3 harg3 x0 x1) (runFirst.sl.HS_8 c arg2 harg2 arg3 harg3 scM x0 x1) 7 :=
    firstInv_step _ scM.view _ 6 (by omega) _ _ rfl h6
  have h8 : FirstInv (runFirst.sl.r (F := Ideal) c arg2 harg2 arg3 harg3 x0 x1) (runFirst.sl.HS_9 c arg2 harg2 arg3 harg3 scM x0 x1) 8 :=
    firstInv_step _ scM.view _ 7 (by omega) _ _ rfl h7
  have h9 : FirstInv (runFirst.sl.r (F := Ideal) c arg2 harg2 arg3 harg3 x0 x1) (runFirst.sl.HS_10 c arg2 harg2 arg3 harg3 scM x0 x1) 9 :=
    firstInv_step _ scM.view _ 8 (by omega) _ _ rfl h8
  have h10 : FirstInv (runFirst.sl.r (F := Ideal) c arg2 harg2 arg3 harg3 x0 x1) (runFirst.sl.HS_11 c arg2 harg2 arg3 harg3 scM x0 x1) 10 :=
    firstInv_step _ scM.view _ 9 (by omega) _ _ rfl h9
  have h11 : FirstInv (runFirst.sl.r (F := Ideal) c arg2 harg2 arg3 harg3 x0 x1) (runFirst.sl.HS_12 c arg2 harg2 arg3 harg3 scM x0 x1) 11 :=
    firstInv_step _ scM.view _ 10 (by omega) _ _ rfl h10
  have h12 : FirstInv (runFirst.sl.r (F := Ideal) c arg2 harg2 arg3 harg3 x0 x1) (runFirst.sl.HS_13 c arg2 harg2 arg3 harg3 scM x0 x1) 12 :=
    firstInv_step _ scM.view _ 11 (by omega) _ _ rfl h11
  have h13 : FirstInv (runFirst.sl.r (F := Ideal) c arg2 harg2 arg3 harg3 x0 x1) (runFirst.sl.HS_14 c arg2 harg2 arg3 harg3 scM x0 x1) 13 :=
    firstInv_step _ scM.view _ 12 (by omega) _ _ rfl h12
  have h14 : FirstInv (runFirst.sl.r (F := Ideal) c arg2 harg2 arg3 harg3 x0 x1) (runFirst.sl.HS_15 c arg2 harg2 arg3 harg3 scM x0 x1) 14 :=
    firstInv_step _ scM.view _ 13 (by omega) _ _ rfl h13
  have h15 : FirstInv (runFirst.sl.r (F := Ideal) c arg2 harg2 arg3 harg3 x0 x1) (runFirst.sl.HS_16 c arg2 harg2 arg3 harg3 scM x0 x1) 15 :=
    firstInv_step _ scM.view _ 14 (by omega) _ _ rfl h14
  have h16 : FirstInv (runFirst.sl.r (F := Ideal) c arg2 harg2 arg3 harg3 x0 x1) (runFirst.sl.HS_17 c arg2 harg2 arg3 harg3 scM x0 x1) 16 :=
    firstInv_step _ scM.view _ 15 (by omega) _ _ rfl h15
  have h17 : FirstInv (runFirst.sl.r (F := Ideal) c arg2 harg2 arg3 harg3 x0 x1) (runFirst.sl.HS_18 c arg2 harg2 arg3 harg3 scM x0 x1) 17 :=
    firstInv_step _ scM.view _ 16 (by omega) _ _ rfl h16
  have h18 : FirstInv (runFirst.sl.r (F := Ideal) c arg2 harg2 arg3 harg3 x0 x1) (runFirst.sl.HS_19 c arg2 harg2 arg3 harg3 scM x0 x1) 18 :=
    firstInv_step _ scM.view _ 17 (by omega) _ _ rfl h17
  have h19 : FirstInv (runFirst.sl.r (F := Ideal) c arg2 harg2 arg3 harg3 x0 x1) (runFirst.sl.HS_20 c arg2 harg2 arg3 harg3 scM x0 x1) 19 :=
    firstInv_step _ scM.view _ 18 (by omega) _ _ rfl h18
  have h20 : FirstInv (runFirst.sl.r (F := Ideal) c arg2 harg2 arg3 harg3 x0 x1) (runFirst.sl.HS_21 c arg2 harg2 arg3 harg3 scM x0 x1) 20 :=
    firstInv_step _ scM.view _ 19 (by omega) _ _ rfl h19
  have h21 : FirstInv (runFirst.sl.r (F := Ideal) c arg2 harg2 arg3 harg3 x0 x1) (runFirst.sl.HS_22 c arg2 harg2 arg3 harg3 scM x0 x1) 21 :=
    firstInv_step _ scM.view _ 20 (by omega) _ _ rfl h20
  have h22 : FirstInv (runFirst.sl.r (F := Ideal) c arg2 harg2 arg3 harg3 x0 x1) (runFirst.sl.HS_23 c arg2 harg2 arg3 harg3 scM x0 x1) 22 :=
    firstInv_step _ scM.view _ 21 (by omega) _ _ rfl h21
  have h23 : FirstInv (runFirst.sl.r (F := Ideal) c arg2 harg2 arg3 harg3 x0 x1) (runFirst.sl.HS_24 c arg2 harg2 arg3 harg3 scM x0 x1) 23 :=
    firstInv_step _ scM.view _ 22 (by omega) _ _ rfl h22
  have h24 : FirstInv (runFirst.sl.r (F := Ideal) c arg2 harg2 arg3 harg3 x0 x1) (runFirst.sl.HS_25 c arg2 harg2 arg3 harg3 scM x0 x1) 24 :=
    firstInv_step _ scM.view _ 23 (by omega) _ _ rfl h23
  have h25 : FirstInv (runFirst.sl.r (F := Ideal) c arg2 harg2 arg3 harg3 x0 x1) (runFirst.sl.HS_26 c arg2 harg2 arg3 harg3 scM x0 x1) 25 :=
    firstInv_step _ scM.view _ 24 (by omega) _ _ rfl h24
  have h26 : FirstInv (runFirst.sl.r (F := Ideal) c arg2 harg2 arg3 harg3 x0 x1) (runFirst.sl.HS_27 c arg2 harg2 arg3 harg3 scM x0 x1) 26 :=
    firstInv_step _ scM.view _ 25 (by omega) _ _ rfl h25
  have h27 : FirstInv (runFirst.sl.r (F := Ideal) c arg2 harg2 arg3 harg3 x0 x1) (runFirst.sl.HS_28 c arg2 harg2 arg3 harg3 scM x0 x1) 27 :=
    firstInv_step _ scM.view _ 26 (by omega) _ _ rfl h26
  have h28 : FirstInv (runFirst.sl.r (F := Ideal) c arg2 harg2 arg3 harg3 x0 x1) (runFirst.sl.HS_29 c arg2 harg2 arg3 harg3 scM x0 x1) 28 :=
    firstInv_step _ scM.view _ 27 (by omega) _ _ rfl h27
  have h29 : FirstInv (runFirst.sl.r (F := Ideal) c arg2 harg2 arg3 harg3 x0 x1) (runFirst.sl.HS_30 c arg2 harg2 arg3 harg3 scM x0 x1) 29 :=
    firstInv_step _ scM.view _ 28 (by omega) _ _ rfl h28
  have h30 := firstInv_step (runFirst.sl.r (F := Ideal) c arg2 harg2 arg3 harg3 x0 x1) scM.view _ 29 (by omega) inb_S30x40_S1x40_29_0
    (k0_pay2 (runFirst.sl.r c arg2 harg2 arg3 harg3 x0 x1) (runFirst.sl.v338 c arg2 harg2 arg3 harg3 scM x0 x1)) rfl h29
  exact ((h30.2 b cc).trans (if_pos b.isLt)).trans (by rw [hr])

set_option maxHeartbeats 2000000 in
/-- LAST TILE, the accumulator: as at a middle tile. -/
theorem accLast_apply (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (hf : ¬isFirstTile i) (hl : isLastTile i)
    (x0 : Vec Ideal S4096x40 .f32) (x1 : Vec Ideal S4096x40 .i32) (xacc : Vec Ideal S30x40 .f32) (b : Fin 30) (cc : Fin 40) :
    accLast (F := Ideal) c i arg2 harg2 arg3 harg3 arg4 harg4 scM (Memref.isWhole_whole _) hf hl x0 x1 xacc (ix2 b cc)
      = xacc (ix2 b cc) + cntOf (k0_pay5 x0 x1) b cc := by
  have hcov := accLast_cover (F := Ideal) c i arg2 harg2 arg3 harg3 arg4 harg4 scM (Memref.isWhole_whole _) hf hl x0 x1 xacc (ix2 b cc)
  unfold accLast
  rw [View.read_writes_eq_canon _ _ _ (accLast_cover c i arg2 harg2 arg3 harg3 arg4 harg4 scM (Memref.isWhole_whole _) hf hl x0 x1 xacc)]
  revert hcov
  unfold runLast
  dsimp only
  sl_unfold_words
  simp only [View.readAt_eq_ld, Memref.IsWhole.read_unread, read_scratch, View.ld_unit_zero (S := S4096x40) hz2]
  intro hcov
  refine (View.canon_apply_of_pieces (stepG (k0_pay5 x0 x1) xacc) _ ?_ (ix2 b cc) hcov).trans (stepG_apply _ _ b cc)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => piece_ok 29 (by omega) inb_S30x40_S1x40_29_0 (k0_pay5 x0 x1) xacc x
  · exact fun x => piece_ok 28 (by omega) inb_S30x40_S1x40_28_0 (k0_pay5 x0 x1) xacc x
  · exact fun x => piece_ok 27 (by omega) inb_S30x40_S1x40_27_0 (k0_pay5 x0 x1) xacc x
  · exact fun x => piece_ok 26 (by omega) inb_S30x40_S1x40_26_0 (k0_pay5 x0 x1) xacc x
  · exact fun x => piece_ok 25 (by omega) inb_S30x40_S1x40_25_0 (k0_pay5 x0 x1) xacc x
  · exact fun x => piece_ok 24 (by omega) inb_S30x40_S1x40_24_0 (k0_pay5 x0 x1) xacc x
  · exact fun x => piece_ok 23 (by omega) inb_S30x40_S1x40_23_0 (k0_pay5 x0 x1) xacc x
  · exact fun x => piece_ok 22 (by omega) inb_S30x40_S1x40_22_0 (k0_pay5 x0 x1) xacc x
  · exact fun x => piece_ok 21 (by omega) inb_S30x40_S1x40_21_0 (k0_pay5 x0 x1) xacc x
  · exact fun x => piece_ok 20 (by omega) inb_S30x40_S1x40_20_0 (k0_pay5 x0 x1) xacc x
  · exact fun x => piece_ok 19 (by omega) inb_S30x40_S1x40_19_0 (k0_pay5 x0 x1) xacc x
  · exact fun x => piece_ok 18 (by omega) inb_S30x40_S1x40_18_0 (k0_pay5 x0 x1) xacc x
  · exact fun x => piece_ok 17 (by omega) inb_S30x40_S1x40_17_0 (k0_pay5 x0 x1) xacc x
  · exact fun x => piece_ok 16 (by omega) inb_S30x40_S1x40_16_0 (k0_pay5 x0 x1) xacc x
  · exact fun x => piece_ok 15 (by omega) inb_S30x40_S1x40_15_0 (k0_pay5 x0 x1) xacc x
  · exact fun x => piece_ok 14 (by omega) inb_S30x40_S1x40_14_0 (k0_pay5 x0 x1) xacc x
  · exact fun x => piece_ok 13 (by omega) inb_S30x40_S1x40_13_0 (k0_pay5 x0 x1) xacc x
  · exact fun x => piece_ok 12 (by omega) inb_S30x40_S1x40_12_0 (k0_pay5 x0 x1) xacc x
  · exact fun x => piece_ok 11 (by omega) inb_S30x40_S1x40_11_0 (k0_pay5 x0 x1) xacc x
  · exact fun x => piece_ok 10 (by omega) inb_S30x40_S1x40_10_0 (k0_pay5 x0 x1) xacc x
  · exact fun x => piece_ok 9 (by omega) inb_S30x40_S1x40_9_0 (k0_pay5 x0 x1) xacc x
  · exact fun x => piece_ok 8 (by omega) inb_S30x40_S1x40_8_0 (k0_pay5 x0 x1) xacc x
  · exact fun x => piece_ok 7 (by omega) inb_S30x40_S1x40_7_0 (k0_pay5 x0 x1) xacc x
  · exact fun x => piece_ok 6 (by omega) inb_S30x40_S1x40_6_0 (k0_pay5 x0 x1) xacc x
  · exact fun x => piece_ok 5 (by omega) inb_S30x40_S1x40_5_0 (k0_pay5 x0 x1) xacc x
  · exact fun x => piece_ok 4 (by omega) inb_S30x40_S1x40_4_0 (k0_pay5 x0 x1) xacc x
  · exact fun x => piece_ok 3 (by omega) inb_S30x40_S1x40_3_0 (k0_pay5 x0 x1) xacc x
  · exact fun x => piece_ok 2 (by omega) inb_S30x40_S1x40_2_0 (k0_pay5 x0 x1) xacc x
  · exact fun x => piece_ok 1 (by omega) inb_S30x40_S1x40_1_0 (k0_pay5 x0 x1) xacc x
  · exact fun x => piece_ok 0 (by omega) inb_S30x40_S1x40_0_0 (k0_pay5 x0 x1) xacc x

/-! ## The last tile's output block -/

theorem hz3 : (![0, 0, 0] : Fin 3 → Nat) = fun _ => 0 := funext fun a => by fin_cases a <;> rfl

set_option maxHeartbeats 2000000 in
/-- LAST TILE, the output block: the accumulator as the tile leaves it, under a leading unit axis. -/
theorem outLast_apply (c : Dev nD) (i : grid0.Coords) (arg2 : Memref sig .tc .vmem S4096x40 .f32) (harg2 : arg2.IsWhole) (arg3 : Memref sig .tc .vmem S4096x40 .i32) (harg3 : arg3.IsWhole) (arg4 : Memref sig .tc .vmem S1x30x40 .f32) (harg4 : arg4.IsWhole) (hf : ¬isFirstTile i) (hl : isLastTile i)
    (x0 : Vec Ideal S4096x40 .f32) (x1 : Vec Ideal S4096x40 .i32) (xacc : Vec Ideal S30x40 .f32) (y : S1x30x40.Idx) :
    outLast (F := Ideal) c i arg2 harg2 arg3 harg3 arg4 harg4 scM (Memref.isWhole_whole _) hf hl x0 x1 xacc y
      = accLast (F := Ideal) c i arg2 harg2 arg3 harg3 arg4 harg4 scM (Memref.isWhole_whole _) hf hl x0 x1 xacc (fun a => y a.succ) := by
  have hc := accLast_cover (F := Ideal) c i arg2 harg2 arg3 harg3 arg4 harg4 scM (Memref.isWhole_whole _) hf hl x0 x1 xacc
  unfold outLast accLast
  rw [View.read_writes_eq_canon _ _ _ (outLast_cover c i arg2 harg2 arg3 harg3 arg4 harg4 scM (Memref.isWhole_whole _) hf hl x0 x1 xacc),
    View.read_writes_eq_canon _ _ _ hc]
  revert hc
  unfold runLast
  dsimp only
  intro hc
  rw [View.canon_unit_zero hz3]
  unfold k0_pay3
  refine (shapeCast_addUnit_apply ![30, 40] _ shapeCasts_S30x40_S1x30x40 y).trans ?_
  unfold runLast.sl.v347
  rw [View.readCov_eq_canon_ld _ _ _ hc, View.ld_unit_zero (S := S30x40) hz2]

/-! ## The points in order -/

section Points

variable (V : (c : Dev nD) → (b : Ref sig .tc) → Buf (Elt Ideal) ((c : Thread nD τ).loc b))

/-- The count of bin `b` at column `cc` over the tile staged at point `m` (zero past the grid's 64 points). -/
def tcnt (c : Dev nD) (m : ℕ) (b : Fin 30) (cc : Fin 40) : EReal :=
  if h : m < cfg0.N then cntOf (k0_pay5 (F := Ideal) (iblk V c 0 ⟨m, h⟩) (iblk V c 1 ⟨m, h⟩)) b cc else 0

theorem tcnt_eq (c : Dev nD) (t : Fin cfg0.N) (b : Fin 30) (cc : Fin 40) :
    tcnt V c t.val b cc = cntOf (k0_pay5 (F := Ideal) (iblk V c 0 t) (iblk V c 1 t)) b cc := by
  unfold tcnt; rw [dif_pos t.isLt]

/-- At a shard's first tile the accumulator ends holding that tile's counts. -/
theorem acc_first (c : Dev nD) (t : Fin cfg0.N) (h0 : t.val % 32 = 0) (b : Fin 30) (cc : Fin 40) :
    (outsAt V c t.val t.isLt).2 (ix2 b cc) = tcnt V c t.val b cc := by
  have hf : isFirstTile (grid0.coords t) := (isFirstTile_iff t).mpr h0
  have hl : ¬isLastTile (grid0.coords t) := fun h => by have := (isLastTile_iff t).mp h; omega
  rw [outsAt_first V c t h0, tcnt_eq]
  exact accFirst_apply c (grid0.coords t) (ms0 t) (hs0 t) (ms1 t) (hs1 t) (ms2 t) (hs2 t) hf hl (iblk V c 0 t) (iblk V c 1 t) b cc

/-- At a later tile it holds what the point before left plus that tile's counts. -/
theorem acc_later (c : Dev nD) (t : Fin cfg0.N) (h0 : ¬t.val % 32 = 0) (b : Fin 30) (cc : Fin 40) :
    (outsAt V c t.val t.isLt).2 (ix2 b cc)
      = (outsAt V c (t.val - 1) (Nat.lt_of_le_of_lt (Nat.sub_le _ _) t.isLt)).2 (ix2 b cc) + tcnt V c t.val b cc := by
  have hf : ¬isFirstTile (grid0.coords t) := fun h => h0 ((isFirstTile_iff t).mp h)
  rw [tcnt_eq]
  by_cases h2 : t.val % 32 = 31
  · have hl : isLastTile (grid0.coords t) := (isLastTile_iff t).mpr h2
    rw [outsAt_last V c t h0 h2]
    exact accLast_apply c (grid0.coords t) (ms0 t) (hs0 t) (ms1 t) (hs1 t) (ms2 t) (hs2 t) hf hl (iblk V c 0 t) (iblk V c 1 t)
      (outsAt V c (t.val - 1) (Nat.lt_of_le_of_lt (Nat.sub_le _ _) t.isLt)).2 b cc
  · have hl : ¬isLastTile (grid0.coords t) := fun h => h2 ((isLastTile_iff t).mp h)
    rw [outsAt_middle V c t h0 h2]
    exact accMiddle_apply c (grid0.coords t) (ms0 t) (hs0 t) (ms1 t) (hs1 t) (ms2 t) (hs2 t) hf hl (iblk V c 0 t) (iblk V c 1 t)
      (outsAt V c (t.val - 1) (Nat.lt_of_le_of_lt (Nat.sub_le _ _) t.isLt)).2 b cc

/-- After point `n` the accumulator holds the counts of the current shard's tiles up to `n`, added up. -/
theorem acc_sum (c : Dev nD) : ∀ (n : ℕ) (hn : n < cfg0.N) (b : Fin 30) (cc : Fin 40),
    (outsAt V c n hn).2 (ix2 b cc) = ∑ j ∈ Finset.range (n % 32 + 1), tcnt V c (n / 32 * 32 + j) b cc := by
  intro n
  induction n with
  | zero =>
    intro hn b cc
    refine (acc_first V c ⟨0, hn⟩ (Nat.zero_mod 32) b cc).trans ?_
    simp
  | succ n ih =>
    intro hn b cc
    by_cases h0 : (n + 1) % 32 = 0
    · refine (acc_first V c ⟨n + 1, hn⟩ h0 b cc).trans ?_
      show tcnt V c (n + 1) b cc = _
      have e4 : (n + 1) / 32 * 32 + 0 = n + 1 := by omega
      rw [h0, zero_add, Finset.sum_range_one, e4]
    · refine (acc_later V c ⟨n + 1, hn⟩ h0 b cc).trans ?_
      show (outsAt V c n _).2 (ix2 b cc) + tcnt V c (n + 1) b cc = _
      rw [ih (Nat.lt_of_succ_lt hn) b cc]
      have e1 : (n + 1) % 32 + 1 = (n % 32 + 1) + 1 := by omega
      have e2 : (n + 1) / 32 = n / 32 := by omega
      have e3 : n / 32 * 32 + (n % 32 + 1) = n + 1 := by omega
      rw [e1, e2, Finset.sum_range_succ (fun j => tcnt V c (n / 32 * 32 + j) b cc) (n % 32 + 1), e3]

/-- At a shard's last tile the output block is the accumulator under a leading unit axis. -/
theorem out_eq_acc (c : Dev nD) (t : Fin cfg0.N) (h2 : t.val % 32 = 31) (y : S1x30x40.Idx) :
    (outsAt V c t.val t.isLt).1 y = (outsAt V c t.val t.isLt).2 (fun a => y a.succ) := by
  have h0 : ¬t.val % 32 = 0 := by omega
  have hf : ¬isFirstTile (grid0.coords t) := fun h => h0 ((isFirstTile_iff t).mp h)
  have hl : isLastTile (grid0.coords t) := (isLastTile_iff t).mpr h2
  rw [outsAt_last V c t h0 h2]
  exact outLast_apply c (grid0.coords t) (ms0 t) (hs0 t) (ms1 t) (hs1 t) (ms2 t) (hs2 t) hf hl (iblk V c 0 t) (iblk V c 1 t)
    (outsAt V c (t.val - 1) (Nat.lt_of_le_of_lt (Nat.sub_le _ _) t.isLt)).2 y

end Points

/-! ## Where a tile sits in the arguments, and the output array -/

section Array

variable (V : (c : Dev nD) → (b : Ref sig .tc) → Buf (Elt Ideal) ((c : Thread nD τ).loc b))

/-- The index maps over the 64 points: input blocks are numbered by the point, the output block by the shard. -/
theorem hidx0 : ∀ t : Fin cfg0.N, win0_0.index t 0 = t.val ∧ win0_0.index t 1 = 0 :=
  (by decide +kernel : ∀ t : Fin grid0.N, win0_0.index t 0 = t.val ∧ win0_0.index t 1 = 0)
theorem hidx1 : ∀ t : Fin cfg0.N, win0_1.index t 0 = t.val ∧ win0_1.index t 1 = 0 :=
  (by decide +kernel : ∀ t : Fin grid0.N, win0_1.index t 0 = t.val ∧ win0_1.index t 1 = 0)
theorem hidx2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- Element `(r, cc)` of the prediction block staged at point `t` is element `(4096·t + r, cc)` of the array. -/
theorem iblk0_apply (c : Dev nD) (t : Fin cfg0.N) (r : Fin 4096) (cc : Fin 40) (hr : t.val * 4096 + r.val < 262144) :
    (iblk V c 0 t : Vec Ideal S4096x40 .f32) (ix2 r cc) = V c main_arg0 (ix2 (⟨t.val * 4096 + r.val, hr⟩ : Fin 262144) cc) := by
  unfold iblk
  rw [View.read_apply]
  show V c main_arg0 _ = V c main_arg0 _
  congr 1
  funext a; apply Fin.ext
  match a with
  | ⟨0, _⟩ => show win0_0.index t 0 * 4096 + 1 * r.val = t.val * 4096 + r.val; rw [(hidx0 t).1]; omega
  | ⟨1, _⟩ => show win0_0.index t 1 * 40 + 1 * cc.val = cc.val; rw [(hidx0 t).2]; omega

/-- The same for the target block. -/
theorem iblk1_apply (c : Dev nD) (t : Fin cfg0.N) (r : Fin 4096) (cc : Fin 40) (hr : t.val * 4096 + r.val < 262144) :
    (iblk V c 1 t : Vec Ideal S4096x40 .i32) (ix2 r cc) = V c main_arg1 (ix2 (⟨t.val * 4096 + r.val, hr⟩ : Fin 262144) cc) := by
  unfold iblk
  rw [View.read_apply]
  show V c main_arg1 _ = V c main_arg1 _
  congr 1
  funext a; apply Fin.ext
  match a with
  | ⟨0, _⟩ => show win0_1.index t 0 * 4096 + 1 * r.val = t.val * 4096 + r.val; rw [(hidx1 t).1]; omega
  | ⟨1, _⟩ => show win0_1.index t 1 * 40 + 1 * cc.val = cc.val; rw [(hidx1 t).2]; omega

/-- The count over the tile staged at point `32·p + i` is the specification's count over tile `i` of shard `p`. -/
theorem tcnt_spec (c : Dev nD) (p : Fin 2) (i : Fin 32) (b : Fin 30) (cc : Fin 40) :
    tcnt V c (p.val * 32 + i.val) b cc
      = ∑ r : Fin 4096, if Cert.Spec.bin (V c main_arg0) (V c main_arg1) (Cert.Spec.rowOf p i r) cc = BitVec.ofNat 32 b.val
          then (1 : EReal) else 0 := by
  have hN : cfg0.N = 64 := N_0
  have h : p.val * 32 + i.val < cfg0.N := by rw [hN]; omega
  unfold tcnt
  rw [dif_pos h]
  unfold cntOf
  refine Finset.sum_congr rfl fun r _ => ?_
  have hr : (⟨p.val * 32 + i.val, h⟩ : Fin cfg0.N).val * 4096 + r.val < 262144 := by show (p.val * 32 + i.val) * 4096 + r.val < 262144; omega
  rw [pay5_apply, iblk0_apply V c ⟨p.val * 32 + i.val, h⟩ r cc hr, iblk1_apply V c ⟨p.val * 32 + i.val, h⟩ r cc hr]
  rfl

/-- So a shard's count is the sum over its 32 tiles of the tiles' counts. -/
theorem shard_eq (c : Dev nD) (p : Fin 2) (b : Fin 30) (cc : Fin 40) :
    Cert.Spec.shardCount (V c main_arg0) (V c main_arg1) p b cc = ∑ j ∈ Finset.range 32, tcnt V c (p.val * 32 + j) b cc := by
  unfold Cert.Spec.shardCount
  rw [Finset.sum_range]
  exact Finset.sum_congr rfl fun i _ => (tcnt_spec V c p i b cc).symm

/-- The output array's intended contents. -/
abbrev counts (c : Dev nD) : Buf (Elt Ideal) ((c : Thread nD τ).loc main_v0) :=
  fun j => Cert.Spec.shardCount (V c main_arg0) (V c main_arg1) (j 0) (j 1) (j 2)

/-- What a last tile writes back is the shard's block of the intended contents. -/
theorem flushed_eq (c : Dev nD) (t : Fin cfg0.N) (hf : (cfg0.win 2).flush t = true) :
    (dat (F := Ideal) V c).flushed 2 t = ((cfg0.win 2).blk t).view.read (Elt Ideal) (counts V c) := by
  have h2 : t.val % 32 = 31 := (flush0_2 t).mp hf
  have hN : cfg0.N = 64 := N_0
  have ht : t.val < 64 := hN ▸ t.isLt
  show (cfg0.win 2).cut (grid0.coords t) ((dat V c).after 2 t) = _
  rw [after2]
  funext y
  rw [View.read_apply]
  show (outsAt V c t.val t.isLt).1 ((cfg0.win 2).xinj (grid0.coords t) y) = counts V c (((cfg0.win 2).blk t).view.emb y)
  have hy0 : (y 0).val < 1 := Nat.lt_of_lt_of_le (y 0).isLt ((cfg0.win 2).xsize_le (grid0.coords t) 0)
  have hy1 : (y 1).val < 30 := Nat.lt_of_lt_of_le (y 1).isLt ((cfg0.win 2).xsize_le (grid0.coords t) 1)
  have hy2 : (y 2).val < 40 := Nat.lt_of_lt_of_le (y 2).isLt ((cfg0.win 2).xsize_le (grid0.coords t) 2)
  have hp : t.val / 32 < 2 := by omega
  have e : (fun a : Fin 2 => (cfg0.win 2).xinj (grid0.coords t) y a.succ) = ix2 (⟨(y 1).val, hy1⟩ : Fin 30) (⟨(y 2).val, hy2⟩ : Fin 40) := by
    funext a; fin_cases a <;> rfl
  rw [out_eq_acc V c t h2]
  refine (congrArg (outsAt V c t.val t.isLt).2 e).trans ?_
  rw [acc_sum V c t.val t.isLt, h2]
  refine (shard_eq V c ⟨t.val / 32, hp⟩ ⟨(y 1).val, hy1⟩ ⟨(y 2).val, hy2⟩).symm.trans ?_
  have E0 : (((cfg0.win 2).blk t).view.emb y) 0 = (⟨t.val / 32, hp⟩ : Fin 2) := Fin.ext (by
    show win0_2.index t 0 * 1 + 1 * (y 0).val = t.val / 32
    rw [(hidx2 t).1]; omega)
  have E1 : (((cfg0.win 2).blk t).view.emb y) 1 = (⟨(y 1).val, hy1⟩ : Fin 30) := Fin.ext (by
    show win0_2.index t 1 * 30 + 1 * (y 1).val = (y 1).val
    rw [(hidx2 t).2.1]; omega)
  have E2 : (((cfg0.win 2).blk t).view.emb y) 2 = (⟨(y 2).val, hy2⟩ : Fin 40) := Fin.ext (by
    show win0_2.index t 2 * 40 + 1 * (y 2).val = (y 2).val
    rw [(hidx2 t).2.2]; omega)
  show _ = Cert.Spec.shardCount (V c main_arg0) (V c main_arg1) ((((cfg0.win 2).blk t).view.emb y) 0)
    ((((cfg0.win 2).blk t).view.emb y) 1) ((((cfg0.win 2).blk t).view.emb y) 2)
  rw [E0, E1, E2]

/-- The output blocks are whole: the [1, 30, 40] block of a shard lies inside the [2, 30, 40] array. -/
theorem hxs2 : ∀ t : Fin cfg0.N, win0_2.xsize (grid0.coords t) 0 = 1 ∧ win0_2.xsize (grid0.coords t) 1 = 30 ∧ win0_2.xsize (grid0.coords t) 2 = 40 :=
  (by decide +kernel : ∀ t : Fin grid0.N, win0_2.xsize (grid0.coords t) 0 = 1 ∧ win0_2.xsize (grid0.coords t) 1 = 30 ∧ win0_2.xsize (grid0.coords t) 2 = 40)

/-- THE OUTPUT ARRAY after the region: entry `(p, b, c)` is shard `p`'s count of bin `b` at class `c`. The two last tiles
    (points 31 and 63) write back the two shards' blocks, which together cover the array. -/
theorem arr_eq (c : Dev nD) :
    (dat (F := Ideal) V c).arrAt 2 cfg0.N
      = fun j => Cert.Spec.shardCount (V c main_arg0) (V c main_arg1) (j 0) (j 1) (j 2) :=
  (dat (F := Ideal) V c).arrAt_eq_of_cover 2 (counts V c) (flushed_eq V c) fun i => by
    have hN : cfg0.N = 64 := N_0
    have hi0 : (i 0 : Nat) < 2 := (i 0).isLt
    have hi1 : (i 1 : Nat) < 30 := (i 1).isLt
    have hi2 : (i 2 : Nat) < 40 := (i 2).isLt
    have hlt : (i 0 : Nat) * 32 + 31 < cfg0.N := by rw [hN]; omega
    refine ⟨⟨(i 0 : Nat) * 32 + 31, hlt⟩, (flush0_2 _).mpr (by show ((i 0 : Nat) * 32 + 31) % 32 = 31; omega), ?_⟩
    show i ∈ ((View.whole main_v0).slice (win0_2.rect ⟨(i 0 : Nat) * 32 + 31, hlt⟩)).set
    rw [View.set_slice_whole, Rect.mem_set_unit]
    intro a
    have hx := hxs2 ⟨(i 0 : Nat) * 32 + 31, hlt⟩
    have hd := hidx2 ⟨(i 0 : Nat) * 32 + 31, hlt⟩
    match a with
    | ⟨0, _⟩ =>
      show win0_2.index ⟨(i 0 : Nat) * 32 + 31, hlt⟩ 0 * win0_2.size 0 ≤ (i 0 : Nat) ∧ (i 0 : Nat) < win0_2.index ⟨(i 0 : Nat) * 32 + 31, hlt⟩ 0 * win0_2.size 0 + win0_2.xsize (grid0.coords ⟨(i 0 : Nat) * 32 + 31, hlt⟩) 0
      rw [hd.1, hx.1]
      show ((i 0 : Nat) * 32 + 31) / 32 * 1 ≤ (i 0 : Nat) ∧ (i 0 : Nat) < ((i 0 : Nat) * 32 + 31) / 32 * 1 + 1
      omega
    | ⟨1, _⟩ =>
      show win0_2.index ⟨(i 0 : Nat) * 32 + 31, hlt⟩ 1 * win0_2.size 1 ≤ (i 1 : Nat) ∧ (i 1 : Nat) < win0_2.index ⟨(i 0 : Nat) * 32 + 31, hlt⟩ 1 * win0_2.size 1 + win0_2.xsize (grid0.coords ⟨(i 0 : Nat) * 32 + 31, hlt⟩) 1
      rw [hd.2.1, hx.2.1]
      omega
    | ⟨2, _⟩ =>
      show win0_2.index ⟨(i 0 : Nat) * 32 + 31, hlt⟩ 2 * win0_2.size 2 ≤ (i 2 : Nat) ∧ (i 2 : Nat) < win0_2.index ⟨(i 0 : Nat) * 32 + 31, hlt⟩ 2 * win0_2.size 2 + win0_2.xsize (grid0.coords ⟨(i 0 : Nat) * 32 + 31, hlt⟩) 2
      rw [hd.2.2, hx.2.2]
      omega

end Array

end Cert.KernelIdeal.Hist
end
-- ==== Proof.LossValue.lean ====
/-
  WHAT THE LOSS REGION LEAVES IN ITS OUTPUT ARRAY. Each of the 2 shards visits its 32 row tiles in order; the 1 × 1
  accumulator holds, after tile i of shard p, the sum over the tiles 0 … i of the shard, over their 4096 rows and the 40
  classes, of the binary cross-entropy of the element times the weight of the element's bin for its class. At a shard's
  last tile the accumulator is copied into the shard's 1 × 1 × 1 output block, which is written back only there, so the
  [2, 1, 1] result array holds the two shards' weighted losses.

  The weight of an element is selected without a gather: for each of the 30 bins b the mask [bin = b] (as a float 0 or 1)
  multiplies row b of the 30 × 40 weight table, and the 30 products are added onto zero from bin 0 upward. The bin word
  is in [0, 29] (the gradient magnitude is nonnegative, so its conversion is, and the cap is 29), so exactly one mask is 1:
  on the extended reals 0 · t = 0 and 1 · t = t for every t, and the sum is the table's entry at the element's bin.
-/
import proofs.«148571_j17987323036120_1_alg».proof.Proof.LossFrame
import proofs.«148571_j17987323036120_1_alg».proof.Proof.Spec
import proofs.«148571_j17987323036120_1_alg».proof.Proof.LibBinning
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Loss

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable {F : FTy → Type} [FloatOps F]

/-! ## The three cases' accumulators as explicit terms -/

theorem hz2 : (![0, 0] : Fin 2 → Nat) = fun _ => 0 := funext fun a => by fin_cases a <;> rfl
theorem hz3 : (![0, 0, 0] : Fin 3 → Nat) = fun _ => 0 := funext fun a => by fin_cases a <;> rfl

/-- The selected weights of a tile: onto the zero splat, for the bins 0 … 29 in turn, the bin's mask times the bin's row
    of the weight table (the row loaded through its 1 × 40 rectangle and spread over the 4096 rows). -/
def wsel (x0 : Vec F S4096x40 .f32) (x1 : Vec F S4096x40 .i32) (x2 : Vec F S30x40 .f32) : FVec F S4096x40 .f32 :=
  (k1_pay18 (k1_pay5 x0 x1) (k1_pay16 (k1_pay5 x0 x1) (k1_pay15 (k1_pay5 x0 x1) (k1_pay13 (k1_pay5 x0 x1) (k1_pay10 (k1_pay5 x0 x1) (k1_pay8 (k1_pay5 x0 x1) (k1_pay6 x0 x1 (View.ld x2 (Rect.unit ![0, 0] ![1, 40] inb_S30x40_S1x40_0_0)) (View.ld x2 (Rect.unit ![1, 0] ![1, 40] inb_S30x40_S1x40_1_0))) (k1_pay7 x0 x1) (View.ld x2 (Rect.unit ![2, 0] ![1, 40] inb_S30x40_S1x40_2_0)) (View.ld x2 (Rect.unit ![3, 0] ![1, 40] inb_S30x40_S1x40_3_0)) (View.ld x2 (Rect.unit ![4, 0] ![1, 40] inb_S30x40_S1x40_4_0)) (View.ld x2 (Rect.unit ![5, 0] ![1, 40] inb_S30x40_S1x40_5_0)) (View.ld x2 (Rect.unit ![6, 0] ![1, 40] inb_S30x40_S1x40_6_0))) k1_pay9 (View.ld x2 (Rect.unit ![7, 0] ![1, 40] inb_S30x40_S1x40_7_0)) (View.ld x2 (Rect.unit ![8, 0] ![1, 40] inb_S30x40_S1x40_8_0)) (View.ld x2 (Rect.unit ![9, 0] ![1, 40] inb_S30x40_S1x40_9_0)) (View.ld x2 (Rect.unit ![10, 0] ![1, 40] inb_S30x40_S1x40_10_0))) (k1_pay11 (k1_pay5 x0 x1)) (k1_pay12 (View.ld x2 (Rect.unit ![11, 0] ![1, 40] inb_S30x40_S1x40_11_0))) (View.ld x2 (Rect.unit ![12, 0] ![1, 40] inb_S30x40_S1x40_12_0)) (View.ld x2 (Rect.unit ![13, 0] ![1, 40] inb_S30x40_S1x40_13_0)) (View.ld x2 (Rect.unit ![14, 0] ![1, 40] inb_S30x40_S1x40_14_0)) (View.ld x2 (Rect.unit ![15, 0] ![1, 40] inb_S30x40_S1x40_15_0))) (k1_pay14 (k1_pay5 x0 x1)) (View.ld x2 (Rect.unit ![16, 0] ![1, 40] inb_S30x40_S1x40_16_0)) (View.ld x2 (Rect.unit ![17, 0] ![1, 40] inb_S30x40_S1x40_17_0)) (View.ld x2 (Rect.unit ![18, 0] ![1, 40] inb_S30x40_S1x40_18_0)) (View.ld x2 (Rect.unit ![19, 0] ![1, 40] inb_S30x40_S1x40_19_0)) (View.ld x2 (Rect.unit ![20, 0] ![1, 40] inb_S30x40_S1x40_20_0))) (View.ld x2 (Rect.unit ![21, 0] ![1, 40] inb_S30x40_S1x40_21_0)) (View.ld x2 (Rect.unit ![22, 0] ![1, 40] inb_S30x40_S1x40_22_0)) (View.ld x2 (Rect.unit ![23, 0] ![1, 40] inb_S30x40_S1x40_23_0)) (View.ld x2 (Rect.unit ![24, 0] ![1, 40] inb_S30x40_S1x40_24_0))) (k1_pay17 (k1_pay5 x0 x1)) (View.ld x2 (Rect.unit ![25, 0] ![1, 40] inb_S30x40_S1x40_25_0)) (View.ld x2 (Rect.unit ![26, 0] ![1, 40] inb_S30x40_S1x40_26_0)) (View.ld x2 (Rect.unit ![27, 0] ![1, 40] inb_S30x40_S1x40_27_0)) (View.ld x2 (Rect.unit ![28, 0] ![1, 40] inb_S30x40_S1x40_28_0)) (View.ld x2 (Rect.unit ![29, 0] ![1, 40] inb_S30x40_S1x40_29_0)))

/-- The accumulator after a tile: what it held plus the tile's sum of cross-entropy times selected weight. -/
def tileAcc (x0 : Vec F S4096x40 .f32) (x1 : Vec F S4096x40 .i32) (x2 : Vec F S30x40 .f32) (xacc : Vec F S1x1 .f32) : FVec F S1x1 .f32 :=
  k1_pay1 x0 (k1_pay4 x1) (wsel x0 x1 x2) (k1_pay19 x0) xacc

set_option maxHeartbeats 1000000 in
/-- A middle tile adds its sum onto what the accumulator held. -/
theorem accMiddle_eq (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : ¬isLastTile i)
    (x0 : Vec F S4096x40 .f32) (x1 : Vec F S4096x40 .i32) (x2 : Vec F S30x40 .f32) (xacc : Vec F S1x1 .f32) :
    accMiddle c i arg2 harg2 arg3 harg3 arg4 harg4 arg5 harg5 arg6 harg6 hf hl x0 x1 x2 xacc = tileAcc x0 x1 x2 xacc := by
  unfold accMiddle
  rw [View.read_writes_eq_canon _ _ _ (accMiddle_cover c i arg2 harg2 arg3 harg3 arg4 harg4 arg5 harg5 arg6 harg6 hf hl x0 x1 x2 xacc)]
  unfold runMiddle
  dsimp only
  sl_unfold_words
  rw [View.canon_unit_zero hz2]
  simp only [View.readAt_eq_ld, harg2.read_unread, harg3.read_unread, harg4.read_unread, harg6.read_unread, View.ld_unit_zero (S := S4096x40) hz2, View.ld_unit_zero (S := S1x1) hz2]
  rfl

set_option maxHeartbeats 1000000 in
/-- A shard's first tile starts from the zero fill: the accumulator is cleared, read back, and the tile's sum added. -/
theorem accFirst_eq (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : isFirstTile i) (hl : ¬isLastTile i)
    (x0 : Vec F S4096x40 .f32) (x1 : Vec F S4096x40 .i32) (x2 : Vec F S30x40 .f32) :
    accFirst c i arg2 harg2 arg3 harg3 arg4 harg4 arg5 harg5 arg6 harg6 hf hl x0 x1 x2 = tileAcc x0 x1 x2 k1_pay3 := by
  unfold accFirst
  rw [View.read_writes_eq_canon _ _ _ (accFirst_cover c i arg2 harg2 arg3 harg3 arg4 harg4 arg5 harg5 arg6 harg6 hf hl x0 x1 x2)]
  unfold runFirst
  dsimp only
  sl_unfold_words
  rw [View.canon_cons_unit_zero (S := S1x1) hz2, View.readCov_unit_zero (S := S1x1) _ hz2]
  simp only [View.readAt_eq_ld, harg2.read_unread, harg3.read_unread, harg4.read_unread, View.ld_unit_zero (S := S4096x40) hz2]
  rfl

set_option maxHeartbeats 1000000 in
/-- A shard's last tile adds its sum like a middle one … -/
theorem accLast_eq (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : isLastTile i)
    (x0 : Vec F S4096x40 .f32) (x1 : Vec F S4096x40 .i32) (x2 : Vec F S30x40 .f32) (xacc : Vec F S1x1 .f32) :
    accLast c i arg2 harg2 arg3 harg3 arg4 harg4 arg5 harg5 arg6 harg6 hf hl x0 x1 x2 xacc = tileAcc x0 x1 x2 xacc := by
  unfold accLast
  rw [View.read_writes_eq_canon _ _ _ (accLast_cover c i arg2 harg2 arg3 harg3 arg4 harg4 arg5 harg5 arg6 harg6 hf hl x0 x1 x2 xacc)]
  unfold runLast
  dsimp only
  sl_unfold_words
  rw [View.canon_unit_zero hz2]
  simp only [View.readAt_eq_ld, harg2.read_unread, harg3.read_unread, harg4.read_unread, harg6.read_unread, View.ld_unit_zero (S := S4096x40) hz2, View.ld_unit_zero (S := S1x1) hz2]
  rfl

set_option maxHeartbeats 1000000 in
/-- … and leaves in the shard's output block the accumulator it has just stored, reshaped to 1 × 1 × 1. -/
theorem outLast_eq (c : Dev nD) (i : grid1.Coords) (arg2 : Memref sig .tc .vmem S4096x40 .f32) (harg2 : arg2.IsWhole) (arg3 : Memref sig .tc .vmem S4096x40 .i32) (harg3 : arg3.IsWhole) (arg4 : Memref sig .tc .vmem S30x40 .f32) (harg4 : arg4.IsWhole) (arg5 : Memref sig .tc .vmem S1x1x1 .f32) (harg5 : arg5.IsWhole) (arg6 : Memref sig .tc .vmem S1x1 .f32) (harg6 : arg6.IsWhole) (hf : ¬isFirstTile i) (hl : isLastTile i)
    (x0 : Vec F S4096x40 .f32) (x1 : Vec F S4096x40 .i32) (x2 : Vec F S30x40 .f32) (xacc : Vec F S1x1 .f32) :
    outLast c i arg2 harg2 arg3 harg3 arg4 harg4 arg5 harg5 arg6 harg6 hf hl x0 x1 x2 xacc = k1_pay2 (tileAcc x0 x1 x2 xacc) := by
  unfold outLast
  rw [View.read_writes_eq_canon _ _ _ (outLast_cover c i arg2 harg2 arg3 harg3 arg4 harg4 arg5 harg5 arg6 harg6 hf hl x0 x1 x2 xacc)]
  unfold runLast
  dsimp only
  sl_unfold_words
  rw [View.canon_unit_zero (S := S1x1x1) hz3, View.readCov_unit_zero (S := S1x1) _ hz2]
  simp only [View.readAt_eq_ld, harg2.read_unread, harg3.read_unread, harg4.read_unread, harg6.read_unread, View.ld_unit_zero (S := S4096x40) hz2, View.ld_unit_zero (S := S1x1) hz2]
  rfl

/-! ## One tile at the ideal instance -/

section Tile

/-- The bin word the body computes for an element is the specification's. -/
theorem pay5_apply (x0 : Vec Ideal S4096x40 .f32) (x1 : Vec Ideal S4096x40 .i32) (r : Fin 4096) (c : Fin 40) :
    k1_pay5 x0 x1 (ix2 r c) = Cert.Spec.binOf (x0 (ix2 r c)) (x1 (ix2 r c)) := rfl

/-- Row n of the weight table, loaded through its 1 × 40 rectangle, read at class c. -/
theorem ld_row (x2 : Vec Ideal S30x40 .f32) (n : Nat) (inb : ∀ a, (![n, 0] : Fin 2 → Nat) a + (![1, 40] : Fin 2 → Nat) a ≤ S30x40.size a) (c : Fin 40) :
    View.ld x2 (Rect.unit ![n, 0] ![1, 40] inb) (ix2 0 c) = x2 (ix2 ⟨n, inb 0⟩ c) := by
  refine congrArg x2 (funext fun a => Fin.ext ?_)
  match a with
  | ⟨0, _⟩ => show n + 1 * 0 = n; omega
  | ⟨1, _⟩ => show 0 + 1 * c.val = c.val; omega

/-- A 1 × 40 row flattened, restored, and spread over the 4096 rows reads its class entry at every row. -/
theorem bcastRow_apply (v : Vec Ideal S1x40 .f32) (r : Fin 4096) (c : Fin 40) :
    broadcastTo S4096x40 (shapeCast S1x40 (shapeCast S40 v shapeCasts_S1x40_S40) shapeCasts_S40_S1x40) broadcasts_S1x40_S4096x40 (ix2 r c)
      = v (ix2 0 c) := by
  rw [shapeCast_shapeCast]
  refine broadcastTo_apply v broadcasts_S1x40_S4096x40 (ix2 r c) (ix2 0 c) fun a => ?_
  match a with
  | ⟨0, _⟩ => rfl
  | ⟨1, _⟩ => rfl

/-- One bin's term: the mask of "the bin word is B" as a float, times the bin's row spread over the rows. -/
theorem maskRow_apply (v13 : IVec S4096x40 32) (B : BitVec 32) (v : Vec Ideal S1x40 .f32) (r : Fin 4096) (c : Fin 40) :
    mulf (sitofp (F := Ideal) .f32 (extui 32 (cmpi .eq v13 (broadcast S4096x40 B)) natLt_1_32))
        (broadcastTo S4096x40 (shapeCast S1x40 (shapeCast S40 v shapeCasts_S1x40_S40) shapeCasts_S40_S1x40) broadcasts_S1x40_S4096x40) (ix2 r c)
      = (if v13 (ix2 r c) = B then (1 : EReal) else 0) * v (ix2 0 c) := by
  show (FloatOps.sitofp (F := Ideal) .f32 ((IntOp.cmpi .eq (v13 (ix2 r c)) B).setWidth 32) : Ideal .f32) * _ = _
  rw [Cert.Lib.Binning.mask_ideal, bcastRow_apply]

/-- The same with the row loaded from the weight table: the table's entry at the bin's row and the element's class. -/
theorem maskRowLd_apply (v13 : IVec S4096x40 32) (B : BitVec 32) (x2 : Vec Ideal S30x40 .f32) (n : Nat)
    (inb : ∀ a, (![n, 0] : Fin 2 → Nat) a + (![1, 40] : Fin 2 → Nat) a ≤ S30x40.size a) (r : Fin 4096) (c : Fin 40) :
    mulf (sitofp (F := Ideal) .f32 (extui 32 (cmpi .eq v13 (broadcast S4096x40 B)) natLt_1_32))
        (broadcastTo S4096x40 (shapeCast S1x40 (shapeCast S40 (View.ld x2 (Rect.unit ![n, 0] ![1, 40] inb)) shapeCasts_S1x40_S40) shapeCasts_S40_S1x40) broadcasts_S1x40_S4096x40) (ix2 r c)
      = (if v13 (ix2 r c) = B then (1 : EReal) else 0) * x2 (ix2 ⟨n, inb 0⟩ c) :=
  (maskRow_apply v13 B _ r c).trans (congrArg _ (ld_row x2 n inb c))

/-- The left-nested sum from z of f 0, …, f (n-1) … -/
def lsum (z : EReal) : (n : Nat) → (Fin n → EReal) → EReal
  | 0, _ => z
  | n + 1, f => lsum z n (fun i => f i.castSucc) + f (Fin.last n)

/-- … is z plus the sum. -/
theorem lsum_eq (z : EReal) : ∀ (n : Nat) (f : Fin n → EReal), lsum z n f = z + ∑ i, f i
  | 0, f => by simp [lsum]
  | n + 1, f => by rw [lsum, lsum_eq z n, Fin.sum_univ_castSucc, add_assoc]

end Tile

section Tile2

/-- The word of 30.0 read at the ideal instance is 30. -/
theorem k30_eq : Cert.Spec.k30 = ((30 : ℝ) : EReal) := by
  unfold Cert.Spec.k30
  simp [Ideal.ofBits, Ideal.ieee, -EReal.coe_mul]; norm_num

/-- The gradient magnitude is nonnegative: it is a maximum of a number and its negation. -/
theorem gOf_nonneg (p : EReal) (y : BitVec 32) : 0 ≤ Cert.Spec.gOf p y := by
  unfold Cert.Spec.gOf
  rcases le_total 0 (Ideal.logistic p - Cert.Spec.tOf y) with h | h
  · exact le_max_of_le_left h
  · exact le_max_of_le_right (EReal.neg_nonneg.mpr h)

/-- So the bin word is in [0, 29]. -/
theorem binOf_range (p : EReal) (y : BitVec 32) :
    0 ≤ (Cert.Spec.binOf p y).toInt ∧ (Cert.Spec.binOf p y).toInt ≤ 29 := by
  unfold Cert.Spec.binOf
  have hx : 0 ≤ Cert.Spec.gOf p y * Cert.Spec.k30 := by
    rw [k30_eq]; exact mul_nonneg (gOf_nonneg p y) (by exact_mod_cast (by norm_num : (0 : ℝ) ≤ 30))
  exact Cert.Lib.Binning.minsi_cap_range (Cert.Lib.Binning.fptosi_nonneg hx) (by decide)

/-- The element's bin as an index into the 30 bins. -/
def bIdx (p : EReal) (y : BitVec 32) : Fin 30 := ⟨min (Cert.Spec.binOf p y).toInt.toNat 29, by omega⟩

/-- A word in [0, 29] equals the word of `b < 30` exactly when its clamped value is `b`. -/
theorem word_eq_iff (k : BitVec 32) (h0 : 0 ≤ k.toInt) (h1 : k.toInt ≤ 29) (b : Fin 30) :
    k = BitVec.ofNat 32 b.val ↔ (⟨min k.toInt.toNat 29, by omega⟩ : Fin 30) = b := by
  have hb := b.isLt
  have key : (BitVec.ofNat 32 b.val).toInt = (b.val : Int) := by
    rw [BitVec.toInt_eq_toNat_cond, BitVec.toNat_ofNat, Nat.mod_eq_of_lt (by omega)]
    split <;> omega
  constructor
  · intro h
    apply Fin.ext
    show min k.toInt.toNat 29 = b.val
    have : k.toInt = (b.val : Int) := by rw [h, key]
    omega
  · intro h
    have hv : min k.toInt.toNat 29 = b.val := congrArg Fin.val h
    apply BitVec.eq_of_toInt_eq
    rw [key]; omega

/-- One-hot selection of the table's entry by the bin word. -/
theorem select_row (p : EReal) (y : BitVec 32) (t : Fin 30 → EReal) :
    ∑ b : Fin 30, (if Cert.Spec.binOf p y = BitVec.ofNat 32 b.val then (1 : EReal) else 0) * t b = t (bIdx p y) := by
  obtain ⟨h0, h1⟩ := binOf_range p y
  rw [← Cert.Lib.Binning.sum_onehot_mul (bIdx p y) t]
  refine Finset.sum_congr rfl fun b _ => ?_
  have := word_eq_iff (Cert.Spec.binOf p y) h0 h1 b
  change _ ↔ bIdx p y = b at this
  by_cases hb : Cert.Spec.binOf p y = BitVec.ofNat 32 b.val
  · rw [if_pos hb, if_pos (this.mp hb)]
  · rw [if_neg hb, if_neg (fun h => hb (this.mpr h))]

set_option maxHeartbeats 2000000 in
/-- The selected weight of an element is the table's entry at the element's bin and class. -/
theorem wsel_apply (x0 : Vec Ideal S4096x40 .f32) (x1 : Vec Ideal S4096x40 .i32) (x2 : Vec Ideal S30x40 .f32) (r : Fin 4096) (c : Fin 40) :
    wsel x0 x1 x2 (ix2 r c) = x2 (ix2 (bIdx (x0 (ix2 r c)) (x1 (ix2 r c))) c) := by
  have e : wsel x0 x1 x2 (ix2 r c)
      = lsum (Ideal.ofBits .f32 0x00000000#32) 30 (fun b => (if Cert.Spec.binOf (x0 (ix2 r c)) (x1 (ix2 r c)) = BitVec.ofNat 32 b.val then (1 : EReal) else 0) * x2 (ix2 b c)) := by
    unfold wsel k1_pay18 k1_pay17 k1_pay16 k1_pay15 k1_pay14 k1_pay13 k1_pay12 k1_pay11 k1_pay10 k1_pay9 k1_pay8 k1_pay7 k1_pay6
    dsimp only
    simp only [addf_apply, maskRowLd_apply, pay5_apply, broadcast_apply]
    rfl
  rw [e, lsum_eq, Ideal.ofBits_zero_f32, zero_add]
  exact select_row _ _ (fun b => x2 (ix2 b c))

/-- The cross-entropy of an element as the body computes it is the specification's (the body writes 0 − |p| for −|p|). -/
theorem bce_apply (x0 : Vec Ideal S4096x40 .f32) (x1 : Vec Ideal S4096x40 .i32) (r : Fin 4096) (c : Fin 40) :
    addf (subf (k1_pay19 x0) (mulf x0 (k1_pay4 x1)))
        (log1p (exp (subf (broadcast S4096x40 (Scalar.ofBits .f32 0x00000000#32)) (absf x0)))) (ix2 r c)
      = Cert.Spec.bceOf (x0 (ix2 r c)) (x1 (ix2 r c)) := by
  show (max (x0 (ix2 r c)) (Ideal.ofBits .f32 0x00000000#32) - x0 (ix2 r c) * Cert.Spec.tOf (x1 (ix2 r c)))
      + Ideal.log1p (Ideal.exp (Ideal.ofBits .f32 0x00000000#32 - max (x0 (ix2 r c)) (-(x0 (ix2 r c))))) = _
  unfold Cert.Spec.bceOf Cert.Spec.kZero
  rw [Ideal.ofBits_zero_f32, zero_sub]

end Tile2

section Tile3

/-- A tile's sum: over its 4096 rows and the 40 classes, the element's cross-entropy times the table's entry at the
    element's bin and class. -/
def tileSum (x0 : Vec Ideal S4096x40 .f32) (x1 : Vec Ideal S4096x40 .i32) (x2 : Vec Ideal S30x40 .f32) : EReal :=
  ∑ r : Fin 4096, ∑ c : Fin 40,
    Cert.Spec.bceOf (x0 (ix2 r c)) (x1 (ix2 r c)) * x2 (ix2 (bIdx (x0 (ix2 r c)) (x1 (ix2 r c))) c)

set_option maxHeartbeats 2000000 in
/-- The accumulator after a tile, at its one index: what it held plus the tile's sum (the lanes of a row are added
    first, then the 4096 row sums). -/
theorem tileAcc_apply (x0 : Vec Ideal S4096x40 .f32) (x1 : Vec Ideal S4096x40 .i32) (x2 : Vec Ideal S30x40 .f32) (xacc : Vec Ideal S1x1 .f32) :
    tileAcc x0 x1 x2 xacc (ix2 0 0) = xacc (ix2 0 0) + tileSum x0 x1 x2 := by
  unfold tileAcc k1_pay1
  dsimp only
  rw [shapeCast_self]
  show xacc (ix2 0 0) + shapeCast S1x1 _ shapeCasts_S1_S1x1 (ix2 0 0) = _
  refine congrArg (xacc (ix2 0 0) + ·) ?_
  refine (shapeCast_apply _ shapeCasts_S1_S1x1 (ix2 0 0) (ix1 0) ?_).trans ?_
  · rw [Shape.rowMajor_val_one, Shape.rowMajor_val_two]; rfl
  refine (Ideal.multiReduction_add_single _ _ reduces_S4096x1_S1 _ _ (ix1 0)).trans ?_
  show (∑ r : Fin 4096, _) = _
  unfold tileSum
  refine Finset.sum_congr rfl fun r _ => ?_
  refine (shapeCast_apply _ shapeCasts_S4096_S4096x1 _ (ix1 r) ?_).trans ?_
  · rw [Shape.rowMajor_val_one, Shape.rowMajor_val_two]; show r.val = r.val * 1 + 0; omega
  refine (Ideal.multiReduction_add_single _ _ reduces_S4096x40_S4096 _ _ (ix1 r)).trans ?_
  show (∑ c : Fin 40, _) = _
  refine Finset.sum_congr rfl fun c _ => ?_
  have hi : reduces_S4096x40_S4096.lift (ix1 r) c = ix2 r c := by
    funext a
    match a with
    | ⟨0, _⟩ => rfl
    | ⟨1, _⟩ => rfl
  rw [hi]
  refine (mulf_apply _ _ _).trans ?_
  rw [bce_apply, wsel_apply]

end Tile3

/-! ## The points of the grid -/

section Points

variable (V : (c : Dev nD) → (b : Ref sig .tc) → Buf (Elt Ideal) ((c : Thread nD τ).loc b))

/-- Where the windows' blocks sit: the two row-tiled inputs at block row `t`, the weight table at its one block, the
    output at block `t / 32` (decided over the 64 points). -/
theorem hidx0 : ∀ t : Fin cfg1.N, win1_0.index t 0 = t.val ∧ win1_0.index t 1 = 0 :=
  (by decide +kernel : ∀ t : Fin grid1.N, win1_0.index t 0 = t.val ∧ win1_0.index t 1 = 0)
theorem hidx1 : ∀ t : Fin cfg1.N, win1_1.index t 0 = t.val ∧ win1_1.index t 1 = 0 :=
  (by decide +kernel : ∀ t : Fin grid1.N, win1_1.index t 0 = t.val ∧ win1_1.index t 1 = 0)
theorem hidx2 : ∀ t : Fin cfg1.N, win1_2.index t 0 = 0 ∧ win1_2.index t 1 = 0 :=
  (by decide +kernel : ∀ t : Fin grid1.N, win1_2.index t 0 = 0 ∧ win1_2.index t 1 = 0)
theorem hidx3 : ∀ t : Fin cfg1.N, win1_3.index t 0 = t.val / 32 ∧ win1_3.index t 1 = 0 ∧ win1_3.index t 2 = 0 :=
  (by decide +kernel : ∀ t : Fin grid1.N, win1_3.index t 0 = t.val / 32 ∧ win1_3.index t 1 = 0 ∧ win1_3.index t 2 = 0)

/-- The predictions' block at point `t` is rows `4096 t … 4096 t + 4095` of the array. -/
theorem iblk0_apply (c : Dev nD) (t : Fin cfg1.N) (r : Fin 4096) (cc : Fin 40) (k : Cert.Spec.SBC.Idx)
    (hk0 : (k 0).val = t.val * 4096 + r.val) (hk1 : (k 1).val = cc.val) :
    (iblk V c 0 t : Vec Ideal S4096x40 .f32) (ix2 r cc) = (V c main_arg0 : Cert.Spec.SBC.Idx → EReal) k := by
  have hi := hidx0 t
  unfold iblk
  rw [View.read_apply]
  show V c main_arg0 _ = V c main_arg0 _
  congr 1
  funext a
  apply Fin.ext
  match a with
  | ⟨0, _⟩ => show win1_0.index t 0 * 4096 + 1 * r.val = (k 0).val; rw [hi.1, hk0]; omega
  | ⟨1, _⟩ => show win1_0.index t 1 * 40 + 1 * cc.val = (k 1).val; rw [hi.2, hk1]; omega

/-- The targets' block likewise. -/
theorem iblk1_apply (c : Dev nD) (t : Fin cfg1.N) (r : Fin 4096) (cc : Fin 40) (k : Cert.Spec.SBC.Idx)
    (hk0 : (k 0).val = t.val * 4096 + r.val) (hk1 : (k 1).val = cc.val) :
    (iblk V c 1 t : Vec Ideal S4096x40 .i32) (ix2 r cc) = (V c main_arg1 : Cert.Spec.SBC.Idx → BitVec 32) k := by
  have hi := hidx1 t
  unfold iblk
  rw [View.read_apply]
  show V c main_arg1 _ = V c main_arg1 _
  congr 1
  funext a
  apply Fin.ext
  match a with
  | ⟨0, _⟩ => show win1_1.index t 0 * 4096 + 1 * r.val = (k 0).val; rw [hi.1, hk0]; omega
  | ⟨1, _⟩ => show win1_1.index t 1 * 40 + 1 * cc.val = (k 1).val; rw [hi.2, hk1]; omega

/-- The weight table's block is the whole table at every point. -/
theorem iblk2_apply (c : Dev nD) (t : Fin cfg1.N) (b : Fin 30) (cc : Fin 40) :
    (iblk V c 2 t : Vec Ideal S30x40 .f32) (ix2 b cc) = (V c main_v18 : (⟨2, ![30, 40]⟩ : Shape).Idx → EReal) (ix2 b cc) := by
  have hi := hidx2 t
  unfold iblk
  rw [View.read_apply]
  show V c main_v18 _ = V c main_v18 _
  congr 1
  funext a
  apply Fin.ext
  match a with
  | ⟨0, _⟩ => show win1_2.index t 0 * 30 + 1 * b.val = b.val; rw [hi.1]; omega
  | ⟨1, _⟩ => show win1_2.index t 1 * 40 + 1 * cc.val = cc.val; rw [hi.2]; omega

/-- The sum of the tile at point `t`. -/
def tsum (c : Dev nD) (t : Fin cfg1.N) : EReal := tileSum (iblk V c 0 t) (iblk V c 1 t) (iblk V c 2 t)

/-- The zero fill at its one index. -/
theorem pay3_apply : (k1_pay3 (F := Ideal)) (ix2 0 0) = 0 := by
  unfold k1_pay3
  rw [shapeCast_self]
  exact Ideal.ofBits_zero_f32

/-- A shard's first tile leaves the tile's sum. -/
theorem acc_step_first (c : Dev nD) (t : Fin cfg1.N) (h0 : t.val % 32 = 0) :
    (outsAt V c t.val t.isLt).2 (ix2 0 0) = tsum V c t := by
  rw [outsAt_first V c t h0]
  refine (congrFun (accFirst_eq (F := Ideal) c (grid1.coords t) (ms0 t) (hs0 t) (ms1 t) (hs1 t) (ms2 t) (hs2 t) (ms3 t) (hs3 t) scM (Memref.isWhole_whole _) ((isFirstTile_iff t).mpr h0)
    (fun h => (fun h => by omega) ((isLastTile_iff t).mp h)) (iblk V c 0 t) (iblk V c 1 t) (iblk V c 2 t)) (ix2 0 0)).trans ?_
  rw [tileAcc_apply, pay3_apply, zero_add]; rfl

/-- A middle tile adds its sum. -/
theorem acc_step_middle (c : Dev nD) (t : Fin cfg1.N) (h0 : ¬t.val % 32 = 0) (h2 : ¬t.val % 32 = 31) :
    (outsAt V c t.val t.isLt).2 (ix2 0 0)
      = (outsAt V c (t.val - 1) (Nat.lt_of_le_of_lt (Nat.sub_le _ _) t.isLt)).2 (ix2 0 0) + tsum V c t := by
  rw [outsAt_middle V c t h0 h2]
  refine (congrFun (accMiddle_eq (F := Ideal) c (grid1.coords t) (ms0 t) (hs0 t) (ms1 t) (hs1 t) (ms2 t) (hs2 t) (ms3 t) (hs3 t) scM (Memref.isWhole_whole _) (fun h => h0 ((isFirstTile_iff t).mp h))
    (fun h => h2 ((isLastTile_iff t).mp h)) (iblk V c 0 t) (iblk V c 1 t) (iblk V c 2 t)
    (outsAt V c (t.val - 1) (Nat.lt_of_le_of_lt (Nat.sub_le _ _) t.isLt)).2) (ix2 0 0)).trans ?_
  rw [tileAcc_apply]; rfl

/-- A shard's last tile adds its sum … -/
theorem acc_step_last (c : Dev nD) (t : Fin cfg1.N) (h0 : ¬t.val % 32 = 0) (h2 : t.val % 32 = 31) :
    (outsAt V c t.val t.isLt).2 (ix2 0 0)
      = (outsAt V c (t.val - 1) (Nat.lt_of_le_of_lt (Nat.sub_le _ _) t.isLt)).2 (ix2 0 0) + tsum V c t := by
  rw [outsAt_last V c t h0 h2]
  refine (congrFun (accLast_eq (F := Ideal) c (grid1.coords t) (ms0 t) (hs0 t) (ms1 t) (hs1 t) (ms2 t) (hs2 t) (ms3 t) (hs3 t) scM (Memref.isWhole_whole _) (fun h => h0 ((isFirstTile_iff t).mp h))
    ((isLastTile_iff t).mpr h2) (iblk V c 0 t) (iblk V c 1 t) (iblk V c 2 t)
    (outsAt V c (t.val - 1) (Nat.lt_of_le_of_lt (Nat.sub_le _ _) t.isLt)).2) (ix2 0 0)).trans ?_
  rw [tileAcc_apply]; rfl

/-- … and its output block holds, at its one index, what the accumulator then holds. -/
theorem out_step_last (c : Dev nD) (t : Fin cfg1.N) (h0 : ¬t.val % 32 = 0) (h2 : t.val % 32 = 31) :
    (outsAt V c t.val t.isLt).1 (ix3 0 0 0) = (outsAt V c t.val t.isLt).2 (ix2 0 0) := by
  rw [outsAt_last V c t h0 h2]
  dsimp only
  rw [outLast_eq, accLast_eq]
  unfold k1_pay2
  refine shapeCast_apply _ shapeCasts_S1x1_S1x1x1 (ix3 0 0 0) (ix2 0 0) ?_
  rw [Shape.rowMajor_val_two, Shape.rowMajor_val_three]; rfl

end Points

section Points2

variable (V : (c : Dev nD) → (b : Ref sig .tc) → Buf (Elt Ideal) ((c : Thread nD τ).loc b))

/-- The tile sum at point number `m` (zero past the grid). -/
def Tn (c : Dev nD) (m : Nat) : EReal := if h : m < cfg1.N then tsum V c ⟨m, h⟩ else 0

theorem Tn_of_lt (c : Dev nD) (m : Nat) (h : m < cfg1.N) : Tn V c m = tsum V c ⟨m, h⟩ := dif_pos h

/-- After point `n` the accumulator holds the sum of the tiles of `n`'s shard from its first tile to `n`: by induction
    on the point, a shard's first tile starting afresh and every other one adding onto the point before. -/
theorem acc_inv (c : Dev nD) : ∀ (n : Nat) (h : n < cfg1.N),
    (outsAt V c n h).2 (ix2 0 0) = ∑ j ∈ Finset.range (n % 32 + 1), Tn V c (n - n % 32 + j)
  | 0, h => by
    refine (acc_step_first V c ⟨0, h⟩ rfl).trans ?_
    show _ = ∑ j ∈ Finset.range 1, Tn V c (0 + j)
    rw [Finset.sum_range_one]
    exact (Tn_of_lt V c 0 h).symm
  | n + 1, h => by
    by_cases h0 : (n + 1) % 32 = 0
    · refine (acc_step_first V c ⟨n + 1, h⟩ h0).trans ?_
      rw [h0, Finset.sum_range_succ, Finset.sum_range_zero, zero_add]
      exact (Tn_of_lt V c (n + 1) h).symm
    · have ih := acc_inv c n (Nat.lt_of_succ_lt h)
      have hm : (n + 1) % 32 = n % 32 + 1 := by omega
      have hb : n + 1 - (n + 1) % 32 = n - n % 32 := by omega
      have step : (outsAt V c (n + 1) h).2 (ix2 0 0)
          = (outsAt V c n (Nat.lt_of_succ_lt h)).2 (ix2 0 0) + tsum V c ⟨n + 1, h⟩ := by
        by_cases h2 : (n + 1) % 32 = 31
        · exact acc_step_last V c ⟨n + 1, h⟩ h0 h2
        · exact acc_step_middle V c ⟨n + 1, h⟩ h0 h2
      rw [step, ih, hb, hm, Finset.sum_range_succ _ (n % 32 + 1)]
      congr 1
      rw [show n - n % 32 + (n % 32 + 1) = n + 1 from by omega]
      exact (Tn_of_lt V c (n + 1) h).symm

/-- A tile's sum over the arrays: tile `i` of shard `p` is point `32 p + i`, its rows the rows `rowOf p i r`. -/
theorem tsum_eq (c : Dev nD) (p : Fin 2) (i : Fin 32) (h : 32 * p.val + i.val < cfg1.N) :
    tsum V c ⟨32 * p.val + i.val, h⟩
      = ∑ r : Fin 4096, ∑ cc : Fin 40,
          Cert.Spec.bceOf (V c main_arg0 (ix2 (Cert.Spec.rowOf p i r) cc)) (V c main_arg1 (ix2 (Cert.Spec.rowOf p i r) cc))
            * V c main_v18 (ix2 (Cert.Spec.binIdx (V c main_arg0) (V c main_arg1) (Cert.Spec.rowOf p i r) cc) cc) := by
  unfold tsum tileSum
  refine Finset.sum_congr rfl fun r _ => Finset.sum_congr rfl fun cc _ => ?_
  have hk : ((ix2 (Cert.Spec.rowOf p i r) cc : Cert.Spec.SBC.Idx) 0).val = (⟨32 * p.val + i.val, h⟩ : Fin cfg1.N).val * 4096 + r.val := by
    show (p.val * 32 + i.val) * 4096 + r.val = (32 * p.val + i.val) * 4096 + r.val
    omega
  rw [iblk0_apply V c ⟨32 * p.val + i.val, h⟩ r cc (ix2 (Cert.Spec.rowOf p i r) cc) hk rfl,
    iblk1_apply V c ⟨32 * p.val + i.val, h⟩ r cc (ix2 (Cert.Spec.rowOf p i r) cc) hk rfl, iblk2_apply]
  rfl

/-- After a shard's last tile the accumulator holds the shard's weighted loss. -/
theorem acc_shard (c : Dev nD) (p : Fin 2) (h : 32 * p.val + 31 < cfg1.N) :
    (outsAt V c (32 * p.val + 31) h).2 (ix2 0 0)
      = Cert.Spec.shardLoss (V c main_arg0) (V c main_arg1) (V c main_v18) p := by
  have hN : cfg1.N = 64 := N_1
  rw [acc_inv V c (32 * p.val + 31) h, show (32 * p.val + 31) % 32 + 1 = 32 from by omega,
    show 32 * p.val + 31 - (32 * p.val + 31) % 32 = 32 * p.val from by omega, Finset.sum_range]
  unfold Cert.Spec.shardLoss
  refine Finset.sum_congr rfl fun i _ => ?_
  have hi : 32 * p.val + i.val < cfg1.N := by have := i.isLt; omega
  rw [Tn_of_lt V c _ hi, tsum_eq V c p i hi]

end Points2

/-! ## The output array -/

section Array

variable (V : (c : Dev nD) → (b : Ref sig .tc) → Buf (Elt Ideal) ((c : Thread nD τ).loc b))

/-- The output window's blocks are whole 1 × 1 × 1 blocks at every point (decided over the 64 points). -/
theorem hxs3 : ∀ t : Fin cfg1.N, win1_3.xsize (grid1.coords t) 0 = 1 ∧ win1_3.xsize (grid1.coords t) 1 = 1 ∧ win1_3.xsize (grid1.coords t) 2 = 1 :=
  (by decide +kernel : ∀ t : Fin grid1.N, win1_3.xsize (grid1.coords t) 0 = 1 ∧ win1_3.xsize (grid1.coords t) 1 = 1 ∧ win1_3.xsize (grid1.coords t) 2 = 1)

/-- What the specification puts in the [2, 1, 1] array: each shard's weighted loss. -/
def lossArr (c : Dev nD) : Buf (Elt Ideal) ((c : Thread nD τ).loc main_v19) :=
  fun j : S2x1x1.Idx => Cert.Spec.shardLoss (V c main_arg0) (V c main_arg1) (V c main_v18) (j 0)

/-- The accumulator after the last tile of the shard a point belongs to. -/
theorem acc_shard' (c : Dev nD) (n : Nat) (h : n < cfg1.N) (h31 : n % 32 = 31) (p : Fin 2) (hp : p.val = n / 32) :
    (outsAt V c n h).2 (ix2 0 0) = Cert.Spec.shardLoss (V c main_arg0) (V c main_arg1) (V c main_v18) p := by
  have e : n = 32 * p.val + 31 := by omega
  subst e
  exact acc_shard V c p h

/-- The block written back at a shard's last tile is the specification's array read through the block. -/
theorem flushed_eq (c : Dev nD) (t : Fin cfg1.N) (hf : (cfg1.win 3).flush t = true) :
    (dat V c).flushed 3 t = ((cfg1.win 3).blk t).view.read (Elt Ideal) (lossArr V c) := by
  have hN : cfg1.N = 64 := N_1
  have h31 : t.val % 32 = 31 := (flush1_3 t).mp hf
  have h0 : ¬t.val % 32 = 0 := by omega
  have hlt := t.isLt
  funext y
  rw [View.read_apply]
  have hy0 : (y 0).val = 0 := by
    have h : (y 0).val < win1_3.xsize (grid1.coords t) 0 := (y 0).isLt
    rw [(hxs3 t).1] at h; omega
  have hy : win1_3.xinj (grid1.coords t) y = ix3 0 0 0 := by
    funext a
    apply Fin.ext
    match a with
    | ⟨0, _⟩ => show (y 0).val = 0; exact hy0
    | ⟨1, _⟩ =>
      show (y 1).val = 0
      have h : (y 1).val < win1_3.xsize (grid1.coords t) 1 := (y 1).isLt
      rw [(hxs3 t).2.1] at h; omega
    | ⟨2, _⟩ =>
      show (y 2).val = 0
      have h : (y 2).val < win1_3.xsize (grid1.coords t) 2 := (y 2).isLt
      rw [(hxs3 t).2.2] at h; omega
  show (outsAt V c t.val t.isLt).1 (win1_3.xinj (grid1.coords t) y) = lossArr V c _
  rw [hy, out_step_last V c t h0 h31, acc_shard' V c t.val t.isLt h31 ⟨t.val / 32, by omega⟩ rfl]
  unfold lossArr
  congr 1
  apply Fin.ext
  show t.val / 32 = win1_3.index t 0 * 1 + 1 * (y 0).val
  rw [(hidx3 t).1, hy0]; omega

/-- THE RESULT: the region leaves in its output array the two shards' weighted losses. -/
theorem arr_eq (c : Dev nD) :
    (dat (F := Ideal) V c).arrAt 3 cfg1.N
      = fun j : S2x1x1.Idx => Cert.Spec.shardLoss (V c main_arg0) (V c main_arg1) (V c main_v18) (j 0) := by
  have hN : cfg1.N = 64 := N_1
  refine (dat V c).arrAt_eq_of_cover 3 (lossArr V c) (flushed_eq V c) fun i => ?_
  have hi0 : ((i 0 : Fin 2) : Nat) < 2 := (i 0 : Fin 2).isLt
  have hi1 : ((i 1 : Fin 1) : Nat) < 1 := (i 1 : Fin 1).isLt
  have hi2 : ((i 2 : Fin 1) : Nat) < 1 := (i 2 : Fin 1).isLt
  obtain ⟨t, ht⟩ : ∃ t : Fin cfg1.N, t.val = 32 * ((i 0 : Fin 2) : Nat) + 31 := ⟨⟨32 * ((i 0 : Fin 2) : Nat) + 31, by rw [hN]; omega⟩, rfl⟩
  refine ⟨t, (flush1_3 t).mpr (by omega), ?_⟩
  show i ∈ ((View.whole main_v19).slice (win1_3.rect t)).set
  rw [View.set_slice_whole, Rect.mem_set_unit]
  intro a
  have hx := hxs3 t
  have hx' := hidx3 t
  match a with
  | ⟨0, _⟩ =>
    show win1_3.index t 0 * 1 ≤ ((i 0 : Fin 2) : Nat) ∧ ((i 0 : Fin 2) : Nat) < win1_3.index t 0 * 1 + win1_3.xsize (grid1.coords t) 0
    rw [hx.1, hx'.1]; omega
  | ⟨1, _⟩ =>
    show win1_3.index t 1 * 1 ≤ ((i 1 : Fin 1) : Nat) ∧ ((i 1 : Fin 1) : Nat) < win1_3.index t 1 * 1 + win1_3.xsize (grid1.coords t) 1
    rw [hx.2.1, hx'.2.1]; omega
  | ⟨2, _⟩ =>
    show win1_3.index t 2 * 1 ≤ ((i 2 : Fin 1) : Nat) ∧ ((i 2 : Fin 1) : Nat) < win1_3.index t 2 * 1 + win1_3.xsize (grid1.coords t) 2
    rw [hx.2.2, hx'.2.2]; omega

end Array

end Cert.KernelIdeal.Loss
end
-- ==== Proof.LibGridIndex.lean ====
/-
  THE HOST'S SCATTER-ADD AND GATHER OF SINGLE CELLS OF A MATRIX, ADDRESSED FROM A GRID OF INDEX PAIRS, read at an index.
  General lemmas over the extents `N`, `M` (the matrix) and `R`, `K` (the grid): nothing here mentions a program.

  These are the dimension numbers that `x.at[rows, cols].add(v)` and `x[rows, cols]` lower to when `rows`, `cols` and
  `v` are themselves matrices `[R, K]`: the index pairs are stacked along a new last axis into `[R, K, 2]`.

  * Grid scatter-add: operand `[N, M]`, scatter indices `[R, K, 2]`, updates `[R, K]`. Update `(e, k)` lands on cell
    `(idx[e, k, 0], idx[e, k, 1])`, both components read as signed integers and NOT clamped; an update whose pair is
    outside the matrix is dropped. So element `(i, j)` of the result is `x (i, j)` plus the sum of `upd (e, k)` over the
    grid positions whose pair is `(i, j)` (`scatterAdd_grid_apply`, and as a double sum `scatterAdd_grid_apply'`).
  * Grid gather: operand `[N, M]`, start indices `[R, K, 2]`, result `[R, K]`. Element `(e, k)` of the result is the
    operand's cell at the pair `idx[e, k, ·]`, each component read signed and CLAMPED into its axis (`gather_grid_apply`).

  As in the scatter of rows, the landing place of one update is computed coordinate by coordinate from the dimension
  numbers: on each matrix axis the start is the signed index component the map names for it, and the window coordinate is
  zero because both matrix axes are inserted (the update is one cell). That says exactly when an update lands on a given
  cell; the sum over the updates that land there is then the filtered sum over the grid.
-/
import Idealize.ShloMosaic.PureOps.Ideal
import Idealize.ShloMosaic.Lib.ValueIdx

noncomputable section

open scoped BigOperators

namespace Cert.Lib.GridIndex

open Idealize.ShloMosaic Idealize.ShloMosaic.ValueIdx

/-! ## Grid scatter-add: operand `[N, M]`, scatter indices `[R, K, 2]`, updates `[R, K]` -/

/-- The dimension numbers of a scatter of single cells from a grid of index pairs: the updates have no window axis, both
    matrix axes are inserted, the pair's two components (along the indices' last axis) name the matrix axes 0 and 1 in
    order. Their conditions `wf` are decided on a program's literal shapes. -/
abbrev gridScatterDims (N M R K : Nat)
    (wf : ScatterDims.WF ⟨2, ![N, M]⟩ ⟨3, ![R, K, 2]⟩ ⟨2, ![R, K]⟩ [] [0, 1] [0, 1] 2) :
    ScatterDims ⟨2, ![N, M]⟩ ⟨3, ![R, K, 2]⟩ ⟨2, ![R, K]⟩ where
  updateWindowDims := []
  insertedWindowDims := [0, 1]
  scatterDimsToOperandDims := [0, 1]
  indexVectorDim := 2
  wf := wf

section GridScatter
variable {N M R K w : Nat} (wf : ScatterDims.WF ⟨2, ![N, M]⟩ ⟨3, ![R, K, 2]⟩ ⟨2, ![R, K]⟩ [] [0, 1] [0, 1] 2)

/-- On the row axis update `(e, k)` starts at the signed component `idx[e, k, 0]` … -/
theorem gridScatter_start0 (idx : IVec ⟨3, ![R, K, 2]⟩ w) (e : Fin R) (k : Fin K) :
    (gridScatterDims N M R K wf).start (ix2 e k) idx 0 = (idx (ix3 e k 0)).toInt := by
  have hm : (0 : Fin 2) ∈ (gridScatterDims N M R K wf).scatterDimsToOperandDims := by
    show (0 : Fin 2) ∈ ([0, 1] : List (Fin 2))
    decide
  unfold ScatterDims.start
  rw [dif_pos hm]
  have hsi : (gridScatterDims N M R K wf).siIdx (ix2 e k) ⟨List.idxOf (0 : Fin 2) (gridScatterDims N M R K wf).scatterDimsToOperandDims,
      List.idxOf_lt_length_iff.2 hm⟩ = ix3 e k 0 := by
    funext b; refine Fin.ext ?_
    match b with
    | ⟨0, _⟩ => rfl
    | ⟨1, _⟩ => rfl
    | ⟨2, _⟩ => rfl
  rw [hsi]

/-- … and on the column axis at the signed component `idx[e, k, 1]`. -/
theorem gridScatter_start1 (idx : IVec ⟨3, ![R, K, 2]⟩ w) (e : Fin R) (k : Fin K) :
    (gridScatterDims N M R K wf).start (ix2 e k) idx 1 = (idx (ix3 e k 1)).toInt := by
  have hm : (1 : Fin 2) ∈ (gridScatterDims N M R K wf).scatterDimsToOperandDims := by
    show (1 : Fin 2) ∈ ([0, 1] : List (Fin 2))
    decide
  unfold ScatterDims.start
  rw [dif_pos hm]
  have hsi : (gridScatterDims N M R K wf).siIdx (ix2 e k) ⟨List.idxOf (1 : Fin 2) (gridScatterDims N M R K wf).scatterDimsToOperandDims,
      List.idxOf_lt_length_iff.2 hm⟩ = ix3 e k 1 := by
    funext b; refine Fin.ext ?_
    match b with
    | ⟨0, _⟩ => rfl
    | ⟨1, _⟩ => rfl
    | ⟨2, _⟩ => rfl
  rw [hsi]

/-- Both matrix axes are inserted: the window coordinate is `0` on each. -/
theorem gridScatter_window (e : Fin R) (k : Fin K) (a : Fin 2) :
    (gridScatterDims N M R K wf).window (ix2 e k) a = 0 := by
  have h : a ∉ (gridScatterDims N M R K wf).sKept := by
    show a ∉ (List.finRange 2).filter (· ∉ ([0, 1] : List (Fin 2)))
    revert a; decide
  unfold ScatterDims.window
  rw [dif_neg h]

/-- WHERE AN UPDATE LANDS: update `(e, k)` lands on cell `(i, j)` exactly when its signed index pair is `(i, j)`. (A pair
    outside the matrix lands nowhere, and the right side then fails for every cell.) -/
theorem gridScatter_resultIdx_iff (idx : IVec ⟨3, ![R, K, 2]⟩ w) (e : Fin R) (k : Fin K) (i : Fin N) (j : Fin M) :
    (gridScatterDims N M R K wf).resultIdx? (ix2 e k) idx = some (ix2 i j)
      ↔ (idx (ix3 e k 0)).toInt = (i.val : Int) ∧ (idx (ix3 e k 1)).toInt = (j.val : Int) := by
  have hs0 := gridScatter_start0 wf idx e k
  have hs1 := gridScatter_start1 wf idx e k
  have hw0 := gridScatter_window wf e k 0
  have hw1 := gridScatter_window wf e k 1
  have hi : i.val < N := i.isLt
  have hj : j.val < M := j.isLt
  unfold ScatterDims.resultIdx?
  split
  · rename_i h
    rw [Option.some.injEq]
    constructor
    · intro hf
      have h0 : ((gridScatterDims N M R K wf).start (ix2 e k) idx 0 + ((gridScatterDims N M R K wf).window (ix2 e k) 0 : Int)).toNat = i.val :=
        congrArg (fun f : (⟨2, ![N, M]⟩ : Shape).Idx => (f 0).val) hf
      have h1 : ((gridScatterDims N M R K wf).start (ix2 e k) idx 1 + ((gridScatterDims N M R K wf).window (ix2 e k) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((gridScatterDims N M R K wf).start (ix2 e k) idx 0 + ((gridScatterDims N M R K wf).window (ix2 e k) 0 : Int)).toNat = i.val
        rw [hs0, hw0]; omega
      | ⟨1, _⟩ =>
        show ((gridScatterDims N M R K wf).start (ix2 e k) idx 1 + ((gridScatterDims N M R K wf).window (ix2 e k) 1 : Int)).toNat = j.val
        rw [hs1, hw1]; omega
  · rename_i h
    refine iff_of_false (by simp) ?_
    rintro ⟨ht0, ht1⟩
    apply h
    intro a
    match a with
    | ⟨0, _⟩ =>
      show 0 ≤ (gridScatterDims N M R K wf).start (ix2 e k) idx 0 + ((gridScatterDims N M R K wf).window (ix2 e k) 0 : Int)
        ∧ (gridScatterDims N M R K wf).start (ix2 e k) idx 0 + ((gridScatterDims N M R K wf).window (ix2 e k) 0 : Int) < (N : Int)
      rw [hs0, hw0]; omega
    | ⟨1, _⟩ =>
      show 0 ≤ (gridScatterDims N M R K wf).start (ix2 e k) idx 1 + ((gridScatterDims N M R K wf).window (ix2 e k) 1 : Int)
        ∧ (gridScatterDims N M R K wf).start (ix2 e k) idx 1 + ((gridScatterDims N M R K wf).window (ix2 e k) 1 : Int) < (M : Int)
      rw [hs1, hw1]; omega

/-- THE GRID SCATTER-ADD READ AT `(i, j)`: the operand's element plus the sum of the updates at the grid positions whose
    index pair, read signed, is `(i, j)`. -/
theorem scatterAdd_grid_apply (x : (⟨2, ![N, M]⟩ : Shape).Idx → EReal) (idx : IVec ⟨3, ![R, K, 2]⟩ w)
    (upd : (⟨2, ![R, K]⟩ : Shape).Idx → EReal) (i : Fin N) (j : Fin M) :
    Ideal.hostScatterAdd (gridScatterDims N M R K wf) x idx upd (ix2 i j)
      = x (ix2 i j) + ∑ p ∈ Finset.univ.filter (fun p : (⟨2, ![R, K]⟩ : Shape).Idx =>
          (idx (ix3 (p 0) (p 1) 0)).toInt = (i.val : Int) ∧ (idx (ix3 (p 0) (p 1) 1)).toInt = (j.val : Int)), upd p := by
  unfold Ideal.hostScatterAdd
  congr 1
  refine Finset.sum_congr (Finset.filter_congr fun p _ => ?_) fun _ _ => rfl
  rw [eq_ix2 p]
  exact gridScatter_resultIdx_iff wf idx (p 0) (p 1) i j

/-- The same as a double sum over the grid's rows and columns, each position contributing its update when its pair is
    `(i, j)` and zero otherwise. -/
theorem scatterAdd_grid_apply' (x : (⟨2, ![N, M]⟩ : Shape).Idx → EReal) (idx : IVec ⟨3, ![R, K, 2]⟩ w)
    (upd : (⟨2, ![R, K]⟩ : Shape).Idx → EReal) (i : Fin N) (j : Fin M) :
    Ideal.hostScatterAdd (gridScatterDims N M R K wf) x idx upd (ix2 i j)
      = x (ix2 i j) + ∑ e : Fin R, ∑ k : Fin K,
          if (idx (ix3 e k 0)).toInt = (i.val : Int) ∧ (idx (ix3 e k 1)).toInt = (j.val : Int) then upd (ix2 e k) else 0 := by
  rw [scatterAdd_grid_apply wf, Finset.sum_filter, sum_idx2]
  rfl

end GridScatter

/-! ## Grid gather: operand `[N, M]`, start indices `[R, K, 2]`, result `[R, K]` -/

/-- The dimension numbers of a gather of single cells from a grid of index pairs: no offset axis, both matrix axes
    collapsed, the pair's two components name the matrix axes 0 and 1 in order, every slice one cell. -/
abbrev gridGatherDims (N M R K : Nat)
    (wf : GatherDims.WF ⟨2, ![N, M]⟩ ⟨3, ![R, K, 2]⟩ ⟨2, ![R, K]⟩ [] [0, 1] [] [0, 1] [] 2 ![1, 1]) :
    GatherDims ⟨2, ![N, M]⟩ ⟨3, ![R, K, 2]⟩ ⟨2, ![R, K]⟩ where
  offsetDims := []
  collapsedSliceDims := [0, 1]
  operandBatchingDims := []
  startIndicesBatchingDims := []
  startIndexMap := [0, 1]
  indexVectorDim := 2
  sliceSizes := ![1, 1]
  wf := wf

section GridGather
variable {α : Type} {N M R K w : Nat}

/-- THE GRID GATHER READ AT `(e, k)`: the operand at the cell whose row is `idx[e, k, 0]` and whose column is
    `idx[e, k, 1]`, each read signed and clamped into its axis. On both matrix axes the operand coordinate is the
    clamped start alone: the axes are collapsed (no offset) and none is a batching axis. -/
theorem gather_grid_apply (hN : 0 < N) (hM : 0 < M)
    (wf : GatherDims.WF ⟨2, ![N, M]⟩ ⟨3, ![R, K, 2]⟩ ⟨2, ![R, K]⟩ [] [0, 1] [] [0, 1] [] 2 ![1, 1])
    (x : (⟨2, ![N, M]⟩ : Shape).Idx → α) (idx : IVec ⟨3, ![R, K, 2]⟩ w) (e : Fin R) (k : Fin K) :
    Host.gather (gridGatherDims N M R K wf) x idx (ix2 e k)
      = x (ix2 ⟨min (idx (ix3 e k 0)).toInt.toNat (N - 1), by omega⟩ ⟨min (idx (ix3 e k 1)).toInt.toNat (M - 1), by omega⟩) := by
  unfold Host.gather
  congr 1
  funext a
  refine Fin.ext ?_
  have hall : ∀ a : Fin 2, a ∈ ([0, 1] : List (Fin 2)) := by decide
  have hnk : ∀ a : Fin 2, a ∉ (gridGatherDims N M R K wf).sKept := fun a h =>
    ((GatherDims.mem_sKept _ _).mp h).1 (hall a)
  match a with
  | ⟨0, _⟩ =>
    show (gridGatherDims N M R K wf).start (ix2 e k) idx 0 + (gridGatherDims N M R K wf).batchCoord (ix2 e k) 0
      + (gridGatherDims N M R K wf).offCoord (ix2 e k) 0 = min (idx (ix3 e k 0)).toInt.toNat (N - 1)
    rw [GatherDims.batchCoord_eq_zero _ _ _ List.not_mem_nil, GatherDims.offCoord_eq_zero _ _ _ (hnk 0)]
    simp only [Nat.add_zero]
    have hm : (0 : Fin 2) ∈ (gridGatherDims N M R K wf).startIndexMap := by
      show (0 : Fin 2) ∈ ([0, 1] : List (Fin 2))
      decide
    unfold GatherDims.start
    rw [dif_pos hm]
    have hsi : (gridGatherDims N M R K wf).siIdx (ix2 e k) ⟨List.idxOf (0 : Fin 2) (gridGatherDims N M R K wf).startIndexMap,
        List.idxOf_lt_length_iff.2 hm⟩ = ix3 e k 0 := by
      funext b; refine Fin.ext ?_
      match b with
      | ⟨0, _⟩ => rfl
      | ⟨1, _⟩ => rfl
      | ⟨2, _⟩ => rfl
    rw [hsi]
    rfl
  | ⟨1, _⟩ =>
    show (gridGatherDims N M R K wf).start (ix2 e k) idx 1 + (gridGatherDims N M R K wf).batchCoord (ix2 e k) 1
      + (gridGatherDims N M R K wf).offCoord (ix2 e k) 1 = min (idx (ix3 e k 1)).toInt.toNat (M - 1)
    rw [GatherDims.batchCoord_eq_zero _ _ _ List.not_mem_nil, GatherDims.offCoord_eq_zero _ _ _ (hnk 1)]
    simp only [Nat.add_zero]
    have hm : (1 : Fin 2) ∈ (gridGatherDims N M R K wf).startIndexMap := by
      show (1 : Fin 2) ∈ ([0, 1] : List (Fin 2))
      decide
    unfold GatherDims.start
    rw [dif_pos hm]
    have hsi : (gridGatherDims N M R K wf).siIdx (ix2 e k) ⟨List.idxOf (1 : Fin 2) (gridGatherDims N M R K wf).startIndexMap,
        List.idxOf_lt_length_iff.2 hm⟩ = ix3 e k 1 := by
      funext b; refine Fin.ext ?_
      match b with
      | ⟨0, _⟩ => rfl
      | ⟨1, _⟩ => rfl
      | ⟨2, _⟩ => rfl
    rw [hsi]
    rfl

end GridGather

end Cert.Lib.GridIndex

end
-- ==== Proof.RefValue.lean ====
/-
  THE REFERENCE'S RESULT IS THE SPECIFICATION.

  The reference program's composed result term, read operation by operation at the ideal instance, is the harmonised loss
  of Spec.lean. The steps, in the program's order:

  * the bin word: sigmoid spelled 1 / (1 + exp(-p)) with the word of 1.0, which is the extended real one;
  * the class index is an iota, so it is the column coordinate as a word, nonnegative and below 40; the bin word lies in
    [0, 29]. Hence the "add the extent where negative" wrap that array indexing inserts leaves both alone;
  * the two index arrays are stacked along a last axis of extent 2: component 0 is the class, component 1 the bin;
  * the scatter-add of the float 1.0 onto zeros counts, for the cell (class, bin), the grid positions whose pair is that
    cell: of a row's 40 positions only the one in the cell's own column can hit, so the count is a sum over the rows;
  * the moving average is a select on "count > 0"; the gather reads it at the clamped pair, which is (class, bin index);
  * the number of non-empty bins is a fold of the widened comparison bits over the 30 bins;
  * the final reduction is the initial zero plus the sum over all elements, then the division by the element count.
-/
import proofs.«148571_j17987323036120_1_alg».proof.Proof.ReadP
import proofs.«148571_j17987323036120_1_alg».proof.Proof.Spec
import proofs.«148571_j17987323036120_1_alg».proof.Proof.LibBinning
import proofs.«148571_j17987323036120_1_alg».proof.Proof.LibGridIndex
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx
open Cert.ReferenceIdeal.ReadP Cert.Spec Cert.Lib.Binning Cert.Lib.GridIndex

/-! ## Words -/

/-- A small natural number made a 32-bit word and read signed is itself. -/
theorem toInt_ofNat_small {n : Nat} (h : n < 2147483648) : (BitVec.ofNat 32 n).toInt = (n : Int) := by
  have h1 : (BitVec.ofNat 32 n).toNat = n := by rw [BitVec.toNat_ofNat]; omega
  rw [BitVec.toInt_eq_toNat_cond, h1]
  split <;> omega

/-- A word read signed is a bin number exactly when it is that number's word. -/
theorem toInt_eq_iff (v : BitVec 32) (b : Fin 30) : v.toInt = (b.val : Int) ↔ v = BitVec.ofNat 32 b.val := by
  have hb : b.val < 2147483648 := by have := b.isLt; omega
  constructor
  · intro h
    exact BitVec.eq_of_toInt_eq (by rw [toInt_ofNat_small hb]; exact h)
  · intro h
    rw [h]; exact toInt_ofNat_small hb

/-! ## The bin word -/

/-- The word of 30.0 is the real 30. -/
theorem k30_eq : k30 = ((30 : ℝ) : EReal) := by
  unfold k30
  simp [Ideal.ofBits, Ideal.ieee, -EReal.coe_mul]; norm_num

theorem k30_nonneg : 0 ≤ k30 := by
  rw [k30_eq]; exact EReal.coe_nonneg.mpr (by norm_num)

/-- The gradient magnitude is a maximum of a quantity and its negative: not negative. -/
theorem gOf_nonneg (p : EReal) (y : BitVec 32) : 0 ≤ gOf p y := by
  unfold gOf
  rcases le_total 0 (Ideal.logistic p - tOf y) with h | h
  · exact le_trans h (le_max_left _ _)
  · refine le_trans ?_ (le_max_right _ _)
    have := EReal.neg_le_neg_iff.mpr h
    simpa using this

/-- The bin word lies in [0, 29]. -/
theorem binOf_range (p : EReal) (y : BitVec 32) : 0 ≤ (binOf p y).toInt ∧ (binOf p y).toInt ≤ 29 := by
  have h := minsi_cap_range (y := Ideal.fptosi 32 (gOf p y * k30)) (cap := 29#32)
    (fptosi_nonneg (mul_nonneg (gOf_nonneg p y) k30_nonneg)) (by decide)
  have h29 : (29#32 : BitVec 32).toInt = 29 := by decide
  rw [h29] at h
  exact h

variable (x0 : (⟨S262144x40, .f32⟩ : BufTy).Contents (Elt Ideal)) (x1 : (⟨S262144x40, .i32⟩ : BufTy).Contents (Elt Ideal))
  (x2 : (⟨S40x30, .f32⟩ : BufTy).Contents (Elt Ideal))

/-- The reference's bin array is the specification's bin word, element by element. -/
theorem v13_apply (i : S262144x40.Idx) : val_main_v13 (F := Ideal) x0 x1 i = binOf (x0 i) (x1 i) := by
  rw [val_main_v13_apply, val_main_v11_apply, val_main_v10_apply, val_main_v8_apply, val_main_v7_apply, val_main_v6_apply,
    val_main_v5_apply, val_main_cst_0_apply, val_main_v4_apply, val_main_v3_apply, val_main_cst_apply, val_main_v2_apply,
    val_main_v1_apply, val_main_v0_apply, val_main_v9_apply, val_main_cst_1_apply, val_main_v12_apply, val_main_c_apply]
  simp only [Ideal.ofBits_def, Ideal.ofBits_one_f32]
  rfl

/-! ## The class index and the wraps -/

/-- The class array is the column coordinate as a word. -/
theorem v16_apply (i : S262144x40.Idx) : val_main_v16 (F := Ideal) i = BitVec.ofNat 32 (i 1).val := by
  rw [val_main_v16_apply, val_main_v15_apply, val_main_v14_apply]

theorem cls_toInt (k : Fin 40) : (BitVec.ofNat 32 k.val).toInt = (k.val : Int) :=
  toInt_ofNat_small (by have := k.isLt; omega)

theorem col_toInt (i : S262144x40.Idx) : (BitVec.ofNat 32 (i 1).val).toInt = ((i 1).val : Int) :=
  toInt_ofNat_small (by have := idx2_lt1 i; omega)

/-- The wrap of the class index (for the scatter) leaves it alone. -/
theorem v22_apply (i : S262144x40.Idx) : val_main_v22 (F := Ideal) i = BitVec.ofNat 32 (i 1).val := by
  rw [val_main_v22_apply, val_main_v19_apply, val_main_v21_apply, val_main_v18_apply, val_main_c_3_apply, v16_apply]
  exact wrap_of_nonneg (ext := val_main_v20 (F := Ideal) i) (by rw [col_toInt]; omega)

/-- The wrap of the class index (for the gather) leaves it alone. -/
theorem v45_apply (i : S262144x40.Idx) : val_main_v45 (F := Ideal) i = BitVec.ofNat 32 (i 1).val := by
  rw [val_main_v45_apply, val_main_v42_apply, val_main_v44_apply, val_main_v41_apply, val_main_c_11_apply, v16_apply]
  exact wrap_of_nonneg (ext := val_main_v43 (F := Ideal) i) (by rw [col_toInt]; omega)

/-- The wrap of the bin word (for the scatter) leaves it alone. -/
theorem v27_apply (i : S262144x40.Idx) : val_main_v27 (F := Ideal) x0 x1 i = binOf (x0 i) (x1 i) := by
  rw [val_main_v27_apply, val_main_v24_apply, val_main_v26_apply, val_main_v23_apply, val_main_c_5_apply, v13_apply]
  exact wrap_of_nonneg (ext := val_main_v25 (F := Ideal) i) (binOf_range _ _).1

/-- The wrap of the bin word (for the gather) leaves it alone. -/
theorem v50_apply (i : S262144x40.Idx) : val_main_v50 (F := Ideal) x0 x1 i = binOf (x0 i) (x1 i) := by
  rw [val_main_v50_apply, val_main_v47_apply, val_main_v49_apply, val_main_v46_apply, val_main_c_13_apply, v13_apply]
  exact wrap_of_nonneg (ext := val_main_v48 (F := Ideal) i) (binOf_range _ _).1

/-! ## The stacked index pairs -/

theorem idx29_eq (e : Fin 262144) (k : Fin 40) : idx_main_v29 (ix3 e k (0 : Fin 1)) = ix2 e k := by
  funext a; match a with | ⟨0, _⟩ => rfl | ⟨1, _⟩ => rfl

theorem idx52_eq (e : Fin 262144) (k : Fin 40) : idx_main_v52 (ix3 e k (0 : Fin 1)) = ix2 e k := by
  funext a; match a with | ⟨0, _⟩ => rfl | ⟨1, _⟩ => rfl

/-- Component 0 of the scatter's pair is the class. -/
theorem v30_apply0 (e : Fin 262144) (k : Fin 40) :
    val_main_v30 (F := Ideal) x0 x1 (ix3 e k 0) = BitVec.ofNat 32 k.val := by
  unfold val_main_v30
  rw [concatenate_pair_apply_left (s₁ := S262144x40x1) (s₂ := S262144x40x1) (2 : Fin S262144x40x2.rank) _ _ _ (ix3 e k 0) rfl (ix3 e k (0 : Fin 1))
    (fun b => match b with | ⟨0, _⟩ => rfl | ⟨1, _⟩ => rfl | ⟨2, _⟩ => rfl)]
  rw [val_main_v28_apply, v22_apply]

/-- Component 1 of the scatter's pair is the bin word. -/
theorem v30_apply1 (e : Fin 262144) (k : Fin 40) :
    val_main_v30 (F := Ideal) x0 x1 (ix3 e k 1) = binOf (x0 (ix2 e k)) (x1 (ix2 e k)) := by
  unfold val_main_v30
  rw [concatenate_pair_apply_right (s₁ := S262144x40x1) (s₂ := S262144x40x1) (2 : Fin S262144x40x2.rank) _ _ _ (ix3 e k 1) rfl rfl (ix3 e k (0 : Fin 1))
    (fun b => match b with | ⟨0, _⟩ => fun _ => rfl | ⟨1, _⟩ => fun _ => rfl | ⟨2, _⟩ => fun h => absurd rfl h) rfl]
  rw [val_main_v29_apply, v27_apply, idx29_eq]

/-- Component 0 of the gather's pair is the class. -/
theorem v53_apply0 (e : Fin 262144) (k : Fin 40) :
    val_main_v53 (F := Ideal) x0 x1 (ix3 e k 0) = BitVec.ofNat 32 k.val := by
  unfold val_main_v53
  rw [concatenate_pair_apply_left (s₁ := S262144x40x1) (s₂ := S262144x40x1) (2 : Fin S262144x40x2.rank) _ _ _ (ix3 e k 0) rfl (ix3 e k (0 : Fin 1))
    (fun b => match b with | ⟨0, _⟩ => rfl | ⟨1, _⟩ => rfl | ⟨2, _⟩ => rfl)]
  rw [val_main_v51_apply, v45_apply]

/-- Component 1 of the gather's pair is the bin word. -/
theorem v53_apply1 (e : Fin 262144) (k : Fin 40) :
    val_main_v53 (F := Ideal) x0 x1 (ix3 e k 1) = binOf (x0 (ix2 e k)) (x1 (ix2 e k)) := by
  unfold val_main_v53
  rw [concatenate_pair_apply_right (s₁ := S262144x40x1) (s₂ := S262144x40x1) (2 : Fin S262144x40x2.rank) _ _ _ (ix3 e k 1) rfl rfl (ix3 e k (0 : Fin 1))
    (fun b => match b with | ⟨0, _⟩ => fun _ => rfl | ⟨1, _⟩ => fun _ => rfl | ⟨2, _⟩ => fun h => absurd rfl h) rfl]
  rw [val_main_v52_apply, v50_apply, idx52_eq]

/-! ## The counts -/

/-- The scatter-add of ones onto zeros is the specification's count: in a row, only the position in the cell's own
    column has the cell's class, and it hits when its bin word is the cell's bin. -/
theorem v32_apply (c : Fin 40) (b : Fin 30) :
    val_main_v32 (F := Ideal) x0 x1 (ix2 c b) = cnt x0 x1 b c := by
  have h := scatterAdd_grid_apply' (N := 40) (M := 30) (R := 262144) (K := 40) (w := 32)
    scatter_S40x30_S262144x40x2_S262144x40_n_01_01_2_wf (val_main_v17 (F := Ideal)) (val_main_v30 (F := Ideal) x0 x1)
    (val_main_v31 (F := Ideal)) c b
  refine Eq.trans h ?_
  unfold cnt
  refine congrArg₂ (· + ·) ?_ (Finset.sum_congr rfl fun e _ => ?_)
  · simp only [val_main_v17_apply, val_main_cst_2_apply, Ideal.ofBits_def, kZero]
  · rw [Finset.sum_eq_single c]
    · rw [v30_apply0, v30_apply1, val_main_v31_apply, val_main_cst_7_apply]
      refine if_congr ?_ rfl rfl
      rw [cls_toInt]
      exact ⟨fun h => (toInt_eq_iff _ b).mp h.2, fun h => ⟨rfl, (toInt_eq_iff _ b).mpr h⟩⟩
    · intro k _ hk
      rw [v30_apply0, if_neg]
      rintro ⟨h0, _⟩
      rw [cls_toInt] at h0
      exact hk (Fin.ext (by omega))
    · intro h; exact absurd (Finset.mem_univ c) h

/-- "Count > 0" is the specification's non-empty bit. -/
theorem v34_apply (c : Fin 40) (b : Fin 30) :
    val_main_v34 (F := Ideal) x0 x1 (ix2 c b) = nonempty x0 x1 b c := by
  rw [val_main_v34_apply, v32_apply, val_main_v33_apply, val_main_cst_8_apply]
  rfl

/-! ## The moving average and the gather -/

/-- The select on the non-empty bit is the specification's updated accumulator. -/
theorem v40_apply (c : Fin 40) (b : Fin 30) :
    val_main_v40 (F := Ideal) x0 x1 x2 (ix2 c b) = newacc x0 x1 x2 b c := by
  rw [val_main_v40_apply, v34_apply, val_main_v39_apply, val_main_v36_apply, val_main_v35_apply, val_main_cst_9_apply,
    val_main_v38_apply, val_main_v37_apply, val_main_cst_10_apply, v32_apply]
  rfl

/-- The gather reads the updated accumulator at (class, bin index): the class word clamps to the column, the bin word
    to the specification's bin index. -/
theorem v54_apply (e : Fin 262144) (k : Fin 40) :
    val_main_v54 (F := Ideal) x0 x1 x2 (ix2 e k) = newacc x0 x1 x2 (binIdx x0 x1 e k) k := by
  have h := gather_grid_apply (N := 40) (M := 30) (R := 262144) (K := 40) (w := 32) (by decide) (by decide)
    gather_S40x30_S262144x40x2_S262144x40_n_01_n_n_01_2_11_wf (val_main_v40 (F := Ideal) x0 x1 x2)
    (val_main_v53 (F := Ideal) x0 x1) e k
  refine Eq.trans h ?_
  rw [← v40_apply]
  refine congrArg _ ?_
  have h0 : min (val_main_v53 (F := Ideal) x0 x1 (ix3 e k 0)).toInt.toNat (40 - 1) = k.val := by
    rw [v53_apply0, cls_toInt]
    have := k.isLt
    omega
  have h1 : min (val_main_v53 (F := Ideal) x0 x1 (ix3 e k 1)).toInt.toNat (30 - 1) = (binIdx x0 x1 e k).val := by
    rw [v53_apply1]
    rfl
  funext a
  match a with
  | ⟨0, _⟩ => exact Fin.ext h0
  | ⟨1, _⟩ => exact Fin.ext h1

/-! ## The number of non-empty bins -/

theorem reduces_bins : S40x30.Reduces [(1 : Fin S40x30.rank)] S40 := by decide

theorem lift_bins (c : Fin 40) (b : Fin 30) : reduces_bins.lift (ix1 c) b = ix2 c b := by
  funext d
  apply Fin.ext
  match d with
  | ⟨0, _⟩ => rfl
  | ⟨1, _⟩ => rfl

/-- The integer reduction over the bins is the fold of the widened non-empty bits. -/
theorem v58_apply (c : Fin 40) :
    val_main_v58 (F := Ideal) x0 x1 (ix1 c)
      = (Finset.univ : Finset (Fin 30)).fold IntOp.addi 0#32 fun b => (nonempty x0 x1 b c).setWidth 32 := by
  have h := Host.reduce_eq_fold_single (a := (1 : Fin S40x30.rank)) IntOp.addi (val_main_v57 (F := Ideal) x0 x1)
    (val_main_c_16 (F := Ideal)) reducesTo_S40x30_S40_d1 reduces_bins h_S_ (ix1 c)
  refine Eq.trans h ?_
  refine Finset.fold_congr fun (b : Fin 30) _ => ?_
  show val_main_v57 (F := Ideal) x0 x1 (reduces_bins.lift (ix1 c) b) = _
  rw [lift_bins, val_main_v57_apply, v34_apply]

theorem idx6061_eq (i : S262144x40.Idx) : idx_main_v60 (idx_main_v61 i) = ix1 ⟨(i 1).val, idx2_lt1 i⟩ := by
  funext a; match a with | ⟨0, _⟩ => rfl

/-- The count of non-empty bins, broadcast over the rows, is the specification's. -/
theorem v61_apply (r : Fin 262144) (c : Fin 40) : val_main_v61 (F := Ideal) x0 x1 (ix2 r c) = nOf x0 x1 c := by
  rw [val_main_v61_apply, val_main_v60_apply, val_main_v59_apply, idx6061_eq]
  show FloatOps.sitofp (F := Ideal) .f32 (val_main_v58 (F := Ideal) x0 x1 (ix1 c)) = _
  rw [v58_apply]
  rfl

/-! ## The weight, the cross-entropy and the sum -/

theorem v62_apply (r : Fin 262144) (c : Fin 40) :
    val_main_v62 (F := Ideal) x0 x1 x2 (ix2 r c) = w x0 x1 x2 (binIdx x0 x1 r c) c := by
  rw [val_main_v62_apply, val_main_v56_apply, val_main_v55_apply, val_main_cst_15_apply, v54_apply, v61_apply]
  rfl

theorem v71_apply (i : S262144x40.Idx) : val_main_v71 (F := Ideal) x0 x1 i = bceOf (x0 i) (x1 i) := by
  rw [val_main_v71_apply, val_main_v66_apply, val_main_v64_apply, val_main_v63_apply, val_main_cst_17_apply,
    val_main_v65_apply, val_main_v0_apply, val_main_v70_apply, val_main_v69_apply, val_main_v68_apply, val_main_v67_apply]
  rfl

theorem v72_apply (r : Fin 262144) (c : Fin 40) :
    val_main_v72 (F := Ideal) x0 x1 x2 (ix2 r c) = term x0 x1 x2 r c := by
  rw [val_main_v72_apply, v71_apply, v62_apply]
  rfl

/-- The reference's result value is the harmonised loss. -/
theorem v74_apply (i : S_.Idx) : val_main_v74 (F := Ideal) x0 x1 x2 i = result x0 x1 x2 := by
  rw [val_main_v74_apply, val_main_v73_apply, val_main_cst_18_apply, val_main_cst_19_apply, sum_idx2]
  simp only [v72_apply]
  rfl

/-- THE REFERENCE'S RESULT IS THE SPECIFICATION. -/
theorem result_eq (m : (ℓ : Loc nD τ sig) → Buf (Elt Ideal) ℓ) (c : Dev nD) :
    Cert.ReferenceIdeal.ValueP.res_main_v74 (F := Ideal) m c
      = fun _ => Cert.Spec.result (m ((c.tc : Thread nD τ).loc main_arg0)) (m ((c.tc : Thread nD τ).loc main_arg1))
          (m ((c.tc : Thread nD τ).loc main_arg2)) := by
  rw [ReadP.val_main_v74_eq]
  funext i
  exact v74_apply _ _ _ i

end Cert.ReferenceIdeal.RefValue

end
-- ==== Proof.lean ====
/-
  Gradient-harmonised classification loss: a two-sweep kernel against its reference.

  The kernel sweeps the 262144 × 40 predictions and targets twice. The first sweep (the histogram region) counts, per
  class and per one of 30 bins of the gradient magnitude g = |sigmoid(pred) − target|, how many rows fall in the bin
  (bin = min(⌊30 g⌋, 29)); each of two shards accumulates its counts over 32 row tiles in a scratch buffer and writes them
  out at its last tile, and the host adds the two shards. From the counts the host forms a 30 × 40 table of weights
  (262144 / acc) / n, where acc is the moving average of the bin's count where the bin is non-empty and n the number of
  non-empty bins of the class. The second sweep (the loss region) selects each element's weight from the table by a
  one-hot sum over the bins, multiplies it with the binary cross-entropy, and accumulates the shard's sum the same way;
  the host adds the two shards and divides by the number of elements. The reference does the same with a scatter-add of
  ones for the counts and a gather for the weights.

  The three frame claims: each program runs to its end on every weakly fair execution, faults nowhere, and leaves its
  three argument arrays as it found them. For the kernel (word level and idealized) this is the run of its six items —
  two regions and four stretches of host operations — where each region's body obligation comes from running the body
  once in each of the three situations its conditionals distinguish (a shard's first tile, a middle tile, its last tile)
  and the region's invariant carries the scratch accumulator's contents from point to point. For the reference it is
  the straight-line run of its host operations. The idealization rewrote no operation, so the kernel's sanctioned
  idealization is the program's own text and that conjunct is trivial.

  The value claim: both idealized programs end at one function of the arguments, the specification (Spec.lean). It
  holds on every extended real, with no use of the precondition: the conversion to an integer clamps, so the bin index
  lies in [0, 29] for every target and the reference's index wraps and clamps do nothing; a one-hot sum selects its entry
  because 0 · x = 0 and 1 · x = x for every x; and every rearrangement of the sums (shards, tiles, rows against all
  rows; scatter-add against counting) is by commutativity and associativity of addition alone.
-/
import proofs.«148571_j17987323036120_1_alg».proof.Defs
import proofs.«148571_j17987323036120_1_alg».proof.Proof.Gen.Kernel
import proofs.«148571_j17987323036120_1_alg».proof.Proof.Gen.KernelIdeal
import proofs.«148571_j17987323036120_1_alg».proof.Proof.Gen.ReferenceIdeal
import proofs.«148571_j17987323036120_1_alg».proof.Proof.Gen.Pre_finite_inputs
import proofs.«148571_j17987323036120_1_alg».proof.Proof.MainFrame
import proofs.«148571_j17987323036120_1_alg».proof.Proof.MainFrameWord
import proofs.«148571_j17987323036120_1_alg».proof.Proof.RefFrame
import proofs.«148571_j17987323036120_1_alg».proof.Proof.Algebraic
import proofs.«148571_j17987323036120_1_alg».proof.Proof.HistValue
import proofs.«148571_j17987323036120_1_alg».proof.Proof.LossValue
import proofs.«148571_j17987323036120_1_alg».proof.Proof.RefValue
import Idealize.ShloMosaic.Adequacy
import Idealize.ShloMosaic.Init

noncomputable section

namespace Cert.Proof

open Idealize.ShloMosaic Idealize.SL.Sem

/-- The word-level kernel runs, faults nowhere and leaves its arguments unchanged. -/
theorem frame_word : Cert.frame_Kernel := fun m ρ _ => Cert.Kernel.Main.frame (F := Bits) m ρ

/-- So does the idealized kernel. -/
theorem frame_ideal : Cert.frame_KernelIdeal := fun m ρ _ => Cert.KernelIdeal.Main.frame (F := Ideal) m ρ

/-- And the reference. -/
theorem frame_reference : Cert.frame_ReferenceIdeal := Cert.Proof.Reference.frame

/-- The idealization rewrote no operation. -/
theorem preserves : Cert.preserves_Kernel_KernelIdeal := trivial

/-- The two idealized programs end with equal results: what the histogram region leaves, what the loss region leaves,
    and what the reference computes, put together. -/
theorem algebraic : Cert.algebraic_KernelIdeal_ReferenceIdeal :=
  Cert.Proof.Value.algebraic_of (fun V c => Cert.KernelIdeal.Hist.arr_eq V c) (fun V c => Cert.KernelIdeal.Loss.arr_eq V c)
    (fun m' c => Cert.ReferenceIdeal.RefValue.result_eq m' c)

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
